-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S10000x64 : Shape := ⟨2, ![10000, 64]⟩
abbrev S2x500000 : Shape := ⟨2, ![2, 500000]⟩
abbrev S300000 : Shape := ⟨1, ![300000]⟩
abbrev S200000 : Shape := ⟨1, ![200000]⟩
abbrev S128x128 : Shape := ⟨2, ![128, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_v118 : IVec S_ 1) (main_v119 : FVec F S1 .f32) : IVec S_ 1 :=
  let main_cst_46 : FVec F S_ .f32 := constant S_ .f32 0x7F800000#32
  let main_v120 : FVec F S1 .f32 := broadcastInDim S1 ![] bcast_S_S1 main_cst_46
  let main_v121 : IVec S1 1 := cmpf .olt main_v119 main_v120
  let main_c_47 : IVec S_ 1 := constantI S_ 1 1#1
  let main_v122 : IVec S_ 1 := (fun x v => Host.reduce IntOp.andi x v reducesTo_S1_S_d0 h_S_) main_v121 main_c_47
  let main_v123 : IVec S_ 1 := andi main_v118 main_v122
  main_v123

def fn_part6 {F : FTy → Type} [FloatOps F] (main_arg26 : FVec F S128x64 .f32) (main_arg27 : FVec F S64 .f32) (main_arg28 : FVec F S64x1 .f32) (main_arg29 : FVec F S1 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S128x64 .f32 := Host.absf main_arg26
  let main_cst_40 : FVec F S_ .f32 := constant S_ .f32 0x7F800000#32
  let main_v105 : FVec F S128x64 .f32 := broadcastInDim S128x64 ![] bcast_S_S128x64 main_cst_40
  let main_v106 : IVec S128x64 1 := cmpf .olt main_v104 main_v105
  let main_c_41 : IVec S_ 1 := constantI S_ 1 1#1
  let main_v107 : IVec S_ 1 := (fun x v => Host.reduce IntOp.andi x v reducesTo_S128x64_S_d0_1 h_S_) main_v106 main_c_41
  let main_v108 : IVec S_ 1 := andi main_v103 main_v107
  let main_v109 : FVec F S64 .f32 := Host.absf main_arg27
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  let main_v114 : FVec F S64x1 .f32 := Host.absf main_arg28
  let main_cst_44 : FVec F S_ .f32 := constant S_ .f32 0x7F800000#32
  let main_v115 : FVec F S64x1 .f32 := broadcastInDim S64x1 ![] bcast_S_S64x1 main_cst_44
  let main_v116 : IVec S64x1 1 := cmpf .olt main_v114 main_v115
  let main_c_45 : IVec S_ 1 := constantI S_ 1 1#1
  let main_v117 : IVec S_ 1 := (fun x v => Host.reduce IntOp.andi x v reducesTo_S64x1_S_d0_1 h_S_) main_v116 main_c_45
  let main_v118 : IVec S_ 1 := andi main_v113 main_v117
  let main_v119 : FVec F S1 .f32 := Host.absf main_arg29
  fn_part7 (F := F) main_v118 main_v119

def fn_part5 {F : FTy → Type} [FloatOps F] (main_arg23 : FVec F S128 .f32) (main_arg24 : FVec F S128x64 .f32) (main_arg25 : FVec F S64 .f32) (main_arg26 : FVec F S128x64 .f32) (main_arg27 : FVec F S64 .f32) (main_arg28 : FVec F S64x1 .f32) (main_arg29 : FVec F S1 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg23
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg24
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg25
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg26 main_arg27 main_arg28 main_arg29 main_v98 main_v101 main_c_39

def fn_part4 {F : FTy → Type} [FloatOps F] (main_arg19 : FVec F S128x128 .f32) (main_arg20 : FVec F S128 .f32) (main_arg21 : FVec F S128x128 .f32) (main_arg22 : FVec F S128x128 .f32) (main_arg23 : FVec F S128 .f32) (main_arg24 : FVec F S128x64 .f32) (main_arg25 : FVec F S64 .f32) (main_arg26 : FVec F S128x64 .f32) (main_arg27 : FVec F S64 .f32) (main_arg28 : FVec F S64x1 .f32) (main_arg29 : FVec F S1 .f32) (main_v63 : IVec S_ 1) (main_v67 : IVec S_ 1) : IVec S_ 1 :=
  let main_v68 : IVec S_ 1 := andi main_v63 main_v67
  let main_v69 : FVec F S128x128 .f32 := Host.absf main_arg19
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg20
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg21
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg22
  let main_cst_32 : FVec F S_ .f32 := constant S_ .f32 0x7F800000#32
  fn_part5 (F := F) main_arg23 main_arg24 main_arg25 main_arg26 main_arg27 main_arg28 main_arg29 main_v83 main_v84 main_cst_32

def fn_part3 {F : FTy → Type} [FloatOps F] (main_arg16 : FVec F S128x64 .f32) (main_arg17 : FVec F S64 .f32) (main_arg18 : FVec F S128x128 .f32) (main_arg19 : FVec F S128x128 .f32) (main_arg20 : FVec F S128 .f32) (main_arg21 : FVec F S128x128 .f32) (main_arg22 : FVec F S128x128 .f32) (main_arg23 : FVec F S128 .f32) (main_arg24 : FVec F S128x64 .f32) (main_arg25 : FVec F S64 .f32) (main_arg26 : FVec F S128x64 .f32) (main_arg27 : FVec F S64 .f32) (main_arg28 : FVec F S64x1 .f32) (main_arg29 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg16
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg17
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S128x128 .f32 := Host.absf main_arg18
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg19 main_arg20 main_arg21 main_arg22 main_arg23 main_arg24 main_arg25 main_arg26 main_arg27 main_arg28 main_arg29 main_v63 main_v67

def fn_part2 {F : FTy → Type} [FloatOps F] (main_arg12 : FVec F S128 .f32) (main_arg13 : FVec F S128x128 .f32) (main_arg14 : FVec F S128x128 .f32) (main_arg15 : FVec F S128 .f32) (main_arg16 : FVec F S128x64 .f32) (main_arg17 : FVec F S64 .f32) (main_arg18 : FVec F S128x128 .f32) (main_arg19 : FVec F S128x128 .f32) (main_arg20 : FVec F S128 .f32) (main_arg21 : FVec F S128x128 .f32) (main_arg22 : FVec F S128x128 .f32) (main_arg23 : FVec F S128 .f32) (main_arg24 : FVec F S128x64 .f32) (main_arg25 : FVec F S64 .f32) (main_arg26 : FVec F S128x64 .f32) (main_arg27 : FVec F S64 .f32) (main_arg28 : FVec F S64x1 .f32) (main_arg29 : FVec F S1 .f32) (main_v33 : IVec S_ 1) : IVec S_ 1 :=
  let main_v34 : FVec F S128 .f32 := Host.absf main_arg12
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg13
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg14
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg15
  let main_cst_18 : FVec F S_ .f32 := constant S_ .f32 0x7F800000#32
  let main_v50 : FVec F S128 .f32 := broadcastInDim S128 ![] bcast_S_S128 main_cst_18
  fn_part3 (F := F) main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg9 : FVec F S128 .f32) (main_arg10 : FVec F S128x128 .f32) (main_arg11 : FVec F S64x128 .f32) (main_arg12 : FVec F S128 .f32) (main_arg13 : FVec F S128x128 .f32) (main_arg14 : FVec F S128x128 .f32) (main_arg15 : FVec F S128 .f32) (main_arg16 : FVec F S128x64 .f32) (main_arg17 : FVec F S64 .f32) (main_arg18 : FVec F S128x128 .f32) (main_arg19 : FVec F S128x128 .f32) (main_arg20 : FVec F S128 .f32) (main_arg21 : FVec F S128x128 .f32) (main_arg22 : FVec F S128x128 .f32) (main_arg23 : FVec F S128 .f32) (main_arg24 : FVec F S128x64 .f32) (main_arg25 : FVec F S64 .f32) (main_arg26 : FVec F S128x64 .f32) (main_arg27 : FVec F S64 .f32) (main_arg28 : FVec F S64x1 .f32) (main_arg29 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg9
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg10
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S64x128 .f32 := Host.absf main_arg11
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S30000x128 .f32) (main_arg1 : FVec F S10000x64 .f32) (main_arg2 : IVec S2x500000 32) (main_arg3 : IVec S300000 32) (main_arg4 : IVec S300000 32) (main_arg5 : IVec S200000 32) (main_arg6 : IVec S200000 32) (main_arg7 : FVec F S128x128 .f32) (main_arg8 : FVec F S128x128 .f32) (main_arg9 : FVec F S128 .f32) (main_arg10 : FVec F S128x128 .f32) (main_arg11 : FVec F S64x128 .f32) (main_arg12 : FVec F S128 .f32) (main_arg13 : FVec F S128x128 .f32) (main_arg14 : FVec F S128x128 .f32) (main_arg15 : FVec F S128 .f32) (main_arg16 : FVec F S128x64 .f32) (main_arg17 : FVec F S64 .f32) (main_arg18 : FVec F S128x128 .f32) (main_arg19 : FVec F S128x128 .f32) (main_arg20 : FVec F S128 .f32) (main_arg21 : FVec F S128x128 .f32) (main_arg22 : FVec F S128x128 .f32) (main_arg23 : FVec F S128 .f32) (main_arg24 : FVec F S128x64 .f32) (main_arg25 : FVec F S64 .f32) (main_arg26 : FVec F S128x64 .f32) (main_arg27 : FVec F S64 .f32) (main_arg28 : FVec F S64x1 .f32) (main_arg29 : FVec F S1 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S10000x64 .f32 := Host.absf main_arg1
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg8
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S30000x128 : Shape := ⟨2, ![30000, 128]⟩
abbrev S10000x64 : Shape := ⟨2, ![10000, 64]⟩
abbrev S2x500000 : Shape := ⟨2, ![2, 500000]⟩
abbrev S300000 : Shape := ⟨1, ![300000]⟩
abbrev S200000 : Shape := ⟨1, ![200000]⟩
abbrev S128x128 : Shape := ⟨2, ![128, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S30000 : Shape := ⟨1, ![30000]⟩
abbrev S500000x1 : Shape := ⟨2, ![500000, 1]⟩
abbrev S500000x128 : Shape := ⟨2, ![500000, 128]⟩
abbrev S30000x1 : Shape := ⟨2, ![30000, 1]⟩
abbrev S1x128 : Shape := ⟨2, ![1, 128]⟩
abbrev S3000x128 : Shape := ⟨2, ![3000, 128]⟩
abbrev S300000x1 : Shape := ⟨2, ![300000, 1]⟩
abbrev S300000x128 : Shape := ⟨2, ![300000, 128]⟩
abbrev S10000x128 : Shape := ⟨2, ![10000, 128]⟩
abbrev S10000 : Shape := ⟨1, ![10000]⟩
abbrev S10000x1 : Shape := ⟨2, ![10000, 1]⟩
abbrev S1x64 : Shape := ⟨2, ![1, 64]⟩
abbrev S2000x128 : Shape := ⟨2, ![2000, 128]⟩
abbrev S2000x64 : Shape := ⟨2, ![2000, 64]⟩
abbrev S30000x64 : Shape := ⟨2, ![30000, 64]⟩
abbrev S3000x64 : Shape := ⟨2, ![3000, 64]⟩
abbrev S200000x1 : Shape := ⟨2, ![200000, 1]⟩
abbrev S200000x64 : Shape := ⟨2, ![200000, 64]⟩
abbrev S64x64 : Shape := ⟨2, ![64, 64]⟩
abbrev S1x1 : Shape := ⟨2, ![1, 1]⟩
abbrev S5000x64 : Shape := ⟨2, ![5000, 64]⟩
abbrev S5000x1 : Shape := ⟨2, ![5000, 1]⟩

abbrev nBuf : Space → Nat
  | .hbm => 138
  | .vmem => 50
  | .smem => 0
  | _ => 0

abbrev hbmTy0_0 (i : Nat) : BufTy := match i % 128 with
  | 0 => ⟨S30000x128, .f32⟩
  | 1 => ⟨S10000x64, .f32⟩
  | 2 => ⟨S2x500000, .i32⟩
  | 3 => ⟨S300000, .i32⟩
  | 4 => ⟨S300000, .i32⟩
  | 5 => ⟨S200000, .i32⟩
  | 6 => ⟨S200000, .i32⟩
  | 7 => ⟨S128x128, .f32⟩
  | 8 => ⟨S128x128, .f32⟩
  | 9 => ⟨S128, .f32⟩
  | 10 => ⟨S128x128, .f32⟩
  | 11 => ⟨S64x128, .f32⟩
  | 12 => ⟨S128, .f32⟩
  | 13 => ⟨S128x128, .f32⟩
  | 14 => ⟨S128x128, .f32⟩
  | 15 => ⟨S128, .f32⟩
  | 16 => ⟨S128x64, .f32⟩
  | 17 => ⟨S64, .f32⟩
  | 18 => ⟨S128x128, .f32⟩
  | 19 => ⟨S128x128, .f32⟩
  | 20 => ⟨S128, .f32⟩
  | 21 => ⟨S128x128, .f32⟩
  | 22 => ⟨S128x128, .f32⟩
  | 23 => ⟨S128, .f32⟩
  | 24 => ⟨S128x64, .f32⟩
  | 25 => ⟨S64, .f32⟩
  | 26 => ⟨S128x64, .f32⟩
  | 27 => ⟨S64, .f32⟩
  | 28 => ⟨S64x1, .f32⟩
  | 29 => ⟨S1, .f32⟩
  | 30 => ⟨S1x500000, .i32⟩
  | 31 => ⟨S500000, .i32⟩
  | 32 => ⟨S1x500000, .i32⟩
  | 33 => ⟨S500000, .i32⟩
  | 34 => ⟨S_, .f32⟩
  | 35 => ⟨S500000, .f32⟩
  | 36 => ⟨S_, .f32⟩
  | 37 => ⟨S30000, .f32⟩
  | 38 => ⟨S500000x1, .i32⟩
  | 39 => ⟨S30000, .f32⟩
  | 40 => ⟨S_, .f32⟩
  | 41 => ⟨S30000, .f32⟩
  | 42 => ⟨S30000, .f32⟩
  | 43 => ⟨S_, .f32⟩
  | 44 => ⟨S30000, .f32⟩
  | 45 => ⟨S30000, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x128, .f32⟩
  | 55 => ⟨S_, .f32⟩
  | 56 => ⟨S30000x128, .f32⟩
  | 57 => ⟨S500000x1, .i32⟩
  | 58 => ⟨S30000x128, .f32⟩
  | 59 => ⟨S30000x1, .f32⟩
  | 60 => ⟨S30000x128, .f32⟩
  | 61 => ⟨S30000x128, .f32⟩
  | 62 => ⟨S1x128, .f32⟩
  | 63 => ⟨S1x128, .f32⟩
  | 64 => ⟨S30000x128, .f32⟩
  | 65 => ⟨S30000x128, .f32⟩
  | 66 => ⟨S_, .i32⟩
  | 67 => ⟨S300000, .i32⟩
  | 68 => ⟨S300000, .i1⟩
  | 69 => ⟨S_, .i32⟩
  | 70 => ⟨S300000, .i32⟩
  | 71 => ⟨S300000, .i32⟩
  | 72 => ⟨S300000, .i32⟩
  | 73 => ⟨S300000x1, .i32⟩
  | 74 => ⟨S300000x128, .f32⟩
  | 75 => ⟨S_, .f32⟩
  | 76 => ⟨S10000x128, .f32⟩
  | 77 => ⟨S300000x1, .i32⟩
  | 78 => ⟨S10000x128, .f32⟩
  | 79 => ⟨S_, .f32⟩
  | 80 => ⟨S300000, .f32⟩
  | 81 => ⟨S_, .f32⟩
  | 82 => ⟨S10000, .f32⟩
  | 83 => ⟨S300000x1, .i32⟩
  | 84 => ⟨S10000, .f32⟩
  | 85 => ⟨S_, .f32⟩
  | 86 => ⟨S10000, .f32⟩
  | 87 => ⟨S10000, .f32⟩
  | 88 => ⟨S10000x1, .f32⟩
  | 89 => ⟨S10000x128, .f32⟩
  | 90 => ⟨S10000x128, .f32⟩
  | 91 => ⟨S1x128, .f32⟩
  | 92 => ⟨S1x128, .f32⟩
  | 93 => ⟨S1x64, .f32⟩
  | 94 => ⟨S10000x64, .f32⟩
  | 95 => ⟨S_, .i32⟩
  | 96 => ⟨S500000, .i32⟩
  | 97 => ⟨S500000, .i1⟩
  | 98 => ⟨S_, .i32⟩
  | 99 => ⟨S500000, .i32⟩
  | 100 => ⟨S500000, .i32⟩
  | 101 => ⟨S500000, .i32⟩
  | 102 => ⟨S500000x1, .i32⟩
  | 103 => ⟨S500000x128, .f32⟩
  | 104 => ⟨S_, .f32⟩
  | 105 => ⟨S30000x128, .f32⟩
  | 106 => ⟨S500000x1, .i32⟩
  | 107 => ⟨S30000x128, .f32⟩
  | 108 => ⟨S30000x1, .f32⟩
  | 109 => ⟨S30000x128, .f32⟩
  | 110 => ⟨S30000x128, .f32⟩
  | 111 => ⟨S1x128, .f32⟩
  | 112 => ⟨S1x64, .f32⟩
  | 113 => ⟨S30000x64, .f32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S200000x64, .f32⟩
  | 123 => ⟨S_, .i32⟩
  | 124 => ⟨S200000, .i32⟩
  | 125 => ⟨S200000, .i1⟩
  | 126 => ⟨S_, .i32⟩
  | 127 => ⟨S200000, .i32⟩
  | _ => ⟨S30000x128, .f32⟩

abbrev hbmTy0_1 (i : Nat) : BufTy := match i % 128 with
  | 0 => ⟨S200000, .i32⟩
  | 1 => ⟨S200000, .i32⟩
  | 2 => ⟨S200000x1, .i32⟩
  | 3 => ⟨S200000x64, .f32⟩
  | 4 => ⟨S64x64, .f32⟩
  | 5 => ⟨S64x64, .f32⟩
  | 6 => ⟨S1x64, .f32⟩
  | 7 => ⟨S1x1, .f32⟩
  | 8 => ⟨S200000x1, .f32⟩
  | 9 => ⟨S200000, .f32⟩
  | _ => ⟨S30000x128, .f32⟩

abbrev hbmTy (i : Nat) : BufTy := match i / 128 with
  | 0 => hbmTy0_0 i
  | 1 => hbmTy0_1 i
  | _ => ⟨S30000x128, .f32⟩

abbrev bufTy : (tb : Table) → Fin (tcTables nBuf tb) → BufTy
  | .hbm, ⟨i, _⟩ => hbmTy i
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S3000x128, .f32⟩
  | .local _ .vmem, ⟨11, _⟩ => ⟨S3000x128, .f32⟩
  | .local _ .vmem, ⟨12, _⟩ => ⟨S3000x128, .f32⟩
  | .local _ .vmem, ⟨13, _⟩ => ⟨S3000x128, .f32⟩
  | .local _ .vmem, ⟨14, _⟩ => ⟨S2000x128, .f32⟩
  | .local _ .vmem, ⟨15, _⟩ => ⟨S2000x128, .f32⟩
  | .local _ .vmem, ⟨16, _⟩ => ⟨S2000x64, .f32⟩
  | .local _ .vmem, ⟨17, _⟩ => ⟨S2000x64, .f32⟩
  | .local _ .vmem, ⟨18, _⟩ => ⟨S128x128, .f32⟩
  | .local _ .vmem, ⟨19, _⟩ => ⟨S64x128, .f32⟩
  | .local _ .vmem, ⟨20, _⟩ => ⟨S1x128, .f32⟩
  | .local _ .vmem, ⟨21, _⟩ => ⟨S128x128, .f32⟩
  | .local _ .vmem, ⟨22, _⟩ => ⟨S128x128, .f32⟩
  | .local _ .vmem, ⟨23, _⟩ => ⟨S1x128, .f32⟩
  | .local _ .vmem, ⟨24, _⟩ => ⟨S128x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S3000x128, .f32⟩
  | .local _ .vmem, ⟨29, _⟩ => ⟨S3000x128, .f32⟩
  | .local _ .vmem, ⟨30, _⟩ => ⟨S3000x128, .f32⟩
  | .local _ .vmem, ⟨31, _⟩ => ⟨S3000x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S128x64, .f32⟩
  | .local _ .vmem, ⟨36, _⟩ => ⟨S1x64, .f32⟩
  | .local _ .vmem, ⟨37, _⟩ => ⟨S3000x64, .f32⟩
  | .local _ .vmem, ⟨38, _⟩ => ⟨S3000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S64x64, .f32⟩
  | .local _ .vmem, ⟨44, _⟩ => ⟨S64x64, .f32⟩
  | .local _ .vmem, ⟨45, _⟩ => ⟨S1x64, .f32⟩
  | .local _ .vmem, ⟨46, _⟩ => ⟨S64x1, .f32⟩
  | .local _ .vmem, ⟨47, _⟩ => ⟨S1x1, .f32⟩
  | .local _ .vmem, ⟨48, _⟩ => ⟨S5000x1, .f32⟩
  | .local _ .vmem, ⟨49, _⟩ => ⟨S5000x1, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_cst : Ref sig .tc := ⟨.hbm, 34, rfl⟩
abbrev main_v4 : Ref sig .tc := ⟨.hbm, 35, rfl⟩
abbrev main_cst_0 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_1 : Ref sig .tc := ⟨.hbm, 40, rfl⟩
abbrev main_v8 : Ref sig .tc := ⟨.hbm, 41, rfl⟩
abbrev main_v9 : Ref sig .tc := ⟨.hbm, 42, rfl⟩
abbrev main_cst_2 : Ref sig .tc := ⟨.hbm, 43, rfl⟩
abbrev main_v10 : Ref sig .tc := ⟨.hbm, 44, rfl⟩
abbrev main_v11 : Ref sig .tc := ⟨.hbm, 45, rfl⟩
abbrev main_c : Ref sig .tc := ⟨.hbm, 46, rfl⟩
abbrev main_v12 : Ref sig .tc := ⟨.hbm, 47, rfl⟩
abbrev main_v13 : Ref sig .tc := ⟨.hbm, 48, rfl⟩
abbrev main_c_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_4 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27_0 : Ref sig .tc := ⟨.hbm, 64, rfl⟩
abbrev main_v27_1 : Ref sig .tc := ⟨.hbm, 65, rfl⟩
abbrev main_c_5 : Ref sig .tc := ⟨.hbm, 66, rfl⟩
abbrev main_v28 : Ref sig .tc := ⟨.hbm, 67, rfl⟩
abbrev main_v29 : Ref sig .tc := ⟨.hbm, 68, rfl⟩
abbrev main_c_6 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_cst_7 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_8 : Ref sig .tc := ⟨.hbm, 79, rfl⟩
abbrev main_v38 : Ref sig .tc := ⟨.hbm, 80, rfl⟩
abbrev main_cst_9 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_10 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_11 : Ref sig .tc := ⟨.hbm, 95, rfl⟩
abbrev main_v51 : Ref sig .tc := ⟨.hbm, 96, rfl⟩
abbrev main_v52 : Ref sig .tc := ⟨.hbm, 97, rfl⟩
abbrev main_c_12 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_13 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_c_14 : Ref sig .tc := ⟨.hbm, 114, rfl⟩
abbrev main_v67 : Ref sig .tc := ⟨.hbm, 115, rfl⟩
abbrev main_v68 : Ref sig .tc := ⟨.hbm, 116, rfl⟩
abbrev main_c_15 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_16 : Ref sig .tc := ⟨.hbm, 123, rfl⟩
abbrev main_v74 : Ref sig .tc := ⟨.hbm, 124, rfl⟩
abbrev main_v75 : Ref sig .tc := ⟨.hbm, 125, rfl⟩
abbrev main_c_17 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg7_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg7_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem7_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S3000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S_S30000 : S_.BroadcastsInDim S30000 (![] : Fin 0 → Fin S30000.rank)
  bcast_S500000_S500000x1_0 : S500000.BroadcastsInDim S500000x1 (![0] : Fin 1 → Fin S500000x1.rank)
  bcast_S_S30000x128 : S_.BroadcastsInDim S30000x128 (![] : Fin 0 → Fin S30000x128.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  shapeCasts_S128_S1x128 : S128.ShapeCasts S1x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3000x128 : S1x128.Broadcasts S3000x128
  bcast_S_S300000 : S_.BroadcastsInDim S300000 (![] : Fin 0 → Fin S300000.rank)
  bcast_S300000_S300000x1_0 : S300000.BroadcastsInDim S300000x1 (![0] : Fin 1 → Fin S300000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x64_S2000x64_0_0 : ∀ a, (![0, 0] : Fin 2 → Nat) a + S2000x64.size a ≤ S2000x64.size a
  h_S2000x64 : 0 < S2000x64.numel
  inb_S64x128_S64x128_0_0 : ∀ a, (![0, 0] : Fin 2 → Nat) a + S64x128.size a ≤ S64x128.size a
  h_S64x128 : 0 < S64x128.numel
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  broadcasts_S1x64_S3000x64 : S1x64.Broadcasts S3000x64
  inb_S3000x64_S3000x64_0_0 : ∀ a, (![0, 0] : Fin 2 → Nat) a + S3000x64.size a ≤ S3000x64.size a
  h_S3000x64 : 0 < S3000x64.numel
  bcast_S_S200000 : S_.BroadcastsInDim S200000 (![] : Fin 0 → Fin S200000.rank)
  bcast_S200000_S200000x1_0 : S200000.BroadcastsInDim S200000x1 (![0] : Fin 1 → Fin S200000x1.rank)
  slices_S128x64_S64x64_0_0 : S128x64.Slices ![0, 0] S64x64
  slices_S128x64_S64x64_64_0 : S128x64.Slices ![64, 0] S64x64
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S200000x1_S200000 : S200000x1.ShapeCasts S200000
  scatter_S30000_S500000x1_S500000_n_0_0_1_wf : ScatterDims.WF S30000 S500000x1 S500000 [] [0] [0] 1
  gather_S30000x128_S500000x1_S500000x128_1_0_n_n_0_1_1128_wf : GatherDims.WF S30000x128 S500000x1 S500000x128 [1] [0] [] [0] [] 1 ![1, 128]
  scatter_S30000x128_S500000x1_S500000x128_1_0_0_1_wf : ScatterDims.WF S30000x128 S500000x1 S500000x128 [1] [0] [0] 1
  dot_S3000x128_S128x128_S3000x128_1_0_0_1_n_n_wf : DotDims.WF S3000x128 S128x128 S3000x128 [1] [0] [0] [1] [] []
  gather_S30000x128_S300000x1_S300000x128_1_0_n_n_0_1_1128_wf : GatherDims.WF S30000x128 S300000x1 S300000x128 [1] [0] [] [0] [] 1 ![1, 128]
  scatter_S10000x128_S300000x1_S300000x128_1_0_0_1_wf : ScatterDims.WF S10000x128 S300000x1 S300000x128 [1] [0] [0] 1
  scatter_S10000_S300000x1_S300000_n_0_0_1_wf : ScatterDims.WF S10000 S300000x1 S300000 [] [0] [0] 1
  dot_S2000x128_S128x128_S2000x128_1_0_0_1_n_n_wf : DotDims.WF S2000x128 S128x128 S2000x128 [1] [0] [0] [1] [] []
  dot_S2000x64_S64x128_S2000x128_1_0_0_1_n_n_wf : DotDims.WF S2000x64 S64x128 S2000x128 [1] [0] [0] [1] [] []
  dot_S2000x128_S128x64_S2000x64_1_0_0_1_n_n_wf : DotDims.WF S2000x128 S128x64 S2000x64 [1] [0] [0] [1] [] []
  dot_S3000x128_S128x64_S3000x64_1_0_0_1_n_n_wf : DotDims.WF S3000x128 S128x64 S3000x64 [1] [0] [0] [1] [] []
  gather_S10000x64_S200000x1_S200000x64_1_0_n_n_0_1_164_wf : GatherDims.WF S10000x64 S200000x1 S200000x64 [1] [0] [] [0] [] 1 ![1, 64]
  gather_S30000x64_S200000x1_S200000x64_1_0_n_n_0_1_164_wf : GatherDims.WF S30000x64 S200000x1 S200000x64 [1] [0] [] [0] [] 1 ![1, 64]
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S30000x128.size a
  hwx0_0 : ∀ i : grid0.Coords, EltTy.bits .f32 = 32 ∨ (Rect.block (s := S30000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S30000x128.size a
  hwx0_1 : ∀ i : grid0.Coords, EltTy.bits .f32 = 32 ∨ (Rect.block (s := S30000x128) S3000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S3000x128.size a ≤ S30000x128.size a
  hwx0_8 : ∀ i : grid0.Coords, EltTy.bits .f32 = 32 ∨ (Rect.block (s := S30000x128) S3000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S3000x128.size a ≤ S30000x128.size a
  hwx0_9 : ∀ i : grid0.Coords, EltTy.bits .f32 = 32 ∨ (Rect.block (s := S30000x128) S3000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S10000x64.size a
  hwx1_1 : ∀ i : grid1.Coords, EltTy.bits .f32 = 32 ∨ (Rect.block (s := S10000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x64.size a ≤ S10000x64.size a
  hwx1_10 : ∀ i : grid1.Coords, EltTy.bits .f32 = 32 ∨ (Rect.block (s := S10000x64) S2000x64.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S30000x128.size a
  hwx2_0 : ∀ i : grid2.Coords, EltTy.bits .f32 = 32 ∨ (Rect.block (s := S30000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S30000x128.size a
  hwx2_1 : ∀ i : grid2.Coords, EltTy.bits .f32 = 32 ∨ (Rect.block (s := S30000x128) S3000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S3000x64.size a ≤ S30000x64.size a
  hwx2_7 : ∀ i : grid2.Coords, EltTy.bits .f32 = 32 ∨ (Rect.block (s := S30000x64) S3000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S200000x1.size a
  hwx3_7 : ∀ i : grid3.Coords, EltTy.bits .f32 = 32 ∨ (Rect.block (s := S200000x1) S5000x1.size (cc3_transform_7 i) (hinb3_7 i)).WholeWords (EltTy.packing .f32)

variable [Facts₀]

def scatter_S30000_S500000x1_S500000_n_0_0_1 : ScatterDims S30000 S500000x1 S500000 where
  updateWindowDims := []
  insertedWindowDims := [0]
  scatterDimsToOperandDims := [0]
  indexVectorDim := 1
  wf := scatter_S30000_S500000x1_S500000_n_0_0_1_wf
def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf
def scatter_S30000x128_S500000x1_S500000x128_1_0_0_1 : ScatterDims S30000x128 S500000x1 S500000x128 where
  updateWindowDims := [1]
  insertedWindowDims := [0]
  scatterDimsToOperandDims := [0]
  indexVectorDim := 1
  wf := scatter_S30000x128_S500000x1_S500000x128_1_0_0_1_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def gather_S30000x128_S300000x1_S300000x128_1_0_n_n_0_1_1128 : GatherDims S30000x128 S300000x1 S300000x128 where
  offsetDims := [1]
  collapsedSliceDims := [0]
  operandBatchingDims := []
  startIndicesBatchingDims := []
  startIndexMap := [0]
  indexVectorDim := 1
  sliceSizes := ![1, 128]
  wf := gather_S30000x128_S300000x1_S300000x128_1_0_n_n_0_1_1128_wf
def scatter_S10000x128_S300000x1_S300000x128_1_0_0_1 : ScatterDims S10000x128 S300000x1 S300000x128 where
  updateWindowDims := [1]
  insertedWindowDims := [0]
  scatterDimsToOperandDims := [0]
  indexVectorDim := 1
  wf := scatter_S10000x128_S300000x1_S300000x128_1_0_0_1_wf
def scatter_S10000_S300000x1_S300000_n_0_0_1 : ScatterDims S10000 S300000x1 S300000 where
  updateWindowDims := []
  insertedWindowDims := [0]
  scatterDimsToOperandDims := [0]
  indexVectorDim := 1
  wf := scatter_S10000_S300000x1_S300000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S3000x128_S128x64_S3000x64_1_0_0_1_n_n : DotDims S3000x128 S128x64 S3000x64 where
  lhsContracting := [1]
  rhsContracting := [0]
  lhsNonContracting := [0]
  rhsNonContracting := [1]
  lhsBatch := []
  rhsBatch := []
  wf := dot_S3000x128_S128x64_S3000x64_1_0_0_1_n_n_wf
def gather_S10000x64_S200000x1_S200000x64_1_0_n_n_0_1_164 : GatherDims S10000x64 S200000x1 S200000x64 where
  offsetDims := [1]
  collapsedSliceDims := [0]
  operandBatchingDims := []
  startIndicesBatchingDims := []
  startIndexMap := [0]
  indexVectorDim := 1
  sliceSizes := ![1, 64]
  wf := gather_S10000x64_S200000x1_S200000x64_1_0_n_n_0_1_164_wf
def gather_S30000x64_S200000x1_S200000x64_1_0_n_n_0_1_164 : GatherDims S30000x64 S200000x1 S200000x64 where
  offsetDims := [1]
  collapsedSliceDims := [0]
  operandBatchingDims := []
  startIndicesBatchingDims := []
  startIndexMap := [0]
  indexVectorDim := 1
  sliceSizes := ![1, 64]
  wf := gather_S30000x64_S200000x1_S200000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg18) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg19) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27_0) S3000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v27_1) S3000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v46) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v48) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v49) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v50) S2000x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v63) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27_1) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg21) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg22) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg24) S128x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v66) S3000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v73) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v81) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg28) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v84) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v85) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S30000x128 : Shape := ⟨2, ![30000, 128]⟩
abbrev S10000x64 : Shape := ⟨2, ![10000, 64]⟩
abbrev S2x500000 : Shape := ⟨2, ![2, 500000]⟩
abbrev S300000 : Shape := ⟨1, ![300000]⟩
abbrev S200000 : Shape := ⟨1, ![200000]⟩
abbrev S128x128 : Shape := ⟨2, ![128, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S30000 : Shape := ⟨1, ![30000]⟩
abbrev S30000x1 : Shape := ⟨2, ![30000, 1]⟩
abbrev S1x128 : Shape := ⟨2, ![1, 128]⟩
abbrev S300000x1 : Shape := ⟨2, ![300000, 1]⟩
abbrev S300000x128 : Shape := ⟨2, ![300000, 128]⟩
abbrev S10000x128 : Shape := ⟨2, ![10000, 128]⟩
abbrev S10000 : Shape := ⟨1, ![10000]⟩
abbrev S10000x1 : Shape := ⟨2, ![10000, 1]⟩
abbrev S1x64 : Shape := ⟨2, ![1, 64]⟩
abbrev S30000x64 : Shape := ⟨2, ![30000, 64]⟩
abbrev S200000x1 : Shape := ⟨2, ![200000, 1]⟩
abbrev S200000x64 : Shape := ⟨2, ![200000, 64]⟩
abbrev S200000x128 : Shape := ⟨2, ![200000, 128]⟩
abbrev S1x1 : Shape := ⟨2, ![1, 1]⟩

abbrev nBuf : Space → Nat
  | .hbm => 251
  | .vmem => 0
  | .smem => 0
  | _ => 0

abbrev hbmTy0_0 (i : Nat) : BufTy := match i % 128 with
  | 0 => ⟨S30000x128, .f32⟩
  | 1 => ⟨S10000x64, .f32⟩
  | 2 => ⟨S2x500000, .i32⟩
  | 3 => ⟨S300000, .i32⟩
  | 4 => ⟨S300000, .i32⟩
  | 5 => ⟨S200000, .i32⟩
  | 6 => ⟨S200000, .i32⟩
  | 7 => ⟨S128x128, .f32⟩
  | 8 => ⟨S128x128, .f32⟩
  | 9 => ⟨S128, .f32⟩
  | 10 => ⟨S128x128, .f32⟩
  | 11 => ⟨S64x128, .f32⟩
  | 12 => ⟨S128, .f32⟩
  | 13 => ⟨S128x128, .f32⟩
  | 14 => ⟨S128x128, .f32⟩
  | 15 => ⟨S128, .f32⟩
  | 16 => ⟨S128x64, .f32⟩
  | 17 => ⟨S64, .f32⟩
  | 18 => ⟨S128x128, .f32⟩
  | 19 => ⟨S128x128, .f32⟩
  | 20 => ⟨S128, .f32⟩
  | 21 => ⟨S128x128, .f32⟩
  | 22 => ⟨S128x128, .f32⟩
  | 23 => ⟨S128, .f32⟩
  | 24 => ⟨S128x64, .f32⟩
  | 25 => ⟨S64, .f32⟩
  | 26 => ⟨S128x64, .f32⟩
  | 27 => ⟨S64, .f32⟩
  | 28 => ⟨S64x1, .f32⟩
  | 29 => ⟨S1, .f32⟩
  | 30 => ⟨S1x500000, .i32⟩
  | 31 => ⟨S500000, .i32⟩
  | 32 => ⟨S1x500000, .i32⟩
  | 33 => ⟨S500000, .i32⟩
  | 34 => ⟨S_, .i32⟩
  | 35 => ⟨S500000, .i32⟩
  | 36 => ⟨S500000, .i1⟩
  | 37 => ⟨S_, .i32⟩
  | 38 => ⟨S500000, .i32⟩
  | 39 => ⟨S500000, .i32⟩
  | 40 => ⟨S500000, .i32⟩
  | 41 => ⟨S500000x1, .i32⟩
  | 42 => ⟨S500000x128, .f32⟩
  | 43 => ⟨S_, .f32⟩
  | 44 => ⟨S30000x128, .f32⟩
  | 45 => ⟨S500000x1, .i32⟩
  | 46 => ⟨S30000x128, .f32⟩
  | 47 => ⟨S_, .f32⟩
  | 48 => ⟨S500000, .f32⟩
  | 49 => ⟨S_, .f32⟩
  | 50 => ⟨S30000, .f32⟩
  | 51 => ⟨S500000x1, .i32⟩
  | 52 => ⟨S30000, .f32⟩
  | 53 => ⟨S_, .f32⟩
  | 54 => ⟨S30000, .f32⟩
  | 55 => ⟨S30000, .f32⟩
  | 56 => ⟨S30000x1, .f32⟩
  | 57 => ⟨S30000x128, .f32⟩
  | 58 => ⟨S30000x128, .f32⟩
  | 59 => ⟨S30000x128, .f32⟩
  | 60 => ⟨S30000x128, .f32⟩
  | 61 => ⟨S30000x128, .f32⟩
  | 62 => ⟨S1x128, .f32⟩
  | 63 => ⟨S30000x128, .f32⟩
  | 64 => ⟨S30000x128, .f32⟩
  | 65 => ⟨S_, .f32⟩
  | 66 => ⟨S30000x128, .f32⟩
  | 67 => ⟨S30000x128, .f32⟩
  | 68 => ⟨S_, .i32⟩
  | 69 => ⟨S300000, .i32⟩
  | 70 => ⟨S300000, .i1⟩
  | 71 => ⟨S_, .i32⟩
  | 72 => ⟨S300000, .i32⟩
  | 73 => ⟨S300000, .i32⟩
  | 74 => ⟨S300000, .i32⟩
  | 75 => ⟨S300000x1, .i32⟩
  | 76 => ⟨S300000x128, .f32⟩
  | 77 => ⟨S_, .f32⟩
  | 78 => ⟨S10000x128, .f32⟩
  | 79 => ⟨S300000x1, .i32⟩
  | 80 => ⟨S10000x128, .f32⟩
  | 81 => ⟨S_, .f32⟩
  | 82 => ⟨S300000, .f32⟩
  | 83 => ⟨S_, .f32⟩
  | 84 => ⟨S10000, .f32⟩
  | 85 => ⟨S300000x1, .i32⟩
  | 86 => ⟨S10000, .f32⟩
  | 87 => ⟨S_, .f32⟩
  | 88 => ⟨S10000, .f32⟩
  | 89 => ⟨S10000, .f32⟩
  | 90 => ⟨S10000x1, .f32⟩
  | 91 => ⟨S10000x128, .f32⟩
  | 92 => ⟨S10000x128, .f32⟩
  | 93 => ⟨S10000x128, .f32⟩
  | 94 => ⟨S10000x128, .f32⟩
  | 95 => ⟨S10000x128, .f32⟩
  | 96 => ⟨S1x128, .f32⟩
  | 97 => ⟨S10000x128, .f32⟩
  | 98 => ⟨S10000x128, .f32⟩
  | 99 => ⟨S_, .f32⟩
  | 100 => ⟨S10000x128, .f32⟩
  | 101 => ⟨S10000x128, .f32⟩
  | 102 => ⟨S_, .i32⟩
  | 103 => ⟨S300000, .i32⟩
  | 104 => ⟨S300000, .i1⟩
  | 105 => ⟨S_, .i32⟩
  | 106 => ⟨S300000, .i32⟩
  | 107 => ⟨S300000, .i32⟩
  | 108 => ⟨S300000, .i32⟩
  | 109 => ⟨S300000x1, .i32⟩
  | 110 => ⟨S300000x128, .f32⟩
  | 111 => ⟨S_, .f32⟩
  | 112 => ⟨S10000x128, .f32⟩
  | 113 => ⟨S300000x1, .i32⟩
  | 114 => ⟨S10000x128, .f32⟩
  | 115 => ⟨S_, .f32⟩
  | 116 => ⟨S300000, .f32⟩
  | 117 => ⟨S_, .f32⟩
  | 118 => ⟨S10000, .f32⟩
  | 119 => ⟨S300000x1, .i32⟩
  | 120 => ⟨S10000, .f32⟩
  | 121 => ⟨S_, .f32⟩
  | 122 => ⟨S10000, .f32⟩
  | 123 => ⟨S10000, .f32⟩
  | 124 => ⟨S10000x1, .f32⟩
  | 125 => ⟨S10000x128, .f32⟩
  | 126 => ⟨S10000x128, .f32⟩
  | 127 => ⟨S10000x128, .f32⟩
  | _ => ⟨S30000x128, .f32⟩

abbrev hbmTy0_1 (i : Nat) : BufTy := match i % 128 with
  | 0 => ⟨S10000x128, .f32⟩
  | 1 => ⟨S10000x128, .f32⟩
  | 2 => ⟨S1x128, .f32⟩
  | 3 => ⟨S10000x128, .f32⟩
  | 4 => ⟨S10000x128, .f32⟩
  | 5 => ⟨S_, .f32⟩
  | 6 => ⟨S10000x128, .f32⟩
  | 7 => ⟨S10000x128, .f32⟩
  | 8 => ⟨S10000x64, .f32⟩
  | 9 => ⟨S1x64, .f32⟩
  | 10 => ⟨S10000x64, .f32⟩
  | 11 => ⟨S10000x64, .f32⟩
  | 12 => ⟨S_, .i32⟩
  | 13 => ⟨S500000, .i32⟩
  | 14 => ⟨S500000, .i1⟩
  | 15 => ⟨S_, .i32⟩
  | 16 => ⟨S500000, .i32⟩
  | 17 => ⟨S500000, .i32⟩
  | 18 => ⟨S500000, .i32⟩
  | 19 => ⟨S500000x1, .i32⟩
  | 20 => ⟨S500000x128, .f32⟩
  | 21 => ⟨S_, .f32⟩
  | 22 => ⟨S30000x128, .f32⟩
  | 23 => ⟨S500000x1, .i32⟩
  | 24 => ⟨S30000x128, .f32⟩
  | 25 => ⟨S_, .f32⟩
  | 26 => ⟨S500000, .f32⟩
  | 27 => ⟨S_, .f32⟩
  | 28 => ⟨S30000, .f32⟩
  | 29 => ⟨S500000x1, .i32⟩
  | 30 => ⟨S30000, .f32⟩
  | 31 => ⟨S_, .f32⟩
  | 32 => ⟨S30000, .f32⟩
  | 33 => ⟨S30000, .f32⟩
  | 34 => ⟨S30000x1, .f32⟩
  | 35 => ⟨S30000x128, .f32⟩
  | 36 => ⟨S30000x128, .f32⟩
  | 37 => ⟨S30000x128, .f32⟩
  | 38 => ⟨S30000x128, .f32⟩
  | 39 => ⟨S30000x128, .f32⟩
  | 40 => ⟨S1x128, .f32⟩
  | 41 => ⟨S30000x128, .f32⟩
  | 42 => ⟨S30000x128, .f32⟩
  | 43 => ⟨S_, .f32⟩
  | 44 => ⟨S30000x128, .f32⟩
  | 45 => ⟨S30000x128, .f32⟩
  | 46 => ⟨S_, .i32⟩
  | 47 => ⟨S500000, .i32⟩
  | 48 => ⟨S500000, .i1⟩
  | 49 => ⟨S_, .i32⟩
  | 50 => ⟨S500000, .i32⟩
  | 51 => ⟨S500000, .i32⟩
  | 52 => ⟨S500000, .i32⟩
  | 53 => ⟨S500000x1, .i32⟩
  | 54 => ⟨S500000x128, .f32⟩
  | 55 => ⟨S_, .f32⟩
  | 56 => ⟨S30000x128, .f32⟩
  | 57 => ⟨S500000x1, .i32⟩
  | 58 => ⟨S30000x128, .f32⟩
  | 59 => ⟨S_, .f32⟩
  | 60 => ⟨S500000, .f32⟩
  | 61 => ⟨S_, .f32⟩
  | 62 => ⟨S30000, .f32⟩
  | 63 => ⟨S500000x1, .i32⟩
  | 64 => ⟨S30000, .f32⟩
  | 65 => ⟨S_, .f32⟩
  | 66 => ⟨S30000, .f32⟩
  | 67 => ⟨S30000, .f32⟩
  | 68 => ⟨S30000x1, .f32⟩
  | 69 => ⟨S30000x128, .f32⟩
  | 70 => ⟨S30000x128, .f32⟩
  | 71 => ⟨S30000x128, .f32⟩
  | 72 => ⟨S30000x128, .f32⟩
  | 73 => ⟨S30000x128, .f32⟩
  | 74 => ⟨S1x128, .f32⟩
  | 75 => ⟨S30000x128, .f32⟩
  | 76 => ⟨S30000x128, .f32⟩
  | 77 => ⟨S_, .f32⟩
  | 78 => ⟨S30000x128, .f32⟩
  | 79 => ⟨S30000x128, .f32⟩
  | 80 => ⟨S30000x64, .f32⟩
  | 81 => ⟨S1x64, .f32⟩
  | 82 => ⟨S30000x64, .f32⟩
  | 83 => ⟨S30000x64, .f32⟩
  | 84 => ⟨S_, .i32⟩
  | 85 => ⟨S200000, .i32⟩
  | 86 => ⟨S200000, .i1⟩
  | 87 => ⟨S_, .i32⟩
  | 88 => ⟨S200000, .i32⟩
  | 89 => ⟨S200000, .i32⟩
  | 90 => ⟨S200000, .i32⟩
  | 91 => ⟨S200000x1, .i32⟩
  | 92 => ⟨S200000x64, .f32⟩
  | 93 => ⟨S_, .i32⟩
  | 94 => ⟨S200000, .i32⟩
  | 95 => ⟨S200000, .i1⟩
  | 96 => ⟨S_, .i32⟩
  | 97 => ⟨S200000, .i32⟩
  | 98 => ⟨S200000, .i32⟩
  | 99 => ⟨S200000, .i32⟩
  | 100 => ⟨S200000x1, .i32⟩
  | 101 => ⟨S200000x64, .f32⟩
  | 102 => ⟨S200000x128, .f32⟩
  | 103 => ⟨S200000x64, .f32⟩
  | 104 => ⟨S1x64, .f32⟩
  | 105 => ⟨S200000x64, .f32⟩
  | 106 => ⟨S200000x64, .f32⟩
  | 107 => ⟨S_, .f32⟩
  | 108 => ⟨S200000x64, .f32⟩
  | 109 => ⟨S200000x64, .f32⟩
  | 110 => ⟨S200000x1, .f32⟩
  | 111 => ⟨S1x1, .f32⟩
  | 112 => ⟨S200000x1, .f32⟩
  | 113 => ⟨S200000x1, .f32⟩
  | 114 => ⟨S200000x1, .f32⟩
  | 115 => ⟨S200000x1, .f32⟩
  | 116 => ⟨S_, .f32⟩
  | 117 => ⟨S200000x1, .f32⟩
  | 118 => ⟨S200000x1, .f32⟩
  | 119 => ⟨S_, .f32⟩
  | 120 => ⟨S200000x1, .f32⟩
  | 121 => ⟨S200000x1, .f32⟩
  | 122 => ⟨S200000, .f32⟩
  | _ => ⟨S30000x128, .f32⟩

abbrev hbmTy (i : Nat) : BufTy := match i / 128 with
  | 0 => hbmTy0_0 i
  | 1 => hbmTy0_1 i
  | _ => ⟨S30000x128, .f32⟩

abbrev bufTy : (tb : Table) → Fin (tcTables nBuf tb) → BufTy
  | .hbm, ⟨i, _⟩ => hbmTy i
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_c : Ref sig .tc := ⟨.hbm, 34, rfl⟩
abbrev main_v4 : Ref sig .tc := ⟨.hbm, 35, rfl⟩
abbrev main_v5 : Ref sig .tc := ⟨.hbm, 36, rfl⟩
abbrev main_c_0 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_1 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_cst_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_call0_cst : Ref sig .tc := ⟨.hbm, 65, rfl⟩
abbrev main_call0_v0 : Ref sig .tc := ⟨.hbm, 66, rfl⟩
abbrev main_v29 : Ref sig .tc := ⟨.hbm, 67, rfl⟩
abbrev main_c_4 : Ref sig .tc := ⟨.hbm, 68, rfl⟩
abbrev main_v30 : Ref sig .tc := ⟨.hbm, 69, rfl⟩
abbrev main_v31 : Ref sig .tc := ⟨.hbm, 70, rfl⟩
abbrev main_c_5 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_cst_6 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_cst_7 : Ref sig .tc := ⟨.hbm, 81, rfl⟩
abbrev main_v40 : Ref sig .tc := ⟨.hbm, 82, rfl⟩
abbrev main_cst_8 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_9 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_call1_cst : Ref sig .tc := ⟨.hbm, 99, rfl⟩
abbrev main_call1_v0 : Ref sig .tc := ⟨.hbm, 100, rfl⟩
abbrev main_v55 : Ref sig .tc := ⟨.hbm, 101, rfl⟩
abbrev main_c_10 : Ref sig .tc := ⟨.hbm, 102, rfl⟩
abbrev main_v56 : Ref sig .tc := ⟨.hbm, 103, rfl⟩
abbrev main_v57 : Ref sig .tc := ⟨.hbm, 104, rfl⟩
abbrev main_c_11 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_12 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_13 : Ref sig .tc := ⟨.hbm, 115, rfl⟩
abbrev main_v66 : Ref sig .tc := ⟨.hbm, 116, rfl⟩
abbrev main_cst_14 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_15 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_call2_cst : Ref sig .tc := ⟨.hbm, 133, rfl⟩
abbrev main_call2_v0 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_c_16 : Ref sig .tc := ⟨.hbm, 140, rfl⟩
abbrev main_v86 : Ref sig .tc := ⟨.hbm, 141, rfl⟩
abbrev main_v87 : Ref sig .tc := ⟨.hbm, 142, rfl⟩
abbrev main_c_17 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_18 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_19 : Ref sig .tc := ⟨.hbm, 153, rfl⟩
abbrev main_v96 : Ref sig .tc := ⟨.hbm, 154, rfl⟩
abbrev main_cst_20 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_cst_21 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_call3_cst : Ref sig .tc := ⟨.hbm, 171, rfl⟩
abbrev main_call3_v0 : Ref sig .tc := ⟨.hbm, 172, rfl⟩
abbrev main_v111 : Ref sig .tc := ⟨.hbm, 173, rfl⟩
abbrev main_c_22 : Ref sig .tc := ⟨.hbm, 174, rfl⟩
abbrev main_v112 : Ref sig .tc := ⟨.hbm, 175, rfl⟩
abbrev main_v113 : Ref sig .tc := ⟨.hbm, 176, rfl⟩
abbrev main_c_23 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_cst_24 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_cst_25 : Ref sig .tc := ⟨.hbm, 187, rfl⟩
abbrev main_v122 : Ref sig .tc := ⟨.hbm, 188, rfl⟩
abbrev main_cst_26 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_cst_27 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_call4_cst : Ref sig .tc := ⟨.hbm, 205, rfl⟩
abbrev main_call4_v0 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_c_28 : Ref sig .tc := ⟨.hbm, 212, rfl⟩
abbrev main_v142 : Ref sig .tc := ⟨.hbm, 213, rfl⟩
abbrev main_v143 : Ref sig .tc := ⟨.hbm, 214, rfl⟩
abbrev main_c_29 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_c_30 : Ref sig .tc := ⟨.hbm, 221, rfl⟩
abbrev main_v149 : Ref sig .tc := ⟨.hbm, 222, rfl⟩
abbrev main_v150 : Ref sig .tc := ⟨.hbm, 223, rfl⟩
abbrev main_c_31 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_v158 : Ref sig .tc := ⟨.hbm, 232, rfl⟩
abbrev main_v159 : Ref sig .tc := ⟨.hbm, 233, rfl⟩
abbrev main_v160 : Ref sig .tc := ⟨.hbm, 234, rfl⟩
abbrev main_call5_cst : Ref sig .tc := ⟨.hbm, 235, rfl⟩
abbrev main_call5_v0 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_cst_32 : Ref sig .tc := ⟨.hbm, 244, rfl⟩
abbrev main_v168 : Ref sig .tc := ⟨.hbm, 245, rfl⟩
abbrev main_v169 : Ref sig .tc := ⟨.hbm, 246, rfl⟩
abbrev main_cst_33 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S30000x128 : S_.BroadcastsInDim S30000x128 (![] : Fin 0 → Fin S30000x128.rank)
  bcast_S_S30000 : S_.BroadcastsInDim S30000 (![] : Fin 0 → Fin S30000.rank)
  bcast_S30000_S30000x1_0 : S30000.BroadcastsInDim S30000x1 (![0] : Fin 1 → Fin S30000x1.rank)
  bcast_S30000x1_S30000x128_0_1 : S30000x1.BroadcastsInDim S30000x128 (![0, 1] : Fin 2 → Fin S30000x128.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S1x64_S30000x64_0_1 : S1x64.BroadcastsInDim S30000x64 (![0, 1] : Fin 2 → Fin S30000x64.rank)
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x64_S200000x128_d1 : Shape.Concatenates [S200000x64, S200000x64] S200000x128 1
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  gather_S30000x128_S500000x1_S500000x128_1_0_n_n_0_1_1128_wf : GatherDims.WF S30000x128 S500000x1 S500000x128 [1] [0] [] [0] [] 1 ![1, 128]
  scatter_S30000x128_S500000x1_S500000x128_1_0_0_1_wf : ScatterDims.WF S30000x128 S500000x1 S500000x128 [1] [0] [0] 1
  scatter_S30000_S500000x1_S500000_n_0_0_1_wf : ScatterDims.WF S30000 S500000x1 S500000 [] [0] [0] 1
  dot_S30000x128_S128x128_S30000x128_1_0_0_1_n_n_wf : DotDims.WF S30000x128 S128x128 S30000x128 [1] [0] [0] [1] [] []
  gather_S30000x128_S300000x1_S300000x128_1_0_n_n_0_1_1128_wf : GatherDims.WF S30000x128 S300000x1 S300000x128 [1] [0] [] [0] [] 1 ![1, 128]
  scatter_S10000x128_S300000x1_S300000x128_1_0_0_1_wf : ScatterDims.WF S10000x128 S300000x1 S300000x128 [1] [0] [0] 1
  scatter_S10000_S300000x1_S300000_n_0_0_1_wf : ScatterDims.WF S10000 S300000x1 S300000 [] [0] [0] 1
  dot_S10000x128_S128x128_S10000x128_1_0_0_1_n_n_wf : DotDims.WF S10000x128 S128x128 S10000x128 [1] [0] [0] [1] [] []
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  dot_S30000x128_S128x64_S30000x64_1_0_0_1_n_n_wf : DotDims.WF S30000x128 S128x64 S30000x64 [1] [0] [0] [1] [] []
  gather_S10000x64_S200000x1_S200000x64_1_0_n_n_0_1_164_wf : GatherDims.WF S10000x64 S200000x1 S200000x64 [1] [0] [] [0] [] 1 ![1, 64]
  gather_S30000x64_S200000x1_S200000x64_1_0_n_n_0_1_164_wf : GatherDims.WF S30000x64 S200000x1 S200000x64 [1] [0] [] [0] [] 1 ![1, 64]
  dot_S200000x128_S128x64_S200000x64_1_0_0_1_n_n_wf : DotDims.WF S200000x128 S128x64 S200000x64 [1] [0] [0] [1] [] []
  dot_S200000x64_S64x1_S200000x1_1_0_0_1_n_n_wf : DotDims.WF S200000x64 S64x1 S200000x1 [1] [0] [0] [1] [] []

variable [Facts₀]

def gather_S30000x128_S500000x1_S500000x128_1_0_n_n_0_1_1128 : GatherDims S30000x128 S500000x1 S500000x128 where
  offsetDims := [1]
  collapsedSliceDims := [0]
  operandBatchingDims := []
  startIndicesBatchingDims := []
  startIndexMap := [0]
  indexVectorDim := 1
  sliceSizes := ![1, 128]
  wf := gather_S30000x128_S500000x1_S500000x128_1_0_n_n_0_1_1128_wf
def scatter_S30000x128_S500000x1_S500000x128_1_0_0_1 : ScatterDims S30000x128 S500000x1 S500000x128 where
  updateWindowDims := [1]
  insertedWindowDims := [0]
  scatterDimsToOperandDims := [0]
  indexVectorDim := 1
  wf := scatter_S30000x128_S500000x1_S500000x128_1_0_0_1_wf
def scatter_S30000_S500000x1_S500000_n_0_0_1 : ScatterDims S30000 S500000x1 S500000 where
  updateWindowDims := []
  insertedWindowDims := [0]
  scatterDimsToOperandDims := [0]
  indexVectorDim := 1
  wf := scatter_S30000_S500000x1_S500000_n_0_0_1_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def gather_S30000x128_S300000x1_S300000x128_1_0_n_n_0_1_1128 : GatherDims S30000x128 S300000x1 S300000x128 where
  offsetDims := [1]
  collapsedSliceDims := [0]
  operandBatchingDims := []
  startIndicesBatchingDims := []
  startIndexMap := [0]
  indexVectorDim := 1
  sliceSizes := ![1, 128]
  wf := gather_S30000x128_S300000x1_S300000x128_1_0_n_n_0_1_1128_wf
def scatter_S10000x128_S300000x1_S300000x128_1_0_0_1 : ScatterDims S10000x128 S300000x1 S300000x128 where
  updateWindowDims := [1]
  insertedWindowDims := [0]
  scatterDimsToOperandDims := [0]
  indexVectorDim := 1
  wf := scatter_S10000x128_S300000x1_S300000x128_1_0_0_1_wf
def scatter_S10000_S300000x1_S300000_n_0_0_1 : ScatterDims S10000 S300000x1 S300000 where
  updateWindowDims := []
  insertedWindowDims := [0]
  scatterDimsToOperandDims := [0]
  indexVectorDim := 1
  wf := scatter_S10000_S300000x1_S300000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S30000x128_S128x64_S30000x64_1_0_0_1_n_n : DotDims S30000x128 S128x64 S30000x64 where
  lhsContracting := [1]
  rhsContracting := [0]
  lhsNonContracting := [0]
  rhsNonContracting := [1]
  lhsBatch := []
  rhsBatch := []
  wf := dot_S30000x128_S128x64_S30000x64_1_0_0_1_n_n_wf
def gather_S10000x64_S200000x1_S200000x64_1_0_n_n_0_1_164 : GatherDims S10000x64 S200000x1 S200000x64 where
  offsetDims := [1]
  collapsedSliceDims := [0]
  operandBatchingDims := []
  startIndicesBatchingDims := []
  startIndexMap := [0]
  indexVectorDim := 1
  sliceSizes := ![1, 64]
  wf := gather_S10000x64_S200000x1_S200000x64_1_0_n_n_0_1_164_wf
def gather_S30000x64_S200000x1_S200000x64_1_0_n_n_0_1_164 : GatherDims S30000x64 S200000x1 S200000x64 where
  offsetDims := [1]
  collapsedSliceDims := [0]
  operandBatchingDims := []
  startIndicesBatchingDims := []
  startIndexMap := [0]
  indexVectorDim := 1
  sliceSizes := ![1, 64]
  wf := gather_S30000x64_S200000x1_S200000x64_1_0_n_n_0_1_164_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x1_S200000x1_1_0_0_1_n_n : DotDims S200000x64 S64x1 S200000x1 where
  lhsContracting := [1]
  rhsContracting := [0]
  lhsNonContracting := [0]
  rhsNonContracting := [1]
  lhsBatch := []
  rhsBatch := []
  wf := dot_S200000x64_S64x1_S200000x1_1_0_0_1_n_n_wf

class Facts : Prop extends Facts₀ where

variable [Facts]
-- ==== Proof.KernelRun.lean ====
/-
  The idealized kernel program's run with its result named.

  The program is four grid-tiled dense kernels among five stretches of host operations. Every weakly fair execution
  terminates, nothing faulting, and the final memory holds, in every unscoped buffer, the contents the fold of the
  segments leaves there: the host stretches applied in order, each kernel's output arrays at what its grid points wrote
  back. Read at the result buffer this names the program's value (the last fold's contents of that buffer); read at the
  thirty argument buffers it says they end as launched.
-/
import proofs.«113350_j88553635709430_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program runs to the end; the result buffer ends at the last fold's contents
    and every argument buffer as launched. -/
theorem run : θ_run defs (onTc (τ := τ) (main (F := F))) ⟨m, fun _ => 0, ρ⟩ (fun r => ∀ c : Dev nD,
      r.2.mem ((c.tc : Thread nD τ).loc main_v86) = W9 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v86 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c),
       (h c _ (mem_uc main_arg18 (by decide))).trans (W9_main_arg18 m ρ c),
       (h c _ (mem_uc main_arg19 (by decide))).trans (W9_main_arg19 m ρ c),
       (h c _ (mem_uc main_arg20 (by decide))).trans (W9_main_arg20 m ρ c),
       (h c _ (mem_uc main_arg21 (by decide))).trans (W9_main_arg21 m ρ c),
       (h c _ (mem_uc main_arg22 (by decide))).trans (W9_main_arg22 m ρ c),
       (h c _ (mem_uc main_arg23 (by decide))).trans (W9_main_arg23 m ρ c),
       (h c _ (mem_uc main_arg24 (by decide))).trans (W9_main_arg24 m ρ c),
       (h c _ (mem_uc main_arg25 (by decide))).trans (W9_main_arg25 m ρ c),
       (h c _ (mem_uc main_arg26 (by decide))).trans (W9_main_arg26 m ρ c),
       (h c _ (mem_uc main_arg27 (by decide))).trans (W9_main_arg27 m ρ c),
       (h c _ (mem_uc main_arg28 (by decide))).trans (W9_main_arg28 m ρ c),
       (h c _ (mem_uc main_arg29 (by decide))).trans (W9_main_arg29 m ρ c)⟩)

end Cert.KernelIdeal.ValueRun

end
-- ==== Proof.LibMeanScale.lean ====
/-
  A mean taken by a hoisted reciprocal is the mean taken by dividing.

  On the extended reals the quotient `x / c` is `x · c⁻¹` whenever `c ≠ 0`, and `1 / c` is then `c⁻¹`; so
  `x · (1 / c) = x / c` for every `x`, finite or not, as soon as `c ≠ 0`. A neighbour count clipped below at one,
  `max s 1`, is at least one, hence never zero. Read entry by entry this joins "row sums times the spread reciprocal of
  the clipped counts" to "row sums divided by the spread clipped counts", for whole arrays in the host's spelling (a
  vector laid down a column, then spread along the rows).
-/
import Idealize.ShloMosaic.PureOps.Ideal.Laws
import Idealize.ShloMosaic.Lib.ValueIdx
import Idealize.ShloMosaic.Lib.Pipeline.Value

noncomputable section

namespace Cert.MeanScale

open Idealize.ShloMosaic Idealize.ShloMosaic.ValueIdx

variable {M N : ℕ}

/-- Off zero, multiplying by the reciprocal is dividing. -/
theorem mul_one_div (x c : EReal) (hc : c ≠ 0) : x * Ideal.div 1 c = Ideal.div x c := by
  unfold Ideal.div
  rw [if_neg hc, if_neg hc, one_mul]

/-- A quantity clipped below at one is not zero. -/
theorem max_one_ne_zero (s : EReal) : max s 1 ≠ 0 :=
  ne_of_gt (lt_of_lt_of_le zero_lt_one (le_max_right s 1))

/-- The word of the float one denotes the real one. -/
theorem ofBits_one_f32 : Ideal.ofBits .f32 0x3F800000#32 = (1 : EReal) := by
  simp [Ideal.ofBits, Ideal.ieee, -EReal.coe_mul]; norm_num

/-- A vector laid down a column, `[M] → [M, 1]`, then spread along the rows' length, `[M, 1] → [M, N]`, reads at
    `(p, q)` the vector at `p`. -/
theorem colSpread_apply (d : FVec Ideal ⟨1, ![M]⟩ .f32)
    (hd1 : (⟨1, ![M]⟩ : Shape).BroadcastsInDim ⟨2, ![M, 1]⟩ ![0]) (hd2 : (⟨2, ![M, 1]⟩ : Shape).BroadcastsInDim ⟨2, ![M, N]⟩ ![0, 1])
    (p : Fin M) (q : Fin N) :
    broadcastInDim ⟨2, ![M, N]⟩ ![0, 1] hd2 (broadcastInDim ⟨2, ![M, 1]⟩ ![0] hd1 d) (ix2 p q) = d (ix1 p) := by
  refine (broadcastInDim_apply ![0, 1] hd2 _ (ix2 p q) (ix2 p (0 : Fin 1)) fun a => ?_).trans ?_
  · match a with
    | ⟨0, _⟩ =>
      show p.val = if M = 1 then 0 else p.val
      split
      · have := p.isLt; omega
      · rfl
    | ⟨1, _⟩ => rfl
  · refine broadcastInDim_apply ![0] hd1 d (ix2 p (0 : Fin 1)) (ix1 p) fun a => ?_
    match a with
    | ⟨0, _⟩ =>
      show p.val = if M = 1 then 0 else p.val
      split
      · have := p.isLt; omega
      · rfl

/-- The scalar one spread over any shape is the real one at every index. -/
theorem oneSpread_apply {t : Shape} (h0 : (⟨0, ![]⟩ : Shape).BroadcastsInDim t ![]) (j : t.Idx) :
    broadcastInDim t ![] h0 (constant (F := Ideal) ⟨0, ![]⟩ .f32 0x3F800000#32) j = (1 : EReal) := by
  refine (broadcastInDim_apply (s := ⟨0, ![]⟩) ![] h0 _ j ix0 fun a => a.elim0).trans ?_
  rw [constant_apply]
  exact ofBits_one_f32

/-- Row sums `S` scaled by the spread reciprocal of the counts clipped at one are `S` divided by the spread clipped
    counts: entry `(p, q)` of both is `S (p, q) / max (cnt p) 1`. No finiteness of `S` or of the counts is used. -/
theorem scale_eq_divide (S : FVec Ideal ⟨2, ![M, N]⟩ .f32) (cnt : FVec Ideal ⟨1, ![M]⟩ .f32)
    (h0 : (⟨0, ![]⟩ : Shape).BroadcastsInDim ⟨1, ![M]⟩ ![])
    (hd1 : (⟨1, ![M]⟩ : Shape).BroadcastsInDim ⟨2, ![M, 1]⟩ ![0]) (hd2 : (⟨2, ![M, 1]⟩ : Shape).BroadcastsInDim ⟨2, ![M, N]⟩ ![0, 1]) :
    mulf S (broadcastInDim ⟨2, ![M, N]⟩ ![0, 1] hd2 (broadcastInDim ⟨2, ![M, 1]⟩ ![0] hd1
        (Host.divf (broadcastInDim ⟨1, ![M]⟩ ![] h0 (constant (F := Ideal) ⟨0, ![]⟩ .f32 0x3F800000#32))
          (maximumf cnt (broadcastInDim ⟨1, ![M]⟩ ![] h0 (constant (F := Ideal) ⟨0, ![]⟩ .f32 0x3F800000#32))))))
      = Host.divf S (broadcastInDim ⟨2, ![M, N]⟩ ![0, 1] hd2 (broadcastInDim ⟨2, ![M, 1]⟩ ![0] hd1
          (maximumf cnt (broadcastInDim ⟨1, ![M]⟩ ![] h0 (constant (F := Ideal) ⟨0, ![]⟩ .f32 0x3F800000#32))))) := by
  funext i
  obtain ⟨p, q, rfl⟩ : ∃ (p : Fin M) (q : Fin N), i = ix2 p q := ⟨i 0, i 1, eq_ix2 i⟩
  show S (ix2 p q) * _ = Ideal.div (S (ix2 p q)) _
  rw [colSpread_apply, colSpread_apply]
  show S (ix2 p q) * Ideal.div (broadcastInDim ⟨1, ![M]⟩ ![] h0 (constant (F := Ideal) ⟨0, ![]⟩ .f32 0x3F800000#32) (ix1 p))
      (max (cnt (ix1 p)) (broadcastInDim ⟨1, ![M]⟩ ![] h0 (constant (F := Ideal) ⟨0, ![]⟩ .f32 0x3F800000#32) (ix1 p)))
    = Ideal.div (S (ix2 p q)) (max (cnt (ix1 p)) (broadcastInDim ⟨1, ![M]⟩ ![] h0 (constant (F := Ideal) ⟨0, ![]⟩ .f32 0x3F800000#32) (ix1 p)))
  rw [oneSpread_apply]
  exact mul_one_div _ _ (max_one_ne_zero _)

end Cert.MeanScale

end
-- ==== Proof.LibDenseLayer.lean ====
/-
  The two dense steps of a graph-convolution layer, as functions of whole arrays, entry by entry, on the extended reals.

  `affine x w b` is the matrix product with a bias row: entry `(p, q)` is `Σ_k x (p, k) · w (k, q) + b (0, q)`. It depends
  on row `p` of `x` only, so a tiling of the rows computes it tile by tile.
  `combine agg h d b` adds to the aggregated messages the node's own features scaled by its column entry `d (p, 0)` and
  the bias row: entry `(p, q)` is `(agg (p, q) + h (p, q) · d (p, 0)) + b (0, q)`; `combineRelu` is its positive part.
  Both are pointwise in `p`, so again a tiling of the rows computes them tile by tile.
-/
import Idealize.ShloMosaic.PureOps.Ideal
import Idealize.ShloMosaic.Lib.ValueIdx

noncomputable section

open scoped BigOperators

namespace Cert.Spec

open Idealize.ShloMosaic Idealize.ShloMosaic.ValueIdx

variable {M K N : ℕ}

/-- The matrix product with a bias row, at `(p, q)`. -/
def affineAt (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 (0 : Fin 1) q)

/-- The matrix product with a bias row, as an array. -/
def affine (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => affineAt x w b (i 0) (i 1)

theorem affine_apply (x : (⟨2, ![M, K]⟩ : Shape).Idx → EReal) (w : (⟨2, ![K, N]⟩ : Shape).Idx → EReal)
    (b : (⟨2, ![1, N]⟩ : Shape).Idx → EReal) (p : Fin M) (q : Fin N) :
    affine x w b (ix2 p q) = (∑ k : Fin K, x (ix2 p k) * w (ix2 k q)) + b (ix2 (0 : Fin 1) q) := rfl

/-- Aggregated messages plus the scaled self term plus the bias row, at `(p, q)`. -/
def combineAt (agg h : (⟨2, ![M, N]⟩ : Shape).Idx → EReal) (d : (⟨2, ![M, 1]⟩ : Shape).Idx → EReal)
    (b : (⟨2, ![1, N]⟩ : Shape).Idx → EReal) (p : Fin M) (q : Fin N) : EReal :=
  (agg (ix2 p q) + h (ix2 p q) * d (ix2 p (0 : Fin 1))) + b (ix2 (0 : Fin 1) q)

/-- The same as an array. -/
def combine (agg h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => combineAt agg h d b (i 0) (i 1)

theorem combine_apply (agg h : (⟨2, ![M, N]⟩ : Shape).Idx → EReal) (d : (⟨2, ![M, 1]⟩ : Shape).Idx → EReal)
    (b : (⟨2, ![1, N]⟩ : Shape).Idx → EReal) (p : Fin M) (q : Fin N) :
    combine agg h d b (ix2 p q) = (agg (ix2 p q) + h (ix2 p q) * d (ix2 p (0 : Fin 1))) + b (ix2 (0 : Fin 1) q) := rfl

/-- Its positive part. -/
def combineRelu (agg h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => max (combineAt agg h d b (i 0) (i 1)) 0

theorem combineRelu_apply (agg h : (⟨2, ![M, N]⟩ : Shape).Idx → EReal) (d : (⟨2, ![M, 1]⟩ : Shape).Idx → EReal)
    (b : (⟨2, ![1, N]⟩ : Shape).Idx → EReal) (p : Fin M) (q : Fin N) :
    combineRelu agg h d b (ix2 p q)
      = max ((agg (ix2 p q) + h (ix2 p q) * d (ix2 p (0 : Fin 1))) + b (ix2 (0 : Fin 1) q)) 0 := rfl

end Cert.Spec

end
-- ==== Proof.LibSageLayer.lean ====
/-
  A neighbour-aggregation layer's dense step, as a function of whole arrays, entry by entry, on the extended reals.

  `sage a x wl wr b` is the positive part of two matrix products and a bias row: entry `(p, q)` is
  `max ((Σ_k a (p, k) · wl (k, q) + Σ_k x (p, k) · wr (k, q)) + b (0, q)) 0`. It depends on row `p` of `a` and of `x`
  only (`sageAt_congr`), so a tiling of the rows computes it tile by tile. `affineAt_congr` says the same of the
  matrix product with a bias row.
-/
import proofs.«113350_j88553635709430_2_alg».proof.Proof.LibDenseLayer
import Idealize.ShloMosaic.PureOps.Ideal
import Idealize.ShloMosaic.Lib.ValueIdx

noncomputable section

open scoped BigOperators

namespace Cert.Spec

open Idealize.ShloMosaic Idealize.ShloMosaic.ValueIdx

variable {M M' Ka Kb H : ℕ}

/-- The layer's entry `(p, q)`. -/
def sageAt (a : (⟨2, ![M, Ka]⟩ : Shape).Idx → EReal) (x : (⟨2, ![M, Kb]⟩ : Shape).Idx → EReal)
    (wl : (⟨2, ![Ka, H]⟩ : Shape).Idx → EReal) (wr : (⟨2, ![Kb, H]⟩ : Shape).Idx → EReal)
    (b : (⟨2, ![1, H]⟩ : Shape).Idx → EReal) (p : Fin M) (q : Fin H) : EReal :=
  max (((∑ k : Fin Ka, a (ix2 p k) * wl (ix2 k q)) + (∑ k : Fin Kb, x (ix2 p k) * wr (ix2 k q))) + b (ix2 (0 : Fin 1) q)) 0

/-- The layer as an array. -/
def sage (a : (⟨2, ![M, Ka]⟩ : Shape).Idx → EReal) (x : (⟨2, ![M, Kb]⟩ : Shape).Idx → EReal)
    (wl : (⟨2, ![Ka, H]⟩ : Shape).Idx → EReal) (wr : (⟨2, ![Kb, H]⟩ : Shape).Idx → EReal)
    (b : (⟨2, ![1, H]⟩ : Shape).Idx → EReal) : (⟨2, ![M, H]⟩ : Shape).Idx → EReal :=
  fun i => sageAt a x wl wr b (i 0) (i 1)

theorem sage_apply (a : (⟨2, ![M, Ka]⟩ : Shape).Idx → EReal) (x : (⟨2, ![M, Kb]⟩ : Shape).Idx → EReal)
    (wl : (⟨2, ![Ka, H]⟩ : Shape).Idx → EReal) (wr : (⟨2, ![Kb, H]⟩ : Shape).Idx → EReal)
    (b : (⟨2, ![1, H]⟩ : Shape).Idx → EReal) (p : Fin M) (q : Fin H) :
    sage a x wl wr b (ix2 p q)
      = max (((∑ k : Fin Ka, a (ix2 p k) * wl (ix2 k q)) + (∑ k : Fin Kb, x (ix2 p k) * wr (ix2 k q))) + b (ix2 (0 : Fin 1) q)) 0 := rfl

/-- Entry `(p, q)` reads row `p` of the two row-indexed operands only. -/
theorem sageAt_congr (a : (⟨2, ![M, Ka]⟩ : Shape).Idx → EReal) (x : (⟨2, ![M, Kb]⟩ : Shape).Idx → EReal)
    (a' : (⟨2, ![M', Ka]⟩ : Shape).Idx → EReal) (x' : (⟨2, ![M', Kb]⟩ : Shape).Idx → EReal)
    (wl : (⟨2, ![Ka, H]⟩ : Shape).Idx → EReal) (wr : (⟨2, ![Kb, H]⟩ : Shape).Idx → EReal)
    (b : (⟨2, ![1, H]⟩ : Shape).Idx → EReal) (p : Fin M) (p' : Fin M') (q : Fin H)
    (ha : ∀ k : Fin Ka, a (ix2 p k) = a' (ix2 p' k)) (hx : ∀ k : Fin Kb, x (ix2 p k) = x' (ix2 p' k)) :
    sageAt a x wl wr b p q = sageAt a' x' wl wr b p' q := by
  unfold sageAt
  have e1 : (∑ k : Fin Ka, a (ix2 p k) * wl (ix2 k q)) = ∑ k : Fin Ka, a' (ix2 p' k) * wl (ix2 k q) :=
    Finset.sum_congr rfl fun k _ => by rw [ha k]
  have e2 : (∑ k : Fin Kb, x (ix2 p k) * wr (ix2 k q)) = ∑ k : Fin Kb, x' (ix2 p' k) * wr (ix2 k q) :=
    Finset.sum_congr rfl fun k _ => by rw [hx k]
  rw [e1, e2]

/-- The same of the matrix product with a bias row. -/
theorem affineAt_congr {K N : ℕ} (x : (⟨2, ![M, K]⟩ : Shape).Idx → EReal) (x' : (⟨2, ![M', K]⟩ : Shape).Idx → EReal)
    (w : (⟨2, ![K, N]⟩ : Shape).Idx → EReal) (b : (⟨2, ![1, N]⟩ : Shape).Idx → EReal) (p : Fin M) (p' : Fin M') (q : Fin N)
    (hx : ∀ k : Fin K, x (ix2 p k) = x' (ix2 p' k)) :
    affineAt x w b p q = affineAt x' w b p' q := by
  unfold affineAt
  rw [Finset.sum_congr rfl fun k _ => by rw [hx k]]

end Cert.Spec

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.LibSageLaws.lean ====
/-
  The neighbour-aggregation layer and the logistic, in the host's spelling.

  `sage_host`: the positive part of two matrix products and a bias row (`Cert.Spec.sage`), with the bias a vector viewed
  as one row, is the host's `maximum` of (`dot_general` + `dot_general` + the vector broadcast over the rows) with the
  broadcast zero: entry by entry both are `max ((Σ_k a (p, k) · wl (k, q) + Σ_k x (p, k) · wr (k, q)) + b q) 0`.
  `logistic_host`: the logistic function entry by entry is the host's `1 / (1 + exp (- z))` over broadcast ones.
-/
import proofs.«113350_j88553635709430_2_alg».proof.Proof.LibSageLayer
import proofs.«113350_j88553635709430_2_alg».proof.Proof.LibPlainDot
import proofs.«113350_j88553635709430_2_alg».proof.Proof.LibMeanScale
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.SageLaws

open Idealize.ShloMosaic Idealize.ShloMosaic.ValueIdx

variable {M Ka Kb H : ℕ}

/-- A vector laid along a row, `[N] → [1, N]`, then spread over the rows, `[1, N] → [M, N]`, reads at `(p, q)` the
    vector at `q`. -/
theorem rowSpread_apply {N : ℕ} (b : FVec Ideal ⟨1, ![N]⟩ .f32)
    (hb1 : (⟨1, ![N]⟩ : Shape).BroadcastsInDim ⟨2, ![1, N]⟩ ![1]) (hb2 : (⟨2, ![1, N]⟩ : Shape).BroadcastsInDim ⟨2, ![M, N]⟩ ![0, 1])
    (p : Fin M) (q : Fin N) :
    broadcastInDim ⟨2, ![M, N]⟩ ![0, 1] hb2 (broadcastInDim ⟨2, ![1, N]⟩ ![1] hb1 b) (ix2 p q) = b (ix1 q) := by
  refine (broadcastInDim_apply ![0, 1] hb2 _ (ix2 p q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] hb1 b (ix2 (0 : Fin 1) q) (ix1 q) fun a => ?_
    match a with
    | ⟨0, _⟩ =>
      show q.val = if N = 1 then 0 else q.val
      split
      · have := q.isLt; omega
      · rfl

/-- The zero scalar spread over any shape is the real zero at every index. -/
theorem zeroSpread_apply {t : Shape} (h0 : (⟨0, ![]⟩ : Shape).BroadcastsInDim t ![]) (j : t.Idx) :
    broadcastInDim t ![] h0 (constant (F := Ideal) ⟨0, ![]⟩ .f32 0x00000000#32) j = (0 : EReal) := by
  refine (broadcastInDim_apply (s := ⟨0, ![]⟩) ![] h0 _ j ix0 fun a => a.elim0).trans ?_
  rw [constant_apply]
  exact Ideal.ofBits_zero_f32

/-- The layer with its bias a vector viewed as one row, in the host's spelling. -/
theorem sage_host (a : FVec Ideal ⟨2, ![M, Ka]⟩ .f32) (x : FVec Ideal ⟨2, ![M, Kb]⟩ .f32)
    (wl : FVec Ideal ⟨2, ![Ka, H]⟩ .f32) (wr : FVec Ideal ⟨2, ![Kb, H]⟩ .f32) (b : FVec Ideal ⟨1, ![H]⟩ .f32)
    (hc : (⟨1, ![H]⟩ : Shape).ShapeCasts ⟨2, ![1, H]⟩)
    (h1 : (⟨1, ![H]⟩ : Shape).BroadcastsInDim ⟨2, ![1, H]⟩ ![1]) (h2 : (⟨2, ![1, H]⟩ : Shape).BroadcastsInDim ⟨2, ![M, H]⟩ ![0, 1])
    (h0 : (⟨0, ![]⟩ : Shape).BroadcastsInDim ⟨2, ![M, H]⟩ ![]) :
    Cert.Spec.sage a x wl wr (shapeCast ⟨2, ![1, H]⟩ b hc)
      = maximumf (addf (addf (Host.dotGeneral (F := Ideal) (DotDims.plain M Ka H) none a wl)
            (Host.dotGeneral (F := Ideal) (DotDims.plain M Kb H) none x wr))
          (broadcastInDim ⟨2, ![M, H]⟩ ![0, 1] h2 (broadcastInDim ⟨2, ![1, H]⟩ ![1] h1 b)))
        (broadcastInDim ⟨2, ![M, H]⟩ ![] h0 (constant (F := Ideal) ⟨0, ![]⟩ .f32 0x00000000#32)) := by
  funext i
  obtain ⟨p, q, rfl⟩ : ∃ (p : Fin M) (q : Fin H), i = ix2 p q := ⟨i 0, i 1, eq_ix2 i⟩
  rw [Cert.Spec.sage_apply, shapeCast_a_1a_apply, maximumf_apply, addf_apply, addf_apply, rowSpread_apply, zeroSpread_apply,
    ← PlainDot.dotGeneral_apply none .single a wl p q, ← PlainDot.dotGeneral_apply none .single x wr p q]

/-- The logistic function entry by entry, in the host's spelling `1 / (1 + exp (- z))` over broadcast ones. -/
theorem logistic_host {t : Shape} (z : FVec Ideal t .f32) (h0 : (⟨0, ![]⟩ : Shape).BroadcastsInDim t ![]) :
    (fun i => Ideal.logistic (z i))
      = Host.divf (broadcastInDim t ![] h0 (constant (F := Ideal) ⟨0, ![]⟩ .f32 0x3F800000#32))
          (addf (broadcastInDim t ![] h0 (constant (F := Ideal) ⟨0, ![]⟩ .f32 0x3F800000#32)) (Host.exp (Host.negf z))) := by
  funext i
  show Ideal.logistic (z i)
    = Ideal.div (broadcastInDim t ![] h0 (constant (F := Ideal) ⟨0, ![]⟩ .f32 0x3F800000#32) i)
        (broadcastInDim t ![] h0 (constant (F := Ideal) ⟨0, ![]⟩ .f32 0x3F800000#32) i + Ideal.exp (-(z i)))
  rw [Cert.MeanScale.oneSpread_apply]
  rfl

end Cert.SageLaws

end
-- ==== Proof.Region0.lean ====
/-
  The first dense step of the neighbour-aggregation layer, from row tiles to whole arrays.

  The kernel runs over ten grid points. Point `t` stages rows `3000 t … 3000 t + 2999` of the aggregated-messages array
  and of the node-features array, two pairs of `128 × 128` weights and two bias rows whole, and writes back rows
  `3000 t … 3000 t + 2999` of two result arrays. Entry `(r, q)` of a tile it writes is
  `max ((Σ_k a (r, k) · wl (k, q) + Σ_k x (r, k) · wr (k, q)) + b (0, q)) 0` of the staged tiles: on the extended reals
  a change of float format is the identity, a product into the zero accumulator is the plain sum over the contracted
  positions, the bias row is repeated over the rows, and the maximum with the zero constant is the positive part.
  That entry reads row `r` of the two row tiles only, and row `r` of tile `t` is row `3000 t + r` of its array (a tile's
  coordinate is the block index times the tile's size plus the coordinate inside the tile), so every point writes its
  tile of ONE function of the whole arrays, the layer `Cert.Spec.sage`. The ten tiles cover every row, so each result
  array ends holding that function of the arrays as the region finds them.
-/
import proofs.«113350_j88553635709430_2_alg».proof.Proof.Gen.KernelIdeal.Frame
import proofs.«113350_j88553635709430_2_alg».proof.Proof.LibSageLayer
import proofs.«113350_j88553635709430_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue0

open Cert.KernelIdeal Cert.KernelIdeal.Gen Idealize.ShloMosaic Idealize.ShloMosaic.ValueIdx
open Idealize.ShloMosaic.TcCoe Idealize.SL.Sem
open Idealize.ShloMosaic.Pipeline (Dat)

/-! ## The body's arithmetic at an entry -/

/-- The zero offsets of a whole-tile access, as the constant function. -/
theorem hz : (![0, 0] : Fin 2 → Nat) = fun _ => 0 := funext fun a => by fin_cases a <;> rfl

/-- One product of the body at `(r, q)`: the format changes of its operands are the identity and the accumulator is the
    zero constant, so it is the sum over the 128 contracted positions (the kernel's dimension record is the plain
    `[3000, 128] · [128, 128]` one, field by field). -/
theorem product_apply (x : Vec Ideal S3000x128 .f32) (w : Vec Ideal S128x128 .f32) (r : Fin 3000) (q : Fin 128) :
    matmul dot_S3000x128_S128x128_S3000x128_1_0_0_1_n_n none (truncf .bf16 x bitsLt_bf16_f32) (truncf .bf16 w bitsLt_bf16_f32)
        (constant (F := Ideal) S3000x128 .f32 0x00000000#32) (ix2 r q)
      = ∑ k : Fin 128, x (ix2 r k) * w (ix2 k q) :=
  PlainDot.matmul_zero_apply (M := 3000) (K := 128) (N := 128) none (truncf .bf16 x bitsLt_bf16_f32) (truncf .bf16 w bitsLt_bf16_f32) r q

/-- Entry `(r, q)` of the tile the body computes for output one: on the extended reals the two products into the zero
    accumulator are plain sums over the 128 contracted positions, their sum takes the bias row's entry of column `q`,
    and the result is its positive part. -/
theorem pay3_apply (x0 x1 : Vec Ideal S3000x128 .f32) (w0 w1 : Vec Ideal S128x128 .f32) (b : Vec Ideal S1x128 .f32)
    (r : Fin 3000) (q : Fin 128) :
    k0_pay3 (F := Ideal) x0 x1 w0 w1 b (ix2 r q)
      = max (((∑ k : Fin 128, x0 (ix2 r k) * w0 (ix2 k q)) + (∑ k : Fin 128, x1 (ix2 r k) * w1 (ix2 k q))) + b (ix2 (0 : Fin 1) q)) 0 := by
  unfold k0_pay3 k0_pay1 k0_pay2
  refine (maximumf_apply _ _ (ix2 r q)).trans ?_
  refine congrArg₂ max ?_ ?_
  · refine (addf_apply _ _ (ix2 r q)).trans ?_
    refine congrArg₂ (· + ·) ?_ ?_
    · refine (addf_apply _ _ (ix2 r q)).trans ?_
      refine congrArg₂ (· + ·) ?_ ?_
      · rw [shapeCast_self]
        exact product_apply x0 w0 r q
      · exact product_apply x1 w1 r q
    · refine (broadcastTo_1b_ab_apply _ _ r q).trans ?_
      rw [shapeCast_self]
  · exact Ideal.ofBits_zero_f32

/-- Entry `(r, q)` of the tile the body computes for output two: on the extended reals the two products into the zero
    accumulator are plain sums over the 128 contracted positions, their sum takes the bias row's entry of column `q`,
    and the result is its positive part. -/
theorem pay4_apply (x0 x1 : Vec Ideal S3000x128 .f32) (w0 w1 : Vec Ideal S128x128 .f32) (b : Vec Ideal S1x128 .f32)
    (r : Fin 3000) (q : Fin 128) :
    k0_pay4 (F := Ideal) x0 x1 w0 w1 b (ix2 r q)
      = max (((∑ k : Fin 128, x0 (ix2 r k) * w0 (ix2 k q)) + (∑ k : Fin 128, x1 (ix2 r k) * w1 (ix2 k q))) + b (ix2 (0 : Fin 1) q)) 0 := by
  unfold k0_pay4 k0_pay1 k0_pay2
  refine (maximumf_apply _ _ (ix2 r q)).trans ?_
  refine congrArg₂ max ?_ ?_
  · refine (addf_apply _ _ (ix2 r q)).trans ?_
    refine congrArg₂ (· + ·) ?_ ?_
    · refine (addf_apply _ _ (ix2 r q)).trans ?_
      refine congrArg₂ (· + ·) ?_ ?_
      · rw [shapeCast_self]
        exact product_apply x0 w0 r q
      · exact product_apply x1 w1 r q
    · refine (broadcastTo_1b_ab_apply _ _ r q).trans ?_
      rw [shapeCast_self]
  · exact Ideal.ofBits_zero_f32

/-! ## Tiles as rows of the arrays -/

variable (V : (c : Dev nD) → (b : Ref sig .tc) → Buf (Elt Ideal) ((c : Thread nD τ).loc b))

/-- The kernel's index maps, decided over the ten grid points: the two row-tiled inputs and the two outputs sit at block
    `(t, 0)`, every weight and bias window at block `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row `r` of the aggregated-messages tile at point `t` is row `3000 t + r` of the array. -/
theorem aggregated_tile_row (c : Dev nD) (t : Fin cfg0.N) (r : Fin 3000) (k : Fin 128) (p : Fin 30000) (hp : p.val = t.val * 3000 + r.val) :
    (iblk0 V c 0 t : Vec Ideal S3000x128 .f32) (ix2 r k) = (V c main_v24 : S30000x128.Idx → EReal) (ix2 p k) := by
  obtain ⟨e0, e1, -⟩ := index_facts t
  have h : ((cfg0.win 0).blk t).view.emb (ix2 r k : S3000x128.Idx) = (ix2 p k : S30000x128.Idx) := by
    funext a; apply Fin.ext
    match a with
    | ⟨0, _⟩ => show win0_0.index t (0 : Fin 2) * 3000 + 1 * r.val = p.val; rw [e0, hp]; omega
    | ⟨1, _⟩ => show win0_0.index t (1 : Fin 2) * 128 + 1 * k.val = k.val; rw [e1]; omega
  unfold iblk0
  show V c main_v24 (((cfg0.win 0).blk t).view.emb (ix2 r k)) = V c main_v24 (ix2 p k)
  rw [h]

/-- Row `r` of the node-features tile at point `t` is row `3000 t + r` of the array. -/
theorem features_tile_row (c : Dev nD) (t : Fin cfg0.N) (r : Fin 3000) (k : Fin 128) (p : Fin 30000) (hp : p.val = t.val * 3000 + r.val) :
    (iblk0 V c 1 t : Vec Ideal S3000x128 .f32) (ix2 r k) = (V c main_arg0 : S30000x128.Idx → EReal) (ix2 p k) := by
  obtain ⟨-, -, e0, e1, -⟩ := index_facts t
  have h : ((cfg0.win 1).blk t).view.emb (ix2 r k : S3000x128.Idx) = (ix2 p k : S30000x128.Idx) := by
    funext a; apply Fin.ext
    match a with
    | ⟨0, _⟩ => show win0_1.index t (0 : Fin 2) * 3000 + 1 * r.val = p.val; rw [e0, hp]; omega
    | ⟨1, _⟩ => show win0_1.index t (1 : Fin 2) * 128 + 1 * k.val = k.val; rw [e1]; omega
  unfold iblk0
  show V c main_arg0 (((cfg0.win 1).blk t).view.emb (ix2 r k)) = V c main_arg0 (ix2 p k)
  rw [h]

/-- The first output's neighbour weights are staged whole at every point. -/
theorem weight_left_one (c : Dev nD) (t : Fin cfg0.N) :
    (iblk0 V c 2 t : Vec Ideal S128x128 .f32) = (V c main_arg7 : S128x128.Idx → EReal) := by
  obtain ⟨-, -, -, -, e0, e1, -⟩ := index_facts t
  funext y
  have h : ((cfg0.win 2).blk t).view.emb y = y := by
    funext a; apply Fin.ext
    match a with
    | ⟨0, _⟩ => show win0_2.index t (0 : Fin 2) * 128 + 1 * (y 0).val = (y 0).val; rw [e0]; omega
    | ⟨1, _⟩ => show win0_2.index t (1 : Fin 2) * 128 + 1 * (y 1).val = (y 1).val; rw [e1]; omega
  unfold iblk0
  show V c main_arg7 (((cfg0.win 2).blk t).view.emb y) = V c main_arg7 y
  rw [h]

/-- The first output's self weights are staged whole at every point. -/
theorem weight_right_one (c : Dev nD) (t : Fin cfg0.N) :
    (iblk0 V c 3 t : Vec Ideal S128x128 .f32) = (V c main_arg8 : S128x128.Idx → EReal) := by
  obtain ⟨-, -, -, -, -, -, e0, e1, -⟩ := index_facts t
  funext y
  have h : ((cfg0.win 3).blk t).view.emb y = y := by
    funext a; apply Fin.ext
    match a with
    | ⟨0, _⟩ => show win0_3.index t (0 : Fin 2) * 128 + 1 * (y 0).val = (y 0).val; rw [e0]; omega
    | ⟨1, _⟩ => show win0_3.index t (1 : Fin 2) * 128 + 1 * (y 1).val = (y 1).val; rw [e1]; omega
  unfold iblk0
  show V c main_arg8 (((cfg0.win 3).blk t).view.emb y) = V c main_arg8 y
  rw [h]

/-- The first output's bias row is staged whole at every point. -/
theorem bias_one (c : Dev nD) (t : Fin cfg0.N) :
    (iblk0 V c 4 t : Vec Ideal S1x128 .f32) = (V c main_v25 : S1x128.Idx → EReal) := by
  obtain ⟨-, -, -, -, -, -, -, -, e0, e1, -⟩ := index_facts t
  funext y
  have h : ((cfg0.win 4).blk t).view.emb y = y := by
    funext a; apply Fin.ext
    match a with
    | ⟨0, _⟩ => show win0_4.index t (0 : Fin 2) * 1 + 1 * (y 0).val = (y 0).val; rw [e0]; omega
    | ⟨1, _⟩ => show win0_4.index t (1 : Fin 2) * 128 + 1 * (y 1).val = (y 1).val; rw [e1]; omega
  unfold iblk0
  show V c main_v25 (((cfg0.win 4).blk t).view.emb y) = V c main_v25 y
  rw [h]

/-- The second output's neighbour weights are staged whole at every point. -/
theorem weight_left_two (c : Dev nD) (t : Fin cfg0.N) :
    (iblk0 V c 5 t : Vec Ideal S128x128 .f32) = (V c main_arg18 : S128x128.Idx → EReal) := by
  obtain ⟨-, -, -, -, -, -, -, -, -, -, e0, e1, -⟩ := index_facts t
  funext y
  have h : ((cfg0.win 5).blk t).view.emb y = y := by
    funext a; apply Fin.ext
    match a with
    | ⟨0, _⟩ => show win0_5.index t (0 : Fin 2) * 128 + 1 * (y 0).val = (y 0).val; rw [e0]; omega
    | ⟨1, _⟩ => show win0_5.index t (1 : Fin 2) * 128 + 1 * (y 1).val = (y 1).val; rw [e1]; omega
  unfold iblk0
  show V c main_arg18 (((cfg0.win 5).blk t).view.emb y) = V c main_arg18 y
  rw [h]

/-- The second output's self weights are staged whole at every point. -/
theorem weight_right_two (c : Dev nD) (t : Fin cfg0.N) :
    (iblk0 V c 6 t : Vec Ideal S128x128 .f32) = (V c main_arg19 : S128x128.Idx → EReal) := by
  obtain ⟨-, -, -, -, -, -, -, -, -, -, -, -, e0, e1, -⟩ := index_facts t
  funext y
  have h : ((cfg0.win 6).blk t).view.emb y = y := by
    funext a; apply Fin.ext
    match a with
    | ⟨0, _⟩ => show win0_6.index t (0 : Fin 2) * 128 + 1 * (y 0).val = (y 0).val; rw [e0]; omega
    | ⟨1, _⟩ => show win0_6.index t (1 : Fin 2) * 128 + 1 * (y 1).val = (y 1).val; rw [e1]; omega
  unfold iblk0
  show V c main_arg19 (((cfg0.win 6).blk t).view.emb y) = V c main_arg19 y
  rw [h]

/-- The second output's bias row is staged whole at every point. -/
theorem bias_two (c : Dev nD) (t : Fin cfg0.N) :
    (iblk0 V c 7 t : Vec Ideal S1x128 .f32) = (V c main_v26 : S1x128.Idx → EReal) := by
  obtain ⟨-, -, -, -, -, -, -, -, -, -, -, -, -, -, e0, e1, -⟩ := index_facts t
  funext y
  have h : ((cfg0.win 7).blk t).view.emb y = y := by
    funext a; apply Fin.ext
    match a with
    | ⟨0, _⟩ => show win0_7.index t (0 : Fin 2) * 1 + 1 * (y 0).val = (y 0).val; rw [e0]; omega
    | ⟨1, _⟩ => show win0_7.index t (1 : Fin 2) * 128 + 1 * (y 1).val = (y 1).val; rw [e1]; omega
  unfold iblk0
  show V c main_v26 (((cfg0.win 7).blk t).view.emb y) = V c main_v26 y
  rw [h]

/-- Entry `(r, q)` of the tile point `t` writes back through output window 8 lands at row `3000 t + r`, column `q` of the array. -/
theorem out_one_row (t : Fin cfg0.N) (r : Fin 3000) (q : Fin 128) (p : Fin 30000) (hp : p.val = t.val * 3000 + r.val) :
    ((cfg0.win 8).blk t).view.emb (ix2 r q : S3000x128.Idx) = (ix2 p q : S30000x128.Idx) := by
  obtain ⟨-, -, -, -, -, -, -, -, -, -, -, -, -, -, -, -, e0, e1, -⟩ := index_facts t
  funext a; apply Fin.ext
  match a with
  | ⟨0, _⟩ => show win0_8.index t (0 : Fin 2) * 3000 + 1 * r.val = p.val; rw [e0, hp]; omega
  | ⟨1, _⟩ => show win0_8.index t (1 : Fin 2) * 128 + 1 * q.val = q.val; rw [e1]; omega

/-- Entry `(r, q)` of the tile point `t` writes back through output window 9 lands at row `3000 t + r`, column `q` of the array. -/
theorem out_two_row (t : Fin cfg0.N) (r : Fin 3000) (q : Fin 128) (p : Fin 30000) (hp : p.val = t.val * 3000 + r.val) :
    ((cfg0.win 9).blk t).view.emb (ix2 r q : S3000x128.Idx) = (ix2 p q : S30000x128.Idx) := by
  obtain ⟨-, -, -, -, -, -, -, -, -, -, -, -, -, -, -, -, -, -, e0, e1⟩ := index_facts t
  funext a; apply Fin.ext
  match a with
  | ⟨0, _⟩ => show win0_9.index t (0 : Fin 2) * 3000 + 1 * r.val = p.val; rw [e0, hp]; omega
  | ⟨1, _⟩ => show win0_9.index t (1 : Fin 2) * 128 + 1 * q.val = q.val; rw [e1]; omega

/-! ## What a point writes back -/

/-- What point `t` writes back through output window 8 is its tile of the layer of the whole arrays: entry `(r, q)` of
    the body's tile reads row `r` of the two row tiles, which is row `3000 t + r` of their arrays, and the weights and
    the bias row whole. -/
theorem flushed_one (c : Dev nD) (t : Fin cfg0.N) :
    (dat0 (F := Ideal) V c).flushed 8 t
      = ((cfg0.win 8).blk t).view.read (Elt Ideal) (Cert.Spec.sage (V c main_v24) (V c main_arg0) (V c main_arg7) (V c main_arg8) (V c main_v25)) := by
  show (cfg0.win 8).cut (grid0.coords t) ((dat0 V c).after 8 t) = _
  rw [after0_8]
  unfold out0_8
  rw [View.canon_unit_zero hz]
  simp only [View.ld_unit_zero (S := S3000x128) hz, View.ld_unit_zero (S := S128x128) hz, View.ld_unit_zero (S := S1x128) hz]
  rw [weight_left_one V c t, weight_right_one V c t, bias_one V c t]
  show (k0_pay3 (iblk0 V c 0 t) (iblk0 V c 1 t) (V c main_arg7) (V c main_arg8) (V c main_v25) : Vec Ideal S3000x128 .f32)
      = fun y : S3000x128.Idx => Cert.Spec.sage (V c main_v24) (V c main_arg0) (V c main_arg7) (V c main_arg8) (V c main_v25) (((cfg0.win 8).blk t).view.emb y)
  funext y
  obtain ⟨r, q, rfl⟩ : ∃ (r : Fin 3000) (q : Fin 128), y = ix2 r q := ⟨y 0, y 1, eq_ix2 y⟩
  have ht : t.val < 10 := lt_of_lt_of_eq t.isLt N_0
  have hp : t.val * 3000 + r.val < 30000 := by have := r.isLt; omega
  refine (pay3_apply (iblk0 V c 0 t) (iblk0 V c 1 t) (V c main_arg7) (V c main_arg8) (V c main_v25) r q).trans ?_
  rw [out_one_row t r q ⟨t.val * 3000 + r.val, hp⟩ rfl]
  exact Cert.Spec.sageAt_congr (M := 3000) (M' := 30000) (Ka := 128) (Kb := 128) (H := 128)
    (iblk0 V c 0 t) (iblk0 V c 1 t) (V c main_v24) (V c main_arg0) (V c main_arg7) (V c main_arg8) (V c main_v25)
    r ⟨t.val * 3000 + r.val, hp⟩ q
    (fun k => aggregated_tile_row V c t r k _ rfl) (fun k => features_tile_row V c t r k _ rfl)

/-- What point `t` writes back through output window 9 is its tile of the layer of the whole arrays: entry `(r, q)` of
    the body's tile reads row `r` of the two row tiles, which is row `3000 t + r` of their arrays, and the weights and
    the bias row whole. -/
theorem flushed_two (c : Dev nD) (t : Fin cfg0.N) :
    (dat0 (F := Ideal) V c).flushed 9 t
      = ((cfg0.win 9).blk t).view.read (Elt Ideal) (Cert.Spec.sage (V c main_v24) (V c main_arg0) (V c main_arg18) (V c main_arg19) (V c main_v26)) := by
  show (cfg0.win 9).cut (grid0.coords t) ((dat0 V c).after 9 t) = _
  rw [after0_9]
  unfold out0_9
  rw [View.canon_unit_zero hz]
  simp only [View.ld_unit_zero (S := S3000x128) hz, View.ld_unit_zero (S := S128x128) hz, View.ld_unit_zero (S := S1x128) hz]
  rw [weight_left_two V c t, weight_right_two V c t, bias_two V c t]
  show (k0_pay4 (iblk0 V c 0 t) (iblk0 V c 1 t) (V c main_arg18) (V c main_arg19) (V c main_v26) : Vec Ideal S3000x128 .f32)
      = fun y : S3000x128.Idx => Cert.Spec.sage (V c main_v24) (V c main_arg0) (V c main_arg18) (V c main_arg19) (V c main_v26) (((cfg0.win 9).blk t).view.emb y)
  funext y
  obtain ⟨r, q, rfl⟩ : ∃ (r : Fin 3000) (q : Fin 128), y = ix2 r q := ⟨y 0, y 1, eq_ix2 y⟩
  have ht : t.val < 10 := lt_of_lt_of_eq t.isLt N_0
  have hp : t.val * 3000 + r.val < 30000 := by have := r.isLt; omega
  refine (pay4_apply (iblk0 V c 0 t) (iblk0 V c 1 t) (V c main_arg18) (V c main_arg19) (V c main_v26) r q).trans ?_
  rw [out_two_row t r q ⟨t.val * 3000 + r.val, hp⟩ rfl]
  exact Cert.Spec.sageAt_congr (M := 3000) (M' := 30000) (Ka := 128) (Kb := 128) (H := 128)
    (iblk0 V c 0 t) (iblk0 V c 1 t) (V c main_v24) (V c main_arg0) (V c main_arg18) (V c main_arg19) (V c main_v26)
    r ⟨t.val * 3000 + r.val, hp⟩ q
    (fun k => aggregated_tile_row V c t r k _ rfl) (fun k => features_tile_row V c t r k _ rfl)

/-! ## The tiles cover the arrays -/

/-- An index of the array is in point `t`'s tile of output window 8 iff each coordinate is in the tile's range on its axis. -/
theorem mem_tile8 (t : Fin cfg0.N) (i : S30000x128.Idx) :
    i ∈ ((cfg0.win 8).blk t).view.set
      ↔ ∀ a : Fin 2, win0_8.index t a * S3000x128.size a ≤ (i a).val ∧ (i a).val < win0_8.index t a * S3000x128.size a + S3000x128.size a := by
  show i ∈ ((View.whole main_v27_0).slice (win0_8.rect t)).set ↔ _
  rw [View.set_slice_whole, Rect.mem_set_unit]
  exact Iff.rfl

/-- The ten tiles of output window 8 cover the array: row `p` is in the tile of point `p / 3000`. -/
theorem cover8 (i : S30000x128.Idx) :
    ∃ t : Fin cfg0.N, (cfg0.win 8).flush t = true ∧ i ∈ ((cfg0.win 8).blk t).view.set := by
  have hi0 : (i 0).val < 30000 := (i 0).isLt
  have hi1 : (i 1).val < 128 := (i 1).isLt
  have hlt : (i 0).val / 3000 < 10 := by omega
  obtain ⟨t, ht⟩ : ∃ t : Fin cfg0.N, t.val = (i 0).val / 3000 := ⟨⟨(i 0).val / 3000, lt_of_lt_of_eq hlt N_0.symm⟩, rfl⟩
  obtain ⟨-, -, -, -, -, -, -, -, -, -, -, -, -, -, -, -, e0, e1, -⟩ := index_facts t
  refine ⟨t, flush0_8 t, ?_⟩
  rw [mem_tile8]
  intro a
  match a with
  | ⟨0, _⟩ =>
    show win0_8.index t (0 : Fin 2) * 3000 ≤ (i 0).val ∧ (i 0).val < win0_8.index t (0 : Fin 2) * 3000 + 3000
    rw [e0, ht]; omega
  | ⟨1, _⟩ =>
    show win0_8.index t (1 : Fin 2) * 128 ≤ (i 1).val ∧ (i 1).val < win0_8.index t (1 : Fin 2) * 128 + 128
    rw [e1]; omega

/-- An index of the array is in point `t`'s tile of output window 9 iff each coordinate is in the tile's range on its axis. -/
theorem mem_tile9 (t : Fin cfg0.N) (i : S30000x128.Idx) :
    i ∈ ((cfg0.win 9).blk t).view.set
      ↔ ∀ a : Fin 2, win0_9.index t a * S3000x128.size a ≤ (i a).val ∧ (i a).val < win0_9.index t a * S3000x128.size a + S3000x128.size a := by
  show i ∈ ((View.whole main_v27_1).slice (win0_9.rect t)).set ↔ _
  rw [View.set_slice_whole, Rect.mem_set_unit]
  exact Iff.rfl

/-- The ten tiles of output window 9 cover the array: row `p` is in the tile of point `p / 3000`. -/
theorem cover9 (i : S30000x128.Idx) :
    ∃ t : Fin cfg0.N, (cfg0.win 9).flush t = true ∧ i ∈ ((cfg0.win 9).blk t).view.set := by
  have hi0 : (i 0).val < 30000 := (i 0).isLt
  have hi1 : (i 1).val < 128 := (i 1).isLt
  have hlt : (i 0).val / 3000 < 10 := by omega
  obtain ⟨t, ht⟩ : ∃ t : Fin cfg0.N, t.val = (i 0).val / 3000 := ⟨⟨(i 0).val / 3000, lt_of_lt_of_eq hlt N_0.symm⟩, rfl⟩
  obtain ⟨-, -, -, -, -, -, -, -, -, -, -, -, -, -, -, -, -, -, e0, e1⟩ := index_facts t
  refine ⟨t, flush0_9 t, ?_⟩
  rw [mem_tile9]
  intro a
  match a with
  | ⟨0, _⟩ =>
    show win0_9.index t (0 : Fin 2) * 3000 ≤ (i 0).val ∧ (i 0).val < win0_9.index t (0 : Fin 2) * 3000 + 3000
    rw [e0, ht]; omega
  | ⟨1, _⟩ =>
    show win0_9.index t (1 : Fin 2) * 128 ≤ (i 1).val ∧ (i 1).val < win0_9.index t (1 : Fin 2) * 128 + 128
    rw [e1]; omega

/-! ## The result arrays -/

/-- After the region the first result array holds the layer of the arrays the region found, with the first weights and bias. -/
theorem final0_8 (c : Dev nD) : (dat0 (F := Ideal) V c).arrAt 8 cfg0.N
    = Cert.Spec.sage (V c main_v24) (V c main_arg0) (V c main_arg7) (V c main_arg8) (V c main_v25) :=
  (dat0 (F := Ideal) V c).arrAt_eq_of_cover 8 _ (fun t _ => flushed_one V c t) cover8

/-- After the region the second result array holds the layer of the same two row arrays, with the second weights and bias. -/
theorem final0_9 (c : Dev nD) : (dat0 (F := Ideal) V c).arrAt 9 cfg0.N
    = Cert.Spec.sage (V c main_v24) (V c main_arg0) (V c main_arg18) (V c main_arg19) (V c main_v26) :=
  (dat0 (F := Ideal) V c).arrAt_eq_of_cover 9 _ (fun t _ => flushed_two V c t) cover9

end Cert.KernelIdeal.RegionValue0

end
-- ==== Proof.Chain0.lean ====
/-
  The first host stretch of the idealized kernel program and its first kernel, read against the reference.

  The stretch computes the neighbour sums of the node features (a gather of the source rows, a scatter-add to the
  destination rows), the neighbour counts clipped below at one, their reciprocal once, and scales the sums by the spread
  reciprocal. The reference divides the same sums by the same spread clipped counts; off zero a product with the
  reciprocal is the quotient, and a count clipped at one is never zero, so the two arrays are equal entry by entry.
  The first kernel then computes two layers over that mean and the node features, tile by tile over the rows; each is
  the reference's layer: two products, the bias row, the positive part.
-/
import proofs.«113350_j88553635709430_2_alg».proof.Proof.Gen.KernelIdeal.Frame
import proofs.«113350_j88553635709430_2_alg».proof.Proof.Gen.ReferenceIdeal.Read
import proofs.«113350_j88553635709430_2_alg».proof.Proof.LibMeanScale
import proofs.«113350_j88553635709430_2_alg».proof.Proof.LibSageLaws
import proofs.«113350_j88553635709430_2_alg».proof.Proof.Region0
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- Argument 0 as launched. -/
abbrev a0 := m ((c : Thread nD τ).loc main_arg0)
/-- Argument 1 as launched. -/
abbrev a1 := m ((c : Thread nD τ).loc main_arg1)
/-- Argument 2 as launched. -/
abbrev a2 := m ((c : Thread nD τ).loc main_arg2)
/-- Argument 3 as launched. -/
abbrev a3 := m ((c : Thread nD τ).loc main_arg3)
/-- Argument 4 as launched. -/
abbrev a4 := m ((c : Thread nD τ).loc main_arg4)
/-- Argument 5 as launched. -/
abbrev a5 := m ((c : Thread nD τ).loc main_arg5)
/-- Argument 6 as launched. -/
abbrev a6 := m ((c : Thread nD τ).loc main_arg6)
/-- Argument 7 as launched. -/
abbrev a7 := m ((c : Thread nD τ).loc main_arg7)
/-- Argument 8 as launched. -/
abbrev a8 := m ((c : Thread nD τ).loc main_arg8)
/-- Argument 9 as launched. -/
abbrev a9 := m ((c : Thread nD τ).loc main_arg9)
/-- Argument 10 as launched. -/
abbrev a10 := m ((c : Thread nD τ).loc main_arg10)
/-- Argument 11 as launched. -/
abbrev a11 := m ((c : Thread nD τ).loc main_arg11)
/-- Argument 12 as launched. -/
abbrev a12 := m ((c : Thread nD τ).loc main_arg12)
/-- Argument 13 as launched. -/
abbrev a13 := m ((c : Thread nD τ).loc main_arg13)
/-- Argument 14 as launched. -/
abbrev a14 := m ((c : Thread nD τ).loc main_arg14)
/-- Argument 15 as launched. -/
abbrev a15 := m ((c : Thread nD τ).loc main_arg15)
/-- Argument 16 as launched. -/
abbrev a16 := m ((c : Thread nD τ).loc main_arg16)
/-- Argument 17 as launched. -/
abbrev a17 := m ((c : Thread nD τ).loc main_arg17)
/-- Argument 18 as launched. -/
abbrev a18 := m ((c : Thread nD τ).loc main_arg18)
/-- Argument 19 as launched. -/
abbrev a19 := m ((c : Thread nD τ).loc main_arg19)
/-- Argument 20 as launched. -/
abbrev a20 := m ((c : Thread nD τ).loc main_arg20)
/-- Argument 21 as launched. -/
abbrev a21 := m ((c : Thread nD τ).loc main_arg21)
/-- Argument 22 as launched. -/
abbrev a22 := m ((c : Thread nD τ).loc main_arg22)
/-- Argument 23 as launched. -/
abbrev a23 := m ((c : Thread nD τ).loc main_arg23)
/-- Argument 24 as launched. -/
abbrev a24 := m ((c : Thread nD τ).loc main_arg24)
/-- Argument 25 as launched. -/
abbrev a25 := m ((c : Thread nD τ).loc main_arg25)
/-- Argument 26 as launched. -/
abbrev a26 := m ((c : Thread nD τ).loc main_arg26)
/-- Argument 27 as launched. -/
abbrev a27 := m ((c : Thread nD τ).loc main_arg27)
/-- Argument 28 as launched. -/
abbrev a28 := m ((c : Thread nD τ).loc main_arg28)
/-- Argument 29 as launched. -/
abbrev a29 := m ((c : Thread nD τ).loc main_arg29)

/-- The mean neighbour features the first kernel reads are the reference's. -/
theorem W1_v24 : W1 m ρ c (Proc.devRef .tc main_v24) = val_main_v22 (F := Ideal) (a0 m c) (a2 m c) := by
  show StableHlo.after hostOps0 (W0 m ρ c) (Proc.devRef .tc main_v24) = _
  after_results_simp
  simp only [val_main_v22, val_main_v13, val_main_v11, val_main_cst, val_main_v12, val_main_v3, val_main_v2, val_main_v10, val_main_v9, val_main_v8, val_main_v5, val_main_v1, val_main_v0, val_main_v4, val_main_c, val_main_v7, val_main_v6, val_main_c_0, val_main_v21, val_main_v20, val_main_v19, val_main_v17, val_main_v15, val_main_cst_2, val_main_v16, val_main_v14, val_main_cst_1, val_main_v18, val_main_cst_3]
  exact Cert.MeanScale.scale_eq_divide _ _ _ _ _

theorem W1_arg0 : W1 m ρ c (Proc.devRef .tc main_arg0) = a0 m c := by
  show StableHlo.after hostOps0 (W0 m ρ c) (Proc.devRef .tc main_arg0) = _
  after_results_simp <;> rfl
theorem W1_arg7 : W1 m ρ c (Proc.devRef .tc main_arg7) = a7 m c := by
  show StableHlo.after hostOps0 (W0 m ρ c) (Proc.devRef .tc main_arg7) = _
  after_results_simp <;> rfl
theorem W1_arg8 : W1 m ρ c (Proc.devRef .tc main_arg8) = a8 m c := by
  show StableHlo.after hostOps0 (W0 m ρ c) (Proc.devRef .tc main_arg8) = _
  after_results_simp <;> rfl
theorem W1_arg18 : W1 m ρ c (Proc.devRef .tc main_arg18) = a18 m c := by
  show StableHlo.after hostOps0 (W0 m ρ c) (Proc.devRef .tc main_arg18) = _
  after_results_simp <;> rfl
theorem W1_arg19 : W1 m ρ c (Proc.devRef .tc main_arg19) = a19 m c := by
  show StableHlo.after hostOps0 (W0 m ρ c) (Proc.devRef .tc main_arg19) = _
  after_results_simp <;> rfl

/-- The first layer's bias, viewed as one row. -/
theorem W1_v25 : W1 m ρ c (Proc.devRef .tc main_v25) = shapeCast S1x128 (a9 m c) shapeCasts_S128_S1x128 := by
  show StableHlo.after hostOps0 (W0 m ρ c) (Proc.devRef .tc main_v25) = _
  after_results_simp <;> rfl
theorem W1_v26 : W1 m ρ c (Proc.devRef .tc main_v26) = shapeCast S1x128 (a20 m c) shapeCasts_S128_S1x128 := by
  show StableHlo.after hostOps0 (W0 m ρ c) (Proc.devRef .tc main_v26) = _
  after_results_simp <;> rfl

/-- The reference takes the same mean a second time, for its second branch. -/
theorem v104_eq_v22 (x0 : (⟨Cert.ReferenceIdeal.S30000x128, .f32⟩ : BufTy).Contents (Elt Ideal)) (x2 : (⟨Cert.ReferenceIdeal.S2x500000, .i32⟩ : BufTy).Contents (Elt Ideal)) :
    val_main_v104 (F := Ideal) x0 x2 = val_main_v22 (F := Ideal) x0 x2 := rfl

/-- The first kernel's first output is the reference's first hidden layer. -/
theorem W2_v27_0 : W2 m ρ c (Proc.devRef .tc main_v27_0)
    = val_main_v29 (F := Ideal) (a0 m c) (a2 m c) (a7 m c) (a8 m c) (a9 m c) := by
  refine (W2_arr m ρ c 8).trans ?_
  rw [Cert.KernelIdeal.RegionValue0.final0_8 (V1 m ρ) c]
  show Cert.Spec.sage (W1 m ρ c (Proc.devRef .tc main_v24)) (W1 m ρ c (Proc.devRef .tc main_arg0))
    (W1 m ρ c (Proc.devRef .tc main_arg7)) (W1 m ρ c (Proc.devRef .tc main_arg8)) (W1 m ρ c (Proc.devRef .tc main_v25)) = _
  rw [W1_v24, W1_arg0, W1_arg7, W1_arg8, W1_v25]
  simp only [val_main_v29, val_main_v28, val_main_v25, val_main_v23, val_main_v24, val_main_v27, val_main_v26, val_main_call0_v0, val_main_call0_cst]
  exact Cert.SageLaws.sage_host _ _ _ _ _ _ _ _ _

/-- Its second output is the reference's other branch's first hidden layer. -/
theorem W2_v27_1 : W2 m ρ c (Proc.devRef .tc main_v27_1)
    = val_main_v111 (F := Ideal) (a0 m c) (a2 m c) (a18 m c) (a19 m c) (a20 m c) := by
  refine (W2_arr m ρ c 9).trans ?_
  rw [Cert.KernelIdeal.RegionValue0.final0_9 (V1 m ρ) c]
  show Cert.Spec.sage (W1 m ρ c (Proc.devRef .tc main_v24)) (W1 m ρ c (Proc.devRef .tc main_arg0))
    (W1 m ρ c (Proc.devRef .tc main_arg18)) (W1 m ρ c (Proc.devRef .tc main_arg19)) (W1 m ρ c (Proc.devRef .tc main_v26)) = _
  rw [W1_v24, W1_arg0, W1_arg18, W1_arg19, W1_v26]
  simp only [val_main_v111, val_main_v110, val_main_v107, val_main_v105, val_main_v106, val_main_v109, val_main_v108, val_main_call3_v0, val_main_call3_cst]
  rw [v104_eq_v22]
  exact Cert.SageLaws.sage_host _ _ _ _ _ _ _ _ _

end Cert.KernelIdeal.Chain

end
-- ==== Proof.Region1.lean ====
/-
  The fused two-layer step on blocks of rows, as one function of whole arrays.

  The grid has five points; point `t` stages rows `2000 t … 2000 t + 1999` of the node features `a` ([10000, 128]) and of
  the aggregated neighbour features `x` ([10000, 64]), and the whole of every weight matrix and bias row. On its block
  it computes

    h₁ = max (a · W₁ˡ + x · W₁ʳ + b₁) 0        h₂ = max (a · W₂ˡ + h₁ · W₂ʳ + b₂) 0        out = h₂ · W₃ + b₃

  and writes `out` back as rows `2000 t …` of the result ([10000, 64]). On the extended reals a change of float format is
  the identity, a matrix product into a zero accumulator is the plain sum over the contracted index, a bias row spread
  over the rows reads its one row, and the positive part is `max · 0`. Entry `(r, q)` of each of the three steps reads
  row `r` of its row-indexed operands only, and row `r` of a point's block is row `2000 t + r` of the array; so what a
  point writes back is its block of the three steps taken on the whole arrays. The five blocks tile the 10000 rows, so
  after the region the result array is that whole-array function everywhere.
-/
import proofs.«113350_j88553635709430_2_alg».proof.Proof.Gen.KernelIdeal.Frame
import proofs.«113350_j88553635709430_2_alg».proof.Proof.LibSageLayer
import proofs.«113350_j88553635709430_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue1

open Cert.KernelIdeal Cert.KernelIdeal.Gen Idealize.ShloMosaic Idealize.ShloMosaic.ValueIdx
open Idealize.ShloMosaic.TcCoe Idealize.SL.Sem
open Idealize.ShloMosaic.Pipeline (Dat)

/-! ## The body's arithmetic at an entry -/

/-- One layer on a block of 2000 rows: entry `(r, q)` of the positive part of two products into zero accumulators plus the
    bias row spread over the rows is the layer's entry on the block's operands. -/
theorem layer_apply {Kb : ℕ}
    (D1 : DotDims ⟨2, ![2000, 128]⟩ ⟨2, ![128, 128]⟩ ⟨2, ![2000, 128]⟩)
    (D2 : DotDims ⟨2, ![2000, Kb]⟩ ⟨2, ![Kb, 128]⟩ ⟨2, ![2000, 128]⟩)
    (hD1 : D1 = DotDims.plain 2000 128 128) (hD2 : D2 = DotDims.plain 2000 Kb 128)
    (a : FVec Ideal ⟨2, ![2000, 128]⟩ .bf16) (x : FVec Ideal ⟨2, ![2000, Kb]⟩ .bf16)
    (wl : FVec Ideal ⟨2, ![128, 128]⟩ .bf16) (wr : FVec Ideal ⟨2, ![Kb, 128]⟩ .bf16) (b : FVec Ideal ⟨2, ![1, 128]⟩ .f32)
    (hb : (⟨2, ![1, 128]⟩ : Shape).Broadcasts ⟨2, ![2000, 128]⟩) (r : Fin 2000) (q : Fin 128) :
    maximumf (addf (addf (matmul D1 none a wl (constant (F := Ideal) ⟨2, ![2000, 128]⟩ .f32 0x00000000#32))
                         (matmul D2 none x wr (constant (F := Ideal) ⟨2, ![2000, 128]⟩ .f32 0x00000000#32)))
                   (broadcastTo ⟨2, ![2000, 128]⟩ b hb))
             (broadcast ⟨2, ![2000, 128]⟩ (Scalar.ofBits (F := Ideal) .f32 0x00000000#32)) (ix2 r q)
      = Cert.Spec.sageAt a x wl wr b r q := by
  subst hD1 hD2
  show max ((FloatOps.matmul (DotDims.plain 2000 128 128) none a wl (constant (F := Ideal) ⟨2, ![2000, 128]⟩ .f32 0x00000000#32) (ix2 r q)
      + FloatOps.matmul (DotDims.plain 2000 Kb 128) none x wr (constant (F := Ideal) ⟨2, ![2000, 128]⟩ .f32 0x00000000#32) (ix2 r q))
      + broadcastTo ⟨2, ![2000, 128]⟩ b hb (ix2 r q)) (Ideal.ofBits .f32 0x00000000#32) = _
  rw [PlainDot.matmul_zero_apply, PlainDot.matmul_zero_apply, broadcastTo_1b_ab_apply, Ideal.ofBits_zero_f32]
  rfl

/-- The projection on a block of 2000 rows: entry `(r, q)` of a product into a zero accumulator plus the bias row spread
    over the rows. -/
theorem proj_apply (D : DotDims ⟨2, ![2000, 128]⟩ ⟨2, ![128, 64]⟩ ⟨2, ![2000, 64]⟩) (hD : D = DotDims.plain 2000 128 64)
    (x : FVec Ideal ⟨2, ![2000, 128]⟩ .bf16) (w : FVec Ideal ⟨2, ![128, 64]⟩ .bf16) (b : FVec Ideal ⟨2, ![1, 64]⟩ .f32)
    (hb : (⟨2, ![1, 64]⟩ : Shape).Broadcasts ⟨2, ![2000, 64]⟩) (r : Fin 2000) (q : Fin 64) :
    addf (matmul D none x w (constant (F := Ideal) ⟨2, ![2000, 64]⟩ .f32 0x00000000#32)) (broadcastTo ⟨2, ![2000, 64]⟩ b hb) (ix2 r q)
      = Cert.Spec.affineAt x w b r q := by
  subst hD
  show FloatOps.matmul (DotDims.plain 2000 128 64) none x w (constant (F := Ideal) ⟨2, ![2000, 64]⟩ .f32 0x00000000#32) (ix2 r q)
      + broadcastTo ⟨2, ![2000, 64]⟩ b hb (ix2 r q) = _
  rw [PlainDot.matmul_zero_apply, broadcastTo_1b_ab_apply]
  rfl

/-- The second hidden block at `(r, q)`: the second layer of the staged feature block and of the first layer of the two
    staged blocks (the first layer's result feeds the second's right product; the conversions between formats are the
    identity). -/
theorem hidden_apply (v0 : Vec Ideal S2000x128 .f32) (v3 : Vec Ideal S2000x64 .f32) (v5 : Vec Ideal S128x128 .f32)
    (v7 : Vec Ideal S64x128 .f32) (v12 : Vec Ideal S1x128 .f32) (v19 v21 : Vec Ideal S128x128 .f32) (v26 : Vec Ideal S1x128 .f32)
    (r : Fin 2000) (q : Fin 128) :
    k1_pay2 (F := Ideal) v0 v3 v5 v7 v12 v19 v21 v26 (ix2 r q)
      = Cert.Spec.sageAt v0 (Cert.Spec.sage v0 v3 v5 v7 v12) v19 v21 v26 r q := by
  unfold k1_pay2
  simp only [shapeCast_self]
  refine (layer_apply _ _ rfl rfl _ _ _ _ _ _ r q).trans ?_
  refine Cert.Spec.sageAt_congr _ _ _ _ _ _ _ r r q (fun k => rfl) (fun k => ?_)
  exact layer_apply _ _ rfl rfl _ _ _ _ _ _ r k

/-- The stored block at `(r, q)`: the projection of the hidden block. -/
theorem out_apply (v32 : FVec Ideal S2000x128 .bf16) (v33 : Vec Ideal S128x64 .f32) (v36 : Vec Ideal S1x64 .f32)
    (r : Fin 2000) (q : Fin 64) :
    k1_pay1 (F := Ideal) v32 (k1_pay3 v33) v36 (ix2 r q) = Cert.Spec.affineAt v32 v33 v36 r q := by
  unfold k1_pay1 k1_pay3
  simp only [shapeCast_self]
  exact proj_apply _ rfl v32 v33 v36 _ r q

/-! ## The body's store, and the blocks it reads -/

theorem zero_offsets : (![0, 0] : Fin 2 → Nat) = fun _ => 0 := funext fun a => by fin_cases a <;> rfl

/-- What the body leaves in the output's staging buffer is the projection of the hidden block: its one store covers the
    buffer, and every load reads a whole staged block. -/
theorem out_eq {F : FTy → Type} [FloatOps F] (x0 : Vec F S2000x128 .f32) (x1 : Vec F S2000x64 .f32) (x2 : Vec F S128x128 .f32)
    (x3 : Vec F S64x128 .f32) (x4 : Vec F S1x128 .f32) (x5 x6 : Vec F S128x128 .f32) (x7 : Vec F S1x128 .f32)
    (x8 : Vec F S128x64 .f32) (x9 : Vec F S1x64 .f32) :
    out1_10 x0 x1 x2 x3 x4 x5 x6 x7 x8 x9 = k1_pay1 (k1_pay2 x0 x1 x2 x3 x4 x5 x6 x7) (k1_pay3 x8) x9 := by
  unfold out1_10
  rw [View.canon_unit_zero zero_offsets]
  simp only [View.ld_unit_zero (S := S2000x128) zero_offsets, View.ld_unit_zero (S := S2000x64) zero_offsets,
    View.ld_unit_zero (S := S128x128) zero_offsets, View.ld_unit_zero (S := S64x128) zero_offsets,
    View.ld_unit_zero (S := S1x128) zero_offsets, View.ld_unit_zero (S := S128x64) zero_offsets,
    View.ld_unit_zero (S := S1x64) zero_offsets]

/-- The printed index maps, decided over the five grid points: the two row-blocked inputs and the output sit at block
    row `t`, block column 0; every weight and bias window is its whole array at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_10.index t (0 : Fin 2) = t.val ∧ win1_10.index t (1 : Fin 2) = 0
    ∧ (∀ a : Fin 2, win1_2.index t a = 0) ∧ (∀ a : Fin 2, win1_3.index t a = 0) ∧ (∀ a : Fin 2, win1_4.index t a = 0)
    ∧ (∀ a : Fin 2, win1_5.index t a = 0) ∧ (∀ a : Fin 2, win1_6.index t a = 0) ∧ (∀ a : Fin 2, win1_7.index t a = 0)
    ∧ (∀ a : Fin 2, win1_8.index t a = 0) ∧ (∀ a : Fin 2, win1_9.index t a = 0) :=
  (by decide +kernel : ∀ t : Fin grid1.N, _)

variable (V : (c : Dev nD) → (b : Ref sig .tc) → Buf (Elt Ideal) ((c : Thread nD τ).loc b))

/-! A weight or bias window's block at any point is its whole array: block index zero on both axes, block size the
    array's. -/

theorem whole_block_2 (c : Dev nD) (t : Fin cfg1.N) : iblk1 V c 2 t = V c main_arg10 := by
  funext y
  show V c main_arg10 (((cfg1.win 2).blk t).view.emb y) = V c main_arg10 y
  refine congrArg _ (funext fun a => Fin.ext ?_)
  obtain ⟨-, -, -, -, -, -, f2, f3, f4, f5, f6, f7, f8, f9⟩ := index_facts t
  match a with
  | ⟨0, _⟩ => show win1_2.index t (0 : Fin 2) * 128 + 1 * (y 0).val = (y 0).val; rw [f2 0]; omega
  | ⟨1, _⟩ => show win1_2.index t (1 : Fin 2) * 128 + 1 * (y 1).val = (y 1).val; rw [f2 1]; omega

theorem whole_block_3 (c : Dev nD) (t : Fin cfg1.N) : iblk1 V c 3 t = V c main_arg11 := by
  funext y
  show V c main_arg11 (((cfg1.win 3).blk t).view.emb y) = V c main_arg11 y
  refine congrArg _ (funext fun a => Fin.ext ?_)
  obtain ⟨-, -, -, -, -, -, f2, f3, f4, f5, f6, f7, f8, f9⟩ := index_facts t
  match a with
  | ⟨0, _⟩ => show win1_3.index t (0 : Fin 2) * 64 + 1 * (y 0).val = (y 0).val; rw [f3 0]; omega
  | ⟨1, _⟩ => show win1_3.index t (1 : Fin 2) * 128 + 1 * (y 1).val = (y 1).val; rw [f3 1]; omega

theorem whole_block_4 (c : Dev nD) (t : Fin cfg1.N) : iblk1 V c 4 t = V c main_v47 := by
  funext y
  show V c main_v47 (((cfg1.win 4).blk t).view.emb y) = V c main_v47 y
  refine congrArg _ (funext fun a => Fin.ext ?_)
  obtain ⟨-, -, -, -, -, -, f2, f3, f4, f5, f6, f7, f8, f9⟩ := index_facts t
  match a with
  | ⟨0, _⟩ => show win1_4.index t (0 : Fin 2) * 1 + 1 * (y 0).val = (y 0).val; rw [f4 0]; omega
  | ⟨1, _⟩ => show win1_4.index t (1 : Fin 2) * 128 + 1 * (y 1).val = (y 1).val; rw [f4 1]; omega

theorem whole_block_5 (c : Dev nD) (t : Fin cfg1.N) : iblk1 V c 5 t = V c main_arg13 := by
  funext y
  show V c main_arg13 (((cfg1.win 5).blk t).view.emb y) = V c main_arg13 y
  refine congrArg _ (funext fun a => Fin.ext ?_)
  obtain ⟨-, -, -, -, -, -, f2, f3, f4, f5, f6, f7, f8, f9⟩ := index_facts t
  match a with
  | ⟨0, _⟩ => show win1_5.index t (0 : Fin 2) * 128 + 1 * (y 0).val = (y 0).val; rw [f5 0]; omega
  | ⟨1, _⟩ => show win1_5.index t (1 : Fin 2) * 128 + 1 * (y 1).val = (y 1).val; rw [f5 1]; omega

theorem whole_block_6 (c : Dev nD) (t : Fin cfg1.N) : iblk1 V c 6 t = V c main_arg14 := by
  funext y
  show V c main_arg14 (((cfg1.win 6).blk t).view.emb y) = V c main_arg14 y
  refine congrArg _ (funext fun a => Fin.ext ?_)
  obtain ⟨-, -, -, -, -, -, f2, f3, f4, f5, f6, f7, f8, f9⟩ := index_facts t
  match a with
  | ⟨0, _⟩ => show win1_6.index t (0 : Fin 2) * 128 + 1 * (y 0).val = (y 0).val; rw [f6 0]; omega
  | ⟨1, _⟩ => show win1_6.index t (1 : Fin 2) * 128 + 1 * (y 1).val = (y 1).val; rw [f6 1]; omega

theorem whole_block_7 (c : Dev nD) (t : Fin cfg1.N) : iblk1 V c 7 t = V c main_v48 := by
  funext y
  show V c main_v48 (((cfg1.win 7).blk t).view.emb y) = V c main_v48 y
  refine congrArg _ (funext fun a => Fin.ext ?_)
  obtain ⟨-, -, -, -, -, -, f2, f3, f4, f5, f6, f7, f8, f9⟩ := index_facts t
  match a with
  | ⟨0, _⟩ => show win1_7.index t (0 : Fin 2) * 1 + 1 * (y 0).val = (y 0).val; rw [f7 0]; omega
  | ⟨1, _⟩ => show win1_7.index t (1 : Fin 2) * 128 + 1 * (y 1).val = (y 1).val; rw [f7 1]; omega

theorem whole_block_8 (c : Dev nD) (t : Fin cfg1.N) : iblk1 V c 8 t = V c main_arg16 := by
  funext y
  show V c main_arg16 (((cfg1.win 8).blk t).view.emb y) = V c main_arg16 y
  refine congrArg _ (funext fun a => Fin.ext ?_)
  obtain ⟨-, -, -, -, -, -, f2, f3, f4, f5, f6, f7, f8, f9⟩ := index_facts t
  match a with
  | ⟨0, _⟩ => show win1_8.index t (0 : Fin 2) * 128 + 1 * (y 0).val = (y 0).val; rw [f8 0]; omega
  | ⟨1, _⟩ => show win1_8.index t (1 : Fin 2) * 64 + 1 * (y 1).val = (y 1).val; rw [f8 1]; omega

theorem whole_block_9 (c : Dev nD) (t : Fin cfg1.N) : iblk1 V c 9 t = V c main_v49 := by
  funext y
  show V c main_v49 (((cfg1.win 9).blk t).view.emb y) = V c main_v49 y
  refine congrArg _ (funext fun a => Fin.ext ?_)
  obtain ⟨-, -, -, -, -, -, f2, f3, f4, f5, f6, f7, f8, f9⟩ := index_facts t
  match a with
  | ⟨0, _⟩ => show win1_9.index t (0 : Fin 2) * 1 + 1 * (y 0).val = (y 0).val; rw [f9 0]; omega
  | ⟨1, _⟩ => show win1_9.index t (1 : Fin 2) * 64 + 1 * (y 1).val = (y 1).val; rw [f9 1]; omega

/-- Row `r` of the node-feature block at point `t` is row `2000 t + r` of the array. -/
theorem rows_block_0 (c : Dev nD) (t : Fin cfg1.N) (r : Fin 2000) (k : Fin 128) (R : Fin 10000) (hR : R.val = t.val * 2000 + r.val) :
    (iblk1 V c 0 t : Vec Ideal S2000x128 .f32) (ix2 r k) = (V c main_v46 : S10000x128.Idx → EReal) (ix2 R k) := by
  show V c main_v46 (((cfg1.win 0).blk t).view.emb (ix2 r k)) = V c main_v46 (ix2 R k)
  refine congrArg _ (funext fun a => Fin.ext ?_)
  obtain ⟨e0, e1, -⟩ := index_facts t
  match a with
  | ⟨0, _⟩ => show win1_0.index t (0 : Fin 2) * 2000 + 1 * r.val = R.val; rw [e0, hR]; omega
  | ⟨1, _⟩ => show win1_0.index t (1 : Fin 2) * 128 + 1 * k.val = k.val; rw [e1]; omega

/-- The same of the aggregated-neighbour block. -/
theorem rows_block_1 (c : Dev nD) (t : Fin cfg1.N) (r : Fin 2000) (k : Fin 64) (R : Fin 10000) (hR : R.val = t.val * 2000 + r.val) :
    (iblk1 V c 1 t : Vec Ideal S2000x64 .f32) (ix2 r k) = (V c main_arg1 : S10000x64.Idx → EReal) (ix2 R k) := by
  show V c main_arg1 (((cfg1.win 1).blk t).view.emb (ix2 r k)) = V c main_arg1 (ix2 R k)
  refine congrArg _ (funext fun a => Fin.ext ?_)
  obtain ⟨-, -, e2, e3, -⟩ := index_facts t
  match a with
  | ⟨0, _⟩ => show win1_1.index t (0 : Fin 2) * 2000 + 1 * r.val = R.val; rw [e2, hR]; omega
  | ⟨1, _⟩ => show win1_1.index t (1 : Fin 2) * 64 + 1 * k.val = k.val; rw [e3]; omega

/-! ## One point's block against the whole-array layers -/

/-- Entry `j` of the block a point computes from row blocks `x0`, `x1` that are rows `T, T + 1, …` of arrays `A`, `X` is
    entry `i` of the two layers and the projection of the whole arrays, when `i` is `j` moved down by `T` rows: every
    entry of the three steps reads one row of its row-indexed operands. -/
theorem point_eq (A : S10000x128.Idx → EReal) (X : S10000x64.Idx → EReal)
    (w1l : S128x128.Idx → EReal) (w1r : S64x128.Idx → EReal) (b1 : S1x128.Idx → EReal)
    (w2l w2r : S128x128.Idx → EReal) (b2 : S1x128.Idx → EReal) (w3 : S128x64.Idx → EReal) (b3 : S1x64.Idx → EReal)
    (x0 : Vec Ideal S2000x128 .f32) (x1 : Vec Ideal S2000x64 .f32) (T : ℕ)
    (h0 : ∀ (r : Fin 2000) (k : Fin 128) (R : Fin 10000), R.val = T + r.val → x0 (ix2 r k) = A (ix2 R k))
    (h1 : ∀ (r : Fin 2000) (k : Fin 64) (R : Fin 10000), R.val = T + r.val → x1 (ix2 r k) = X (ix2 R k))
    (j : S2000x64.Idx) (i : S10000x64.Idx) (hi0 : (i 0).val = T + (j 0).val) (hi1 : (i 1).val = (j 1).val) :
    k1_pay1 (F := Ideal) (k1_pay2 x0 x1 w1l w1r b1 w2l w2r b2) (k1_pay3 w3) b3 j
      = Cert.Spec.affine (Cert.Spec.sage A (Cert.Spec.sage A X w1l w1r b1) w2l w2r b2) w3 b3 i := by
  obtain ⟨r, q, rfl⟩ : ∃ (r : Fin 2000) (q : Fin 64), j = ix2 r q := ⟨j 0, j 1, eq_ix2 j⟩
  obtain ⟨R, q', rfl⟩ : ∃ (R : Fin 10000) (q' : Fin 64), i = ix2 R q' := ⟨i 0, i 1, eq_ix2 i⟩
  have hR : R.val = T + r.val := hi0
  obtain rfl : q = q' := Fin.ext hi1.symm
  refine (out_apply _ _ _ r q).trans ?_
  refine Cert.Spec.affineAt_congr _ _ _ _ r R q fun k => ?_
  refine (hidden_apply _ _ _ _ _ _ _ _ r k).trans ?_
  exact Cert.Spec.sageAt_congr _ _ _ _ _ _ _ r R k (fun k' => h0 r k' R hR)
    (fun k' => Cert.Spec.sageAt_congr _ _ _ _ _ _ _ r R k' (fun k'' => h0 r k'' R hR) (fun k'' => h1 r k'' R hR))

/-! ## From blocks to the array -/

/-- What point `t` writes back is block `t` of the two layers and the projection of the arrays as the region finds them. -/
theorem flushed_eq (c : Dev nD) (t : Fin cfg1.N) :
    (dat1 (F := Ideal) V c).flushed 10 t
      = ((cfg1.win 10).blk t).view.read (Elt Ideal)
          (Cert.Spec.affine (Cert.Spec.sage (V c main_v46 : S10000x128.Idx → EReal)
              (Cert.Spec.sage (V c main_v46 : S10000x128.Idx → EReal) (V c main_arg1 : S10000x64.Idx → EReal)
                (V c main_arg10 : S128x128.Idx → EReal) (V c main_arg11 : S64x128.Idx → EReal) (V c main_v47 : S1x128.Idx → EReal))
              (V c main_arg13 : S128x128.Idx → EReal) (V c main_arg14 : S128x128.Idx → EReal) (V c main_v48 : S1x128.Idx → EReal))
            (V c main_arg16 : S128x64.Idx → EReal) (V c main_v49 : S1x64.Idx → EReal)) := by
  show (cfg1.win 10).cut (grid1.coords t) ((dat1 V c).after 10 t) = _
  rw [after1_10, out_eq, whole_block_2, whole_block_3, whole_block_4, whole_block_5, whole_block_6, whole_block_7,
    whole_block_8, whole_block_9]
  obtain ⟨-, -, -, -, e4, e5, -⟩ := index_facts t
  funext j
  refine point_eq _ _ _ _ _ _ _ _ _ _ (iblk1 V c 0 t) (iblk1 V c 1 t) (t.val * 2000)
    (fun r k R hR => rows_block_0 V c t r k R hR) (fun r k R hR => rows_block_1 V c t r k R hR) j
    (((cfg1.win 10).blk t).view.emb j) ?_ ?_
  · show win1_10.index t (0 : Fin 2) * 2000 + 1 * (j 0).val = t.val * 2000 + (j 0).val; rw [e4]; omega
  · show win1_10.index t (1 : Fin 2) * 64 + 1 * (j 1).val = (j 1).val; rw [e5]; omega

/-- An index of the array is in point `t`'s block iff each coordinate is in the block's range on its axis. -/
theorem mem_block (t : Fin cfg1.N) (i : S10000x64.Idx) :
    i ∈ ((cfg1.win 10).blk t).view.set
      ↔ ∀ a : Fin 2, win1_10.index t a * S2000x64.size a ≤ (i a).val ∧ (i a).val < win1_10.index t a * S2000x64.size a + S2000x64.size a := by
  show i ∈ ((View.whole main_v50).slice (win1_10.rect t)).set ↔ _
  rw [View.set_slice_whole, Rect.mem_set_unit]
  exact Iff.rfl

/-- The five blocks of 2000 rows tile the 10000 rows: row `p` is in the block of point `p / 2000`. -/
theorem covered (i : S10000x64.Idx) :
    ∃ t : Fin cfg1.N, (cfg1.win 10).flush t = true ∧ i ∈ ((cfg1.win 10).blk t).view.set := by
  have hi0 : (i 0).val < 10000 := (i 0).isLt
  have hi1 : (i 1).val < 64 := (i 1).isLt
  have hN : cfg1.N = 5 := N_1
  obtain ⟨t, ht⟩ : ∃ t : Fin cfg1.N, t.val = (i 0).val / 2000 := ⟨⟨(i 0).val / 2000, by rw [hN]; omega⟩, rfl⟩
  obtain ⟨-, -, -, -, e4, e5, -⟩ := index_facts t
  refine ⟨t, flush1_10 t, ?_⟩
  rw [mem_block]
  intro a
  match a with
  | ⟨0, _⟩ =>
    show win1_10.index t (0 : Fin 2) * 2000 ≤ (i 0).val ∧ (i 0).val < win1_10.index t (0 : Fin 2) * 2000 + 2000
    rw [e4, ht]; omega
  | ⟨1, _⟩ =>
    show win1_10.index t (1 : Fin 2) * 64 ≤ (i 1).val ∧ (i 1).val < win1_10.index t (1 : Fin 2) * 64 + 64
    rw [e5]; omega

/-- The result array after the region: the two layers and the projection of the arrays the region finds, everywhere. -/
theorem final1_10 (c : Dev nD) : (dat1 (F := Ideal) V c).arrAt 10 cfg1.N
    = Cert.Spec.affine (Cert.Spec.sage (V c main_v46) (Cert.Spec.sage (V c main_v46) (V c main_arg1) (V c main_arg10) (V c main_arg11) (V c main_v47)) (V c main_arg13) (V c main_arg14) (V c main_v48)) (V c main_arg16) (V c main_v49) :=
  (dat1 (F := Ideal) V c).arrAt_eq_of_cover 10 _ (fun t _ => flushed_eq V c t) covered

end Cert.KernelIdeal.RegionValue1

end
-- ==== Proof.LibKeepdims.lean ====
/-
  Layout operations on a column, read at an index. A kernel that forms an outer difference or an outer product of two
  vectors writes `x[:, None]` and `y[None, :]`: a length-`a` vector viewed as an `a × 1` column or a `1 × a` row and
  then spread over an `a × b` array. The row forms are in the library; these are the column forms, and the two casts
  that drop the leading unit axes of a pipelined block. Each lemma names the one operand entry an entry of the result
  reads, by coordinates.
-/
import Idealize.ShloMosaic.Lib.ValueIdx
import Idealize.ShloMosaic.Lib.ValueLayout
import Idealize.ShloMosaic.Lib.Pipeline.Value

namespace Idealize.ShloMosaic.Keepdims

open Idealize.ShloMosaic Idealize.ShloMosaic.ValueIdx

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to the `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column spread over `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` block cast to `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A `[1, 1, a]` block cast to `[a]` reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Idealize.ShloMosaic.Keepdims
-- ==== Proof.LibDenseLayerLaws.lean ====
/-
  The dense steps of a graph-convolution layer, in the form a tiled kernel computes them and in the form a host
  program spells them, are the same arrays on the extended reals.

  * A matrix product plus a bias row that is zero is the host's `dot_general`; plus a bias row that is a vector viewed as
    one row, it is the host's `dot_general` plus that vector broadcast over the rows.
  * "Aggregated messages plus own features times a per-row factor, plus a bias" with the factor a vector viewed as a
    column and the bias a vector viewed as a row is the host's sum of the aggregate, the features times the factor
    broadcast along the rows' length, and the bias broadcast over the rows; its positive part is the host's maximum
    with the zero array.
  Each is read entry by entry: a cast or broadcast names the one operand entry it reads, the zero word is the real 0.
-/
import proofs.«113350_j88553635709430_2_alg».proof.Proof.LibDenseLayer
import proofs.«113350_j88553635709430_2_alg».proof.Proof.LibPlainDot
import proofs.«113350_j88553635709430_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.DenseLaws

open Idealize.ShloMosaic Idealize.ShloMosaic.ValueIdx

variable {M K N : ℕ}

/-- A vector laid down a column, `[M] → [M, 1]`, then spread along the rows' length, `[M, 1] → [M, N]`, reads at `(p, q)`
    the vector at `p`: each spread reads the operand at the same row; when `M = 1` the only row is row `0`. -/
private theorem colSpread_apply (d : FVec Ideal ⟨1, ![M]⟩ .f32)
    (hd1 : (⟨1, ![M]⟩ : Shape).BroadcastsInDim ⟨2, ![M, 1]⟩ ![0]) (hd2 : (⟨2, ![M, 1]⟩ : Shape).BroadcastsInDim ⟨2, ![M, N]⟩ ![0, 1])
    (p : Fin M) (q : Fin N) :
    broadcastInDim ⟨2, ![M, N]⟩ ![0, 1] hd2 (broadcastInDim ⟨2, ![M, 1]⟩ ![0] hd1 d) (ix2 p q) = d (ix1 p) := by
  refine (broadcastInDim_apply ![0, 1] hd2 _ (ix2 p q) (ix2 p (0 : Fin 1)) fun a => ?_).trans ?_
  · match a with
    | ⟨0, _⟩ =>
      show p.val = if M = 1 then 0 else p.val
      split
      · have := p.isLt; omega
      · rfl
    | ⟨1, _⟩ => rfl
  · refine broadcastInDim_apply ![0] hd1 d (ix2 p (0 : Fin 1)) (ix1 p) fun a => ?_
    match a with
    | ⟨0, _⟩ =>
      show p.val = if M = 1 then 0 else p.val
      split
      · have := p.isLt; omega
      · rfl

/-- A vector laid along a row, `[N] → [1, N]`, then spread over the rows, `[1, N] → [M, N]`, reads at `(p, q)` the
    vector at `q`: each spread reads the operand at the same column; when `N = 1` the only column is column `0`. -/
private theorem rowSpread_apply (b : FVec Ideal ⟨1, ![N]⟩ .f32)
    (hb1 : (⟨1, ![N]⟩ : Shape).BroadcastsInDim ⟨2, ![1, N]⟩ ![1]) (hb2 : (⟨2, ![1, N]⟩ : Shape).BroadcastsInDim ⟨2, ![M, N]⟩ ![0, 1])
    (p : Fin M) (q : Fin N) :
    broadcastInDim ⟨2, ![M, N]⟩ ![0, 1] hb2 (broadcastInDim ⟨2, ![1, N]⟩ ![1] hb1 b) (ix2 p q) = b (ix1 q) := by
  refine (broadcastInDim_apply ![0, 1] hb2 _ (ix2 p q) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] hb1 b (ix2 (0 : Fin 1) q) (ix1 q) fun a => ?_
    match a with
    | ⟨0, _⟩ =>
      show q.val = if N = 1 then 0 else q.val
      split
      · have := q.isLt; omega
      · rfl

/-- The zero scalar spread over any shape is the real `0` at every index: the spread reads the scalar's one entry, whose
    word is the zero word. -/
private theorem zeroSpread_apply {t : Shape} (h0 : (⟨0, ![]⟩ : Shape).BroadcastsInDim t ![]) (j : t.Idx) :
    broadcastInDim t ![] h0 (constant (F := Ideal) ⟨0, ![]⟩ .f32 0x00000000#32) j = (0 : EReal) := by
  refine (broadcastInDim_apply (s := ⟨0, ![]⟩) ![] h0 _ j ix0 fun a => a.elim0).trans ?_
  rw [constant_apply]
  exact Ideal.ofBits_zero_f32

/-- A zero vector viewed as one row is zero at every column. -/
theorem zeroRow_apply (h0 : (⟨0, ![]⟩ : Shape).BroadcastsInDim ⟨1, ![N]⟩ ![]) (hc : (⟨1, ![N]⟩ : Shape).ShapeCasts ⟨2, ![1, N]⟩)
    (u : Fin 1) (q : Fin N) :
    shapeCast ⟨2, ![1, N]⟩ (broadcastInDim ⟨1, ![N]⟩ ![] h0 (constant (F := Ideal) ⟨0, ![]⟩ .f32 0x00000000#32)) hc (ix2 u q) = (0 : EReal) := by
  exact (shapeCast_a_1a_apply _ hc u q).trans (zeroSpread_apply h0 (ix1 q))

/-- The product with a bias row that is zero is the host's `dot_general`. -/
theorem affine_zero (x : FVec Ideal ⟨2, ![M, K]⟩ .f32) (w : FVec Ideal ⟨2, ![K, N]⟩ .f32) (z : FVec Ideal ⟨2, ![1, N]⟩ .f32)
    (hz : ∀ q : Fin N, z (ix2 (0 : Fin 1) q) = 0) :
    Cert.Spec.affine x w z = Host.dotGeneral (F := Ideal) (DotDims.plain M K N) none x w := by
  funext i
  obtain ⟨p, q, rfl⟩ : ∃ (p : Fin M) (q : Fin N), i = ix2 p q := ⟨i 0, i 1, eq_ix2 i⟩
  rw [Cert.Spec.affine_apply, hz q, add_zero]
  exact (PlainDot.dotGeneral_apply none .single x w p q).symm

/-- The product with a vector viewed as one row for bias is the host's `dot_general` plus the vector broadcast over the rows. -/
theorem affine_row (x : FVec Ideal ⟨2, ![M, K]⟩ .f32) (w : FVec Ideal ⟨2, ![K, N]⟩ .f32) (b : FVec Ideal ⟨1, ![N]⟩ .f32)
    (hc : (⟨1, ![N]⟩ : Shape).ShapeCasts ⟨2, ![1, N]⟩)
    (h1 : (⟨1, ![N]⟩ : Shape).BroadcastsInDim ⟨2, ![1, N]⟩ ![1]) (h2 : (⟨2, ![1, N]⟩ : Shape).BroadcastsInDim ⟨2, ![M, N]⟩ ![0, 1]) :
    Cert.Spec.affine x w (shapeCast ⟨2, ![1, N]⟩ b hc)
      = addf (Host.dotGeneral (F := Ideal) (DotDims.plain M K N) none x w)
          (broadcastInDim ⟨2, ![M, N]⟩ ![0, 1] h2 (broadcastInDim ⟨2, ![1, N]⟩ ![1] h1 b)) := by
  funext i
  obtain ⟨p, q, rfl⟩ : ∃ (p : Fin M) (q : Fin N), i = ix2 p q := ⟨i 0, i 1, eq_ix2 i⟩
  rw [Cert.Spec.affine_apply, shapeCast_a_1a_apply, addf_apply, rowSpread_apply]
  exact congrArg (· + b (ix1 q)) (PlainDot.dotGeneral_apply none .single x w p q).symm

/-- The combine step, factor a vector viewed as a column and bias a vector viewed as a row, in the host's spelling. -/
theorem combine_host (agg h : FVec Ideal ⟨2, ![M, N]⟩ .f32) (d : FVec Ideal ⟨1, ![M]⟩ .f32) (b : FVec Ideal ⟨1, ![N]⟩ .f32)
    (hcd : (⟨1, ![M]⟩ : Shape).ShapeCasts ⟨2, ![M, 1]⟩) (hcb : (⟨1, ![N]⟩ : Shape).ShapeCasts ⟨2, ![1, N]⟩)
    (hd1 : (⟨1, ![M]⟩ : Shape).BroadcastsInDim ⟨2, ![M, 1]⟩ ![0]) (hd2 : (⟨2, ![M, 1]⟩ : Shape).BroadcastsInDim ⟨2, ![M, N]⟩ ![0, 1])
    (hb1 : (⟨1, ![N]⟩ : Shape).BroadcastsInDim ⟨2, ![1, N]⟩ ![1]) (hb2 : (⟨2, ![1, N]⟩ : Shape).BroadcastsInDim ⟨2, ![M, N]⟩ ![0, 1]) :
    Cert.Spec.combine agg h (shapeCast ⟨2, ![M, 1]⟩ d hcd) (shapeCast ⟨2, ![1, N]⟩ b hcb)
      = addf (addf agg (mulf h (broadcastInDim ⟨2, ![M, N]⟩ ![0, 1] hd2 (broadcastInDim ⟨2, ![M, 1]⟩ ![0] hd1 d))))
          (broadcastInDim ⟨2, ![M, N]⟩ ![0, 1] hb2 (broadcastInDim ⟨2, ![1, N]⟩ ![1] hb1 b)) := by
  funext i
  obtain ⟨p, q, rfl⟩ : ∃ (p : Fin M) (q : Fin N), i = ix2 p q := ⟨i 0, i 1, eq_ix2 i⟩
  rw [Cert.Spec.combine_apply, Keepdims.shapeCast_a_a1_apply, shapeCast_a_1a_apply, addf_apply, addf_apply, mulf_apply,
    colSpread_apply, rowSpread_apply]

/-- Its positive part is the host's maximum with the zero array. -/
theorem combineRelu_host (agg h : FVec Ideal ⟨2, ![M, N]⟩ .f32) (d : FVec Ideal ⟨1, ![M]⟩ .f32) (b : FVec Ideal ⟨1, ![N]⟩ .f32)
    (hcd : (⟨1, ![M]⟩ : Shape).ShapeCasts ⟨2, ![M, 1]⟩) (hcb : (⟨1, ![N]⟩ : Shape).ShapeCasts ⟨2, ![1, N]⟩)
    (hd1 : (⟨1, ![M]⟩ : Shape).BroadcastsInDim ⟨2, ![M, 1]⟩ ![0]) (hd2 : (⟨2, ![M, 1]⟩ : Shape).BroadcastsInDim ⟨2, ![M, N]⟩ ![0, 1])
    (hb1 : (⟨1, ![N]⟩ : Shape).BroadcastsInDim ⟨2, ![1, N]⟩ ![1]) (hb2 : (⟨2, ![1, N]⟩ : Shape).BroadcastsInDim ⟨2, ![M, N]⟩ ![0, 1])
    (h0 : (⟨0, ![]⟩ : Shape).BroadcastsInDim ⟨2, ![M, N]⟩ ![]) :
    Cert.Spec.combineRelu agg h (shapeCast ⟨2, ![M, 1]⟩ d hcd) (shapeCast ⟨2, ![1, N]⟩ b hcb)
      = maximumf (addf (addf agg (mulf h (broadcastInDim ⟨2, ![M, N]⟩ ![0, 1] hd2 (broadcastInDim ⟨2, ![M, 1]⟩ ![0] hd1 d))))
          (broadcastInDim ⟨2, ![M, N]⟩ ![0, 1] hb2 (broadcastInDim ⟨2, ![1, N]⟩ ![1] hb1 b)))
          (broadcastInDim ⟨2, ![M, N]⟩ ![] h0 (constant (F := Ideal) ⟨0, ![]⟩ .f32 0x00000000#32)) := by
  funext i
  obtain ⟨p, q, rfl⟩ : ∃ (p : Fin M) (q : Fin N), i = ix2 p q := ⟨i 0, i 1, eq_ix2 i⟩
  rw [Cert.Spec.combineRelu_apply, Keepdims.shapeCast_a_a1_apply, shapeCast_a_1a_apply, maximumf_apply, addf_apply, addf_apply,
    mulf_apply, colSpread_apply, rowSpread_apply, zeroSpread_apply]

end Cert.DenseLaws

end
-- ==== Proof.Chain1.lean ====
/-
  The second host stretch and the second kernel of the idealized kernel program, read against the reference.

  The stretch gathers the first hidden layer's rows along the bipartite edges, adds them up per destination, and divides by
  the destination's neighbour count clipped at one: the reference's operations on the same values, so the same array.
  The kernel then applies two layers over that one mean (the reference takes the mean twice, from the same values) and the
  output projection, tile by tile over the rows: the reference's two layers and projection.
-/
import proofs.«113350_j88553635709430_2_alg».proof.Proof.Gen.KernelIdeal.Frame
import proofs.«113350_j88553635709430_2_alg».proof.Proof.Gen.ReferenceIdeal.Read
import proofs.«113350_j88553635709430_2_alg».proof.Proof.LibMeanScale
import proofs.«113350_j88553635709430_2_alg».proof.Proof.LibSageLaws
import proofs.«113350_j88553635709430_2_alg».proof.Proof.Chain0
import proofs.«113350_j88553635709430_2_alg».proof.Proof.Region1
import proofs.«113350_j88553635709430_2_alg».proof.Proof.LibDenseLayerLaws
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W1_arg1 : W1 m ρ c (Proc.devRef .tc main_arg1) = a1 m c := by
  show StableHlo.after hostOps0 (W0 m ρ c) (Proc.devRef .tc main_arg1) = _
  after_results_simp <;> rfl
theorem W1_arg2 : W1 m ρ c (Proc.devRef .tc main_arg2) = a2 m c := by
  show StableHlo.after hostOps0 (W0 m ρ c) (Proc.devRef .tc main_arg2) = _
  after_results_simp <;> rfl
theorem W1_arg3 : W1 m ρ c (Proc.devRef .tc main_arg3) = a3 m c := by
  show StableHlo.after hostOps0 (W0 m ρ c) (Proc.devRef .tc main_arg3) = _
  after_results_simp <;> rfl
theorem W1_arg4 : W1 m ρ c (Proc.devRef .tc main_arg4) = a4 m c := by
  show StableHlo.after hostOps0 (W0 m ρ c) (Proc.devRef .tc main_arg4) = _
  after_results_simp <;> rfl
theorem W1_arg5 : W1 m ρ c (Proc.devRef .tc main_arg5) = a5 m c := by
  show StableHlo.after hostOps0 (W0 m ρ c) (Proc.devRef .tc main_arg5) = _
  after_results_simp <;> rfl
theorem W1_arg6 : W1 m ρ c (Proc.devRef .tc main_arg6) = a6 m c := by
  show StableHlo.after hostOps0 (W0 m ρ c) (Proc.devRef .tc main_arg6) = _
  after_results_simp <;> rfl
theorem W1_arg9 : W1 m ρ c (Proc.devRef .tc main_arg9) = a9 m c := by
  show StableHlo.after hostOps0 (W0 m ρ c) (Proc.devRef .tc main_arg9) = _
  after_results_simp <;> rfl
theorem W1_arg10 : W1 m ρ c (Proc.devRef .tc main_arg10) = a10 m c := by
  show StableHlo.after hostOps0 (W0 m ρ c) (Proc.devRef .tc main_arg10) = _
  after_results_simp <;> rfl
theorem W1_arg11 : W1 m ρ c (Proc.devRef .tc main_arg11) = a11 m c := by
  show StableHlo.after hostOps0 (W0 m ρ c) (Proc.devRef .tc main_arg11) = _
  after_results_simp <;> rfl
theorem W1_arg12 : W1 m ρ c (Proc.devRef .tc main_arg12) = a12 m c := by
  show StableHlo.after hostOps0 (W0 m ρ c) (Proc.devRef .tc main_arg12) = _
  after_results_simp <;> rfl
theorem W1_arg13 : W1 m ρ c (Proc.devRef .tc main_arg13) = a13 m c := by
  show StableHlo.after hostOps0 (W0 m ρ c) (Proc.devRef .tc main_arg13) = _
  after_results_simp <;> rfl
theorem W1_arg14 : W1 m ρ c (Proc.devRef .tc main_arg14) = a14 m c := by
  show StableHlo.after hostOps0 (W0 m ρ c) (Proc.devRef .tc main_arg14) = _
  after_results_simp <;> rfl
theorem W1_arg15 : W1 m ρ c (Proc.devRef .tc main_arg15) = a15 m c := by
  show StableHlo.after hostOps0 (W0 m ρ c) (Proc.devRef .tc main_arg15) = _
  after_results_simp <;> rfl
theorem W1_arg16 : W1 m ρ c (Proc.devRef .tc main_arg16) = a16 m c := by
  show StableHlo.after hostOps0 (W0 m ρ c) (Proc.devRef .tc main_arg16) = _
  after_results_simp <;> rfl
theorem W1_arg17 : W1 m ρ c (Proc.devRef .tc main_arg17) = a17 m c := by
  show StableHlo.after hostOps0 (W0 m ρ c) (Proc.devRef .tc main_arg17) = _
  after_results_simp <;> rfl
theorem W1_arg20 : W1 m ρ c (Proc.devRef .tc main_arg20) = a20 m c := by
  show StableHlo.after hostOps0 (W0 m ρ c) (Proc.devRef .tc main_arg20) = _
  after_results_simp <;> rfl
theorem W1_arg21 : W1 m ρ c (Proc.devRef .tc main_arg21) = a21 m c := by
  show StableHlo.after hostOps0 (W0 m ρ c) (Proc.devRef .tc main_arg21) = _
  after_results_simp <;> rfl
theorem W1_arg22 : W1 m ρ c (Proc.devRef .tc main_arg22) = a22 m c := by
  show StableHlo.after hostOps0 (W0 m ρ c) (Proc.devRef .tc main_arg22) = _
  after_results_simp <;> rfl
theorem W1_arg23 : W1 m ρ c (Proc.devRef .tc main_arg23) = a23 m c := by
  show StableHlo.after hostOps0 (W0 m ρ c) (Proc.devRef .tc main_arg23) = _
  after_results_simp <;> rfl
theorem W1_arg24 : W1 m ρ c (Proc.devRef .tc main_arg24) = a24 m c := by
  show StableHlo.after hostOps0 (W0 m ρ c) (Proc.devRef .tc main_arg24) = _
  after_results_simp <;> rfl
theorem W1_arg25 : W1 m ρ c (Proc.devRef .tc main_arg25) = a25 m c := by
  show StableHlo.after hostOps0 (W0 m ρ c) (Proc.devRef .tc main_arg25) = _
  after_results_simp <;> rfl
theorem W1_arg26 : W1 m ρ c (Proc.devRef .tc main_arg26) = a26 m c := by
  show StableHlo.after hostOps0 (W0 m ρ c) (Proc.devRef .tc main_arg26) = _
  after_results_simp <;> rfl
theorem W1_arg27 : W1 m ρ c (Proc.devRef .tc main_arg27) = a27 m c := by
  show StableHlo.after hostOps0 (W0 m ρ c) (Proc.devRef .tc main_arg27) = _
  after_results_simp <;> rfl
theorem W1_arg28 : W1 m ρ c (Proc.devRef .tc main_arg28) = a28 m c := by
  show StableHlo.after hostOps0 (W0 m ρ c) (Proc.devRef .tc main_arg28) = _
  after_results_simp <;> rfl
theorem W1_arg29 : W1 m ρ c (Proc.devRef .tc main_arg29) = a29 m c := by
  show StableHlo.after hostOps0 (W0 m ρ c) (Proc.devRef .tc main_arg29) = _
  after_results_simp <;> rfl

theorem W2_arg1 : W2 m ρ c (Proc.devRef .tc main_arg1) = a1 m c :=
  (W2_of_ne m ρ c main_arg1 (by decide)).trans (W1_arg1 m ρ c)
theorem W2_arg3 : W2 m ρ c (Proc.devRef .tc main_arg3) = a3 m c :=
  (W2_of_ne m ρ c main_arg3 (by decide)).trans (W1_arg3 m ρ c)
theorem W2_arg4 : W2 m ρ c (Proc.devRef .tc main_arg4) = a4 m c :=
  (W2_of_ne m ρ c main_arg4 (by decide)).trans (W1_arg4 m ρ c)
theorem W2_arg10 : W2 m ρ c (Proc.devRef .tc main_arg10) = a10 m c :=
  (W2_of_ne m ρ c main_arg10 (by decide)).trans (W1_arg10 m ρ c)
theorem W2_arg11 : W2 m ρ c (Proc.devRef .tc main_arg11) = a11 m c :=
  (W2_of_ne m ρ c main_arg11 (by decide)).trans (W1_arg11 m ρ c)
theorem W2_arg12 : W2 m ρ c (Proc.devRef .tc main_arg12) = a12 m c :=
  (W2_of_ne m ρ c main_arg12 (by decide)).trans (W1_arg12 m ρ c)
theorem W2_arg13 : W2 m ρ c (Proc.devRef .tc main_arg13) = a13 m c :=
  (W2_of_ne m ρ c main_arg13 (by decide)).trans (W1_arg13 m ρ c)
theorem W2_arg14 : W2 m ρ c (Proc.devRef .tc main_arg14) = a14 m c :=
  (W2_of_ne m ρ c main_arg14 (by decide)).trans (W1_arg14 m ρ c)
theorem W2_arg15 : W2 m ρ c (Proc.devRef .tc main_arg15) = a15 m c :=
  (W2_of_ne m ρ c main_arg15 (by decide)).trans (W1_arg15 m ρ c)
theorem W2_arg16 : W2 m ρ c (Proc.devRef .tc main_arg16) = a16 m c :=
  (W2_of_ne m ρ c main_arg16 (by decide)).trans (W1_arg16 m ρ c)
theorem W2_arg17 : W2 m ρ c (Proc.devRef .tc main_arg17) = a17 m c :=
  (W2_of_ne m ρ c main_arg17 (by decide)).trans (W1_arg17 m ρ c)
theorem W2_arg21 : W2 m ρ c (Proc.devRef .tc main_arg21) = a21 m c :=
  (W2_of_ne m ρ c main_arg21 (by decide)).trans (W1_arg21 m ρ c)
theorem W2_arg22 : W2 m ρ c (Proc.devRef .tc main_arg22) = a22 m c :=
  (W2_of_ne m ρ c main_arg22 (by decide)).trans (W1_arg22 m ρ c)
theorem W2_arg23 : W2 m ρ c (Proc.devRef .tc main_arg23) = a23 m c :=
  (W2_of_ne m ρ c main_arg23 (by decide)).trans (W1_arg23 m ρ c)
theorem W2_arg24 : W2 m ρ c (Proc.devRef .tc main_arg24) = a24 m c :=
  (W2_of_ne m ρ c main_arg24 (by decide)).trans (W1_arg24 m ρ c)
theorem W2_arg25 : W2 m ρ c (Proc.devRef .tc main_arg25) = a25 m c :=
  (W2_of_ne m ρ c main_arg25 (by decide)).trans (W1_arg25 m ρ c)
theorem W2_arg5 : W2 m ρ c (Proc.devRef .tc main_arg5) = a5 m c :=
  (W2_of_ne m ρ c main_arg5 (by decide)).trans (W1_arg5 m ρ c)
theorem W2_arg6 : W2 m ρ c (Proc.devRef .tc main_arg6) = a6 m c :=
  (W2_of_ne m ρ c main_arg6 (by decide)).trans (W1_arg6 m ρ c)
theorem W2_arg26 : W2 m ρ c (Proc.devRef .tc main_arg26) = a26 m c :=
  (W2_of_ne m ρ c main_arg26 (by decide)).trans (W1_arg26 m ρ c)
theorem W2_arg27 : W2 m ρ c (Proc.devRef .tc main_arg27) = a27 m c :=
  (W2_of_ne m ρ c main_arg27 (by decide)).trans (W1_arg27 m ρ c)
theorem W2_arg28 : W2 m ρ c (Proc.devRef .tc main_arg28) = a28 m c :=
  (W2_of_ne m ρ c main_arg28 (by decide)).trans (W1_arg28 m ρ c)
theorem W2_arg29 : W2 m ρ c (Proc.devRef .tc main_arg29) = a29 m c :=
  (W2_of_ne m ρ c main_arg29 (by decide)).trans (W1_arg29 m ρ c)

theorem W3_arg1 : W3 m ρ c (Proc.devRef .tc main_arg1) = a1 m c := by
  show StableHlo.after hostOps1 (W2 m ρ c) (Proc.devRef .tc main_arg1) = _
  after_results_simp <;> exact W2_arg1 m ρ c
theorem W3_arg10 : W3 m ρ c (Proc.devRef .tc main_arg10) = a10 m c := by
  show StableHlo.after hostOps1 (W2 m ρ c) (Proc.devRef .tc main_arg10) = _
  after_results_simp <;> exact W2_arg10 m ρ c
theorem W3_arg11 : W3 m ρ c (Proc.devRef .tc main_arg11) = a11 m c := by
  show StableHlo.after hostOps1 (W2 m ρ c) (Proc.devRef .tc main_arg11) = _
  after_results_simp <;> exact W2_arg11 m ρ c
theorem W3_arg13 : W3 m ρ c (Proc.devRef .tc main_arg13) = a13 m c := by
  show StableHlo.after hostOps1 (W2 m ρ c) (Proc.devRef .tc main_arg13) = _
  after_results_simp <;> exact W2_arg13 m ρ c
theorem W3_arg14 : W3 m ρ c (Proc.devRef .tc main_arg14) = a14 m c := by
  show StableHlo.after hostOps1 (W2 m ρ c) (Proc.devRef .tc main_arg14) = _
  after_results_simp <;> exact W2_arg14 m ρ c
theorem W3_arg16 : W3 m ρ c (Proc.devRef .tc main_arg16) = a16 m c := by
  show StableHlo.after hostOps1 (W2 m ρ c) (Proc.devRef .tc main_arg16) = _
  after_results_simp <;> exact W2_arg16 m ρ c

/-- The mean of the first hidden layer over the bipartite edges is the reference's. -/
theorem W3_v46 : W3 m ρ c (Proc.devRef .tc main_v46) = val_main_v48 (F := Ideal) (a0 m c) (a2 m c) (a3 m c) (a4 m c) (a7 m c) (a8 m c) (a9 m c) := by
  show StableHlo.after hostOps1 (W2 m ρ c) (Proc.devRef .tc main_v46) = _
  after_results_simp
  rw [W2_v27_0, W2_arg3, W2_arg4]
  simp only [val_main_v48, val_main_v39, val_main_v37, val_main_cst_6, val_main_v38, val_main_v36, val_main_v35, val_main_v34, val_main_v31, val_main_v30, val_main_c_4, val_main_v33, val_main_v32, val_main_c_5, val_main_v47, val_main_v46, val_main_v45, val_main_v43, val_main_v41, val_main_cst_8, val_main_v42, val_main_v40, val_main_cst_7, val_main_v44, val_main_cst_9]
  rfl

theorem W3_v47 : W3 m ρ c (Proc.devRef .tc main_v47) = shapeCast S1x128 (a12 m c) shapeCasts_S128_S1x128 := by
  show StableHlo.after hostOps1 (W2 m ρ c) (Proc.devRef .tc main_v47) = _
  after_results_simp <;> (rw [W2_arg12]; rfl)
theorem W3_v48 : W3 m ρ c (Proc.devRef .tc main_v48) = shapeCast S1x128 (a15 m c) shapeCasts_S128_S1x128 := by
  show StableHlo.after hostOps1 (W2 m ρ c) (Proc.devRef .tc main_v48) = _
  after_results_simp <;> (rw [W2_arg15]; rfl)
theorem W3_v49 : W3 m ρ c (Proc.devRef .tc main_v49) = shapeCast S1x64 (a17 m c) shapeCasts_S64_S1x64 := by
  show StableHlo.after hostOps1 (W2 m ρ c) (Proc.devRef .tc main_v49) = _
  after_results_simp <;> (rw [W2_arg17]; rfl)

/-- The reference takes the mean of the first hidden layer twice, from the same values. -/
theorem v74_eq_v48 (x0 : (⟨Cert.ReferenceIdeal.S30000x128, .f32⟩ : BufTy).Contents (Elt Ideal)) (x2 : (⟨Cert.ReferenceIdeal.S2x500000, .i32⟩ : BufTy).Contents (Elt Ideal))
    (x3 x4 : (⟨Cert.ReferenceIdeal.S300000, .i32⟩ : BufTy).Contents (Elt Ideal)) (x7 x8 : (⟨Cert.ReferenceIdeal.S128x128, .f32⟩ : BufTy).Contents (Elt Ideal))
    (x9 : (⟨Cert.ReferenceIdeal.S128, .f32⟩ : BufTy).Contents (Elt Ideal)) :
    val_main_v74 (F := Ideal) x0 x2 x3 x4 x7 x8 x9 = val_main_v48 (F := Ideal) x0 x2 x3 x4 x7 x8 x9 := rfl

/-- The second kernel's output is the reference's first embedding. -/
theorem W4_v50 : W4 m ρ c (Proc.devRef .tc main_v50)
    = val_main_v85 (F := Ideal) (a0 m c) (a1 m c) (a2 m c) (a3 m c) (a4 m c) (a7 m c) (a8 m c) (a9 m c) (a10 m c) (a11 m c) (a12 m c) (a13 m c) (a14 m c) (a15 m c) (a16 m c) (a17 m c) := by
  refine (W4_arr m ρ c 10).trans ?_
  rw [Cert.KernelIdeal.RegionValue1.final1_10 (V3 m ρ) c]
  show Cert.Spec.affine (Cert.Spec.sage (W3 m ρ c (Proc.devRef .tc main_v46))
      (Cert.Spec.sage (W3 m ρ c (Proc.devRef .tc main_v46)) (W3 m ρ c (Proc.devRef .tc main_arg1)) (W3 m ρ c (Proc.devRef .tc main_arg10))
        (W3 m ρ c (Proc.devRef .tc main_arg11)) (W3 m ρ c (Proc.devRef .tc main_v47)))
      (W3 m ρ c (Proc.devRef .tc main_arg13)) (W3 m ρ c (Proc.devRef .tc main_arg14)) (W3 m ρ c (Proc.devRef .tc main_v48)))
    (W3 m ρ c (Proc.devRef .tc main_arg16)) (W3 m ρ c (Proc.devRef .tc main_v49)) = _
  rw [W3_v46, W3_arg1, W3_arg10, W3_arg11, W3_v47, W3_arg13, W3_arg14, W3_v48, W3_arg16, W3_v49]
  simp only [val_main_v85, val_main_v82, val_main_v81, val_main_v80, val_main_v77, val_main_v75, val_main_v76, val_main_v55, val_main_v54, val_main_v51, val_main_v49, val_main_v50, val_main_v53, val_main_v52, val_main_call1_v0, val_main_call1_cst, val_main_v79, val_main_v78, val_main_call2_v0, val_main_call2_cst, val_main_v84, val_main_v83]
  rw [v74_eq_v48, Cert.DenseLaws.affine_row _ _ _ _ Cert.ReferenceIdeal.Facts₀.bcast_S64_S1x64_1 Cert.ReferenceIdeal.Facts₀.bcast_S1x64_S10000x64_0_1,
    Cert.SageLaws.sage_host _ _ _ _ (a15 m c) _ Cert.ReferenceIdeal.Facts₀.bcast_S128_S1x128_1 Cert.ReferenceIdeal.Facts₀.bcast_S1x128_S10000x128_0_1 Cert.ReferenceIdeal.Facts₀.bcast_S_S10000x128,
    Cert.SageLaws.sage_host _ _ _ _ (a12 m c) _ Cert.ReferenceIdeal.Facts₀.bcast_S128_S1x128_1 Cert.ReferenceIdeal.Facts₀.bcast_S1x128_S10000x128_0_1 Cert.ReferenceIdeal.Facts₀.bcast_S_S10000x128]
  rfl

end Cert.KernelIdeal.Chain

end
-- ==== Proof.Region2.lean ====
/-
  Region 2: the neighbour-aggregation layer followed by the output projection, tile by tile.

  The kernel's grid has ten points; point `t` stages rows `3000 t … 3000 t + 2999` of the two row-indexed operands,
  the whole of the two square weight arrays, the bias row, the projection weights and the projection's bias row, and
  writes back rows `3000 t … 3000 t + 2999` of the result. Entry `(r, q)` of the block a point writes is
  `Σ_k max ((Σ_j a (r, j) · wl (j, k) + Σ_j x (r, j) · wr (j, k)) + b (0, k)) 0 · w (k, q) + b' (0, q)` of the staged
  blocks: on the extended reals a change of float format is the identity, a matrix-unit product into the zero
  accumulator is the plain sum over the contracted axis, a bias row is spread over the rows, and the positive part is
  the maximum with zero. That entry reads row `r` of the two row-indexed blocks only, and block row `r` of point `t`
  is array row `3000 t + r`; the ten blocks tile the thirty thousand rows, so the result array is the specification
  everywhere.
-/
import proofs.«113350_j88553635709430_2_alg».proof.Proof.Gen.KernelIdeal.Frame
import proofs.«113350_j88553635709430_2_alg».proof.Proof.LibSageLayer
import proofs.«113350_j88553635709430_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue2

open Cert.KernelIdeal Cert.KernelIdeal.Gen Idealize.ShloMosaic Idealize.ShloMosaic.TcCoe Idealize.ShloMosaic.ValueIdx
open Idealize.ShloMosaic.Pipeline (Dat)

/-! ## The body's arithmetic at an entry -/

/-- The two printed contraction records are the plain `[M, K] × [K, N]` product's. -/
theorem dims_hidden : dot_S3000x128_S128x128_S3000x128_1_0_0_1_n_n = DotDims.plain 3000 128 128 := rfl
theorem dims_out : dot_S3000x128_S128x64_S3000x64_1_0_0_1_n_n = DotDims.plain 3000 128 64 := rfl

/-- Entry `(r, k)` of the hidden activations a point computes from its blocks: the layer's entry. -/
theorem hidden_apply (x0 x1 : Vec Ideal S3000x128 .f32) (x2 x3 : Vec Ideal S128x128 .f32) (x4 : Vec Ideal S1x128 .f32)
    (r : Fin 3000) (k : Fin 128) :
    maximumf
        (addf
          (addf
            (matmul (F := Ideal) (DotDims.plain 3000 128 128) none
              (truncf .bf16 (shapeCast S3000x128 x0 shapeCasts_S3000x128_S3000x128) bitsLt_bf16_f32)
              (truncf .bf16 x2 bitsLt_bf16_f32) (constant (F := Ideal) S3000x128 .f32 0x00000000#32))
            (matmul (F := Ideal) (DotDims.plain 3000 128 128) none
              (truncf .bf16 (shapeCast S3000x128 x1 shapeCasts_S3000x128_S3000x128) bitsLt_bf16_f32)
              (truncf .bf16 x3 bitsLt_bf16_f32) (constant (F := Ideal) S3000x128 .f32 0x00000000#32)))
          (broadcastTo S3000x128 (shapeCast S1x128 x4 shapeCasts_S1x128_S1x128) broadcasts_S1x128_S3000x128))
        (broadcast S3000x128 (Scalar.ofBits (F := Ideal) .f32 0x00000000#32)) (ix2 r k)
      = Cert.Spec.sage x0 x1 x2 x3 x4 (ix2 r k) := by
  rw [Cert.Spec.sage_apply, maximumf_apply, addf_apply, addf_apply, broadcast_apply, shapeCast_self, shapeCast_self, shapeCast_self]
  refine congrArg₂ max (congrArg₂ (· + ·) (congrArg₂ (· + ·) ?_ ?_) ?_) ?_
  · exact PlainDot.matmul_zero_apply none _ _ r k
  · exact PlainDot.matmul_zero_apply none _ _ r k
  · exact broadcastTo_1b_ab_apply x4 _ r k
  · exact Ideal.ofBits_zero_f32

/-- Entry `(r, q)` of the block a point stores, from the blocks it loaded: the hidden activations' row `r` against
    column `q` of the projection weights, plus the projection's bias at `q`. -/
theorem payload_apply (x0 x1 : Vec Ideal S3000x128 .f32) (x2 x3 : Vec Ideal S128x128 .f32) (x4 : Vec Ideal S1x128 .f32)
    (x5 : Vec Ideal S128x64 .f32) (x6 : Vec Ideal S1x64 .f32) (r : Fin 3000) (q : Fin 64) :
    k2_pay1 (F := Ideal) x0 x1 x2 x3 x4 x5 x6 (ix2 r q)
      = Cert.Spec.affine (Cert.Spec.sage x0 x1 x2 x3 x4) x5 x6 (ix2 r q) := by
  rw [Cert.Spec.affine_apply]
  unfold k2_pay1
  refine (addf_apply _ _ (ix2 r q)).trans (congrArg₂ (· + ·) ?_ ?_)
  · refine (PlainDot.matmul_zero_apply none _ _ r q).trans (Finset.sum_congr rfl fun k _ => congrArg₂ (· * ·) ?_ rfl)
    exact hidden_apply x0 x1 x2 x3 x4 r k
  · refine (broadcastTo_1b_ab_apply _ _ r q).trans ?_
    rw [shapeCast_self]

/-- An entry of the block a point writes against the arrays: when row `r` of the two row-indexed blocks is row `p` of
    their arrays and the other five blocks are their whole arrays, entry `(r, q)` of the block is entry `(p, q)` of the
    specification — which reads row `p` of the row-indexed arrays only. -/
theorem block_entry (A X : S30000x128.Idx → EReal) (wl wr : S128x128.Idx → EReal) (b : S1x128.Idx → EReal)
    (w : S128x64.Idx → EReal) (b' : S1x64.Idx → EReal)
    (x0 x1 : Vec Ideal S3000x128 .f32) (x2 x3 : Vec Ideal S128x128 .f32) (x4 : Vec Ideal S1x128 .f32)
    (x5 : Vec Ideal S128x64 .f32) (x6 : Vec Ideal S1x64 .f32)
    (h2 : x2 = wl) (h3 : x3 = wr) (h4 : x4 = b) (h5 : x5 = w) (h6 : x6 = b')
    (p : Fin 30000) (r : Fin 3000) (q : Fin 64)
    (h0 : ∀ k : Fin 128, A (ix2 p k) = x0 (ix2 r k)) (h1 : ∀ k : Fin 128, X (ix2 p k) = x1 (ix2 r k)) :
    k2_pay1 (F := Ideal) x0 x1 x2 x3 x4 x5 x6 (ix2 r q)
      = Cert.Spec.affine (Cert.Spec.sage A X wl wr b) w b' (ix2 p q) := by
  subst h2 h3 h4 h5 h6
  refine (payload_apply x0 x1 x2 x3 x4 x5 x6 r q).trans ?_
  exact (Cert.Spec.affineAt_congr (Cert.Spec.sage A X x2 x3 x4) (Cert.Spec.sage x0 x1 x2 x3 x4) x5 x6 p r q fun k =>
    Cert.Spec.sageAt_congr A X x0 x1 x2 x3 x4 p r k h0 h1).symm

/-! ## The blocks a point stages, against the arrays -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the two row-indexed windows and the result's window sit at block
    row `t`, block column 0; the other five windows at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- There are ten points. -/
theorem point_lt (t : Fin cfg2.N) : t.val < 10 := lt_of_lt_of_eq t.isLt N_2

/-- Row `r` of the first row-indexed block at point `t` is row `3000 t + r` of its array. -/
theorem rows_a (c : Dev nD) (t : Fin cfg2.N) (p : Fin 30000) (r : Fin 3000) (hp : p.val = 3000 * t.val + r.val) (k : Fin 128) :
    (V c main_v63 : S30000x128.Idx → EReal) (ix2 p k) = (iblk2 V c 0 t : Vec Ideal S3000x128 .f32) (ix2 r k) := by
  obtain ⟨e0, e1, -⟩ := idx_facts t
  unfold iblk2
  rw [View.read_apply]
  show V c main_v63 _ = V c main_v63 _
  refine congrArg (V c main_v63) (funext fun a => Fin.ext ?_)
  match a with
  | ⟨0, _⟩ => show p.val = win2_0.index t (0 : Fin 2) * 3000 + 1 * r.val; omega
  | ⟨1, _⟩ => show k.val = win2_0.index t (1 : Fin 2) * 128 + 1 * k.val; omega

/-- The same of the second row-indexed block. -/
theorem rows_x (c : Dev nD) (t : Fin cfg2.N) (p : Fin 30000) (r : Fin 3000) (hp : p.val = 3000 * t.val + r.val) (k : Fin 128) :
    (V c main_v27_1 : S30000x128.Idx → EReal) (ix2 p k) = (iblk2 V c 1 t : Vec Ideal S3000x128 .f32) (ix2 r k) := by
  obtain ⟨-, -, e0, e1, -⟩ := idx_facts t
  unfold iblk2
  rw [View.read_apply]
  show V c main_v27_1 _ = V c main_v27_1 _
  refine congrArg (V c main_v27_1) (funext fun a => Fin.ext ?_)
  match a with
  | ⟨0, _⟩ => show p.val = win2_1.index t (0 : Fin 2) * 3000 + 1 * r.val; omega
  | ⟨1, _⟩ => show k.val = win2_1.index t (1 : Fin 2) * 128 + 1 * k.val; omega

/-- The left weights' block at any point is the whole array. -/
theorem whole_wl (c : Dev nD) (t : Fin cfg2.N) :
    (iblk2 V c 2 t : Vec Ideal S128x128 .f32) = (V c main_arg21 : S128x128.Idx → EReal) := by
  obtain ⟨-, -, -, -, e0, e1, -⟩ := idx_facts t
  funext y
  unfold iblk2
  rw [View.read_apply]
  show V c main_arg21 _ = V c main_arg21 _
  refine congrArg (V c main_arg21) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The right weights' block at any point is the whole array. -/
theorem whole_wr (c : Dev nD) (t : Fin cfg2.N) :
    (iblk2 V c 3 t : Vec Ideal S128x128 .f32) = (V c main_arg22 : S128x128.Idx → EReal) := by
  obtain ⟨-, -, -, -, -, -, e0, e1, -⟩ := idx_facts t
  funext y
  unfold iblk2
  rw [View.read_apply]
  show V c main_arg22 _ = V c main_arg22 _
  refine congrArg (V c main_arg22) (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The bias row's block at any point is the whole row. -/
theorem whole_b (c : Dev nD) (t : Fin cfg2.N) :
    (iblk2 V c 4 t : Vec Ideal S1x128 .f32) = (V c main_v64 : S1x128.Idx → EReal) := by
  obtain ⟨-, -, -, -, -, -, -, -, e0, e1, -⟩ := idx_facts t
  funext y
  unfold iblk2
  rw [View.read_apply]
  show V c main_v64 _ = V c main_v64 _
  refine congrArg (V c main_v64) (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The projection weights' block at any point is the whole array. -/
theorem whole_w (c : Dev nD) (t : Fin cfg2.N) :
    (iblk2 V c 5 t : Vec Ideal S128x64 .f32) = (V c main_arg24 : S128x64.Idx → EReal) := by
  obtain ⟨-, -, -, -, -, -, -, -, -, -, e0, e1, -⟩ := idx_facts t
  funext y
  unfold iblk2
  rw [View.read_apply]
  show V c main_arg24 _ = V c main_arg24 _
  refine congrArg (V c main_arg24) (funext fun a => Fin.ext ?_)
  match a with
  | ⟨0, _⟩ => show win2_5.index t (0 : Fin 2) * 128 + 1 * (y 0).val = (y 0).val; omega
  | ⟨1, _⟩ => show win2_5.index t (1 : Fin 2) * 64 + 1 * (y 1).val = (y 1).val; omega

/-- The projection's bias row's block at any point is the whole row. -/
theorem whole_b' (c : Dev nD) (t : Fin cfg2.N) :
    (iblk2 V c 6 t : Vec Ideal S1x64 .f32) = (V c main_v65 : S1x64.Idx → EReal) := by
  obtain ⟨-, -, -, -, -, -, -, -, -, -, -, -, e0, e1, -⟩ := idx_facts t
  funext y
  unfold iblk2
  rw [View.read_apply]
  show V c main_v65 _ = V c main_v65 _
  refine congrArg (V c main_v65) (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

/-! ## From the blocks to the array -/

/-- Entry `(r, q)` of the result's block at point `t` sits in the array at `(3000 t + r, q)`. -/
theorem out_emb (t : Fin cfg2.N) (p : Fin 30000) (r : Fin 3000) (hp : p.val = 3000 * t.val + r.val) (q : Fin 64) :
    (((cfg2.win 7).blk t).view.emb (ix2 r q) : S30000x64.Idx) = ix2 p q := by
  obtain ⟨-, -, -, -, -, -, -, -, -, -, -, -, -, -, e0, e1⟩ := idx_facts t
  refine funext fun a => Fin.ext ?_
  match a with
  | ⟨0, _⟩ => show win2_7.index t (0 : Fin 2) * 3000 + 1 * r.val = p.val; omega
  | ⟨1, _⟩ => show win2_7.index t (1 : Fin 2) * 64 + 1 * q.val = q.val; omega

/-- What point `t` writes back is block `t` of the specification of the arrays as the region finds them. -/
theorem flushed_eq (c : Dev nD) (t : Fin cfg2.N) :
    (dat2 (F := Ideal) V c).flushed 7 t
      = ((cfg2.win 7).blk t).view.read (Elt Ideal)
          (Cert.Spec.affine (Cert.Spec.sage (V c main_v63) (V c main_v27_1) (V c main_arg21) (V c main_arg22) (V c main_v64))
            (V c main_arg24) (V c main_v65)) := by
  show (cfg2.win 7).cut (grid2.coords t) ((dat2 V c).after 7 t) = _
  rw [after2_7]
  unfold out2_7
  rw [View.canon_unit_zero hz]
  simp only [View.ld_unit_zero (S := S3000x128) hz, View.ld_unit_zero (S := S128x128) hz, View.ld_unit_zero (S := S1x128) hz,
    View.ld_unit_zero (S := S128x64) hz, View.ld_unit_zero (S := S1x64) hz]
  funext j
  obtain ⟨r, q, rfl⟩ : ∃ (r : Fin 3000) (q : Fin 64), (j : S3000x64.Idx) = ix2 r q := ⟨j 0, j 1, eq_ix2 j⟩
  have ht := point_lt t
  rw [View.read_apply, out_emb t ⟨3000 * t.val + r.val, by omega⟩ r rfl q]
  exact block_entry (V c main_v63) (V c main_v27_1) (V c main_arg21) (V c main_arg22) (V c main_v64) (V c main_arg24) (V c main_v65)
    (iblk2 V c 0 t) (iblk2 V c 1 t) (iblk2 V c 2 t) (iblk2 V c 3 t) (iblk2 V c 4 t) (iblk2 V c 5 t) (iblk2 V c 6 t)
    (whole_wl V c t) (whole_wr V c t) (whole_b V c t) (whole_w V c t) (whole_b' V c t)
    ⟨3000 * t.val + r.val, by omega⟩ r q
    (fun k => rows_a V c t _ r rfl k) (fun k => rows_x V c t _ r rfl k)

/-- An index of the result array is in point `t`'s block iff each coordinate is in the block's range on its axis. -/
theorem mem_blk (t : Fin cfg2.N) (i : S30000x64.Idx) :
    i ∈ ((cfg2.win 7).blk t).view.set
      ↔ ∀ a : Fin 2, win2_7.index t a * S3000x64.size a ≤ (i a).val ∧ (i a).val < win2_7.index t a * S3000x64.size a + S3000x64.size a := by
  show i ∈ ((View.whole main_v66).slice (win2_7.rect t)).set ↔ _
  rw [View.set_slice_whole, Rect.mem_set_unit]
  exact Iff.rfl

/-- The ten blocks of three thousand rows tile the thirty thousand: row `p` is in the block of point `p / 3000`. -/
theorem covered (i : S30000x64.Idx) :
    ∃ t : Fin cfg2.N, (cfg2.win 7).flush t = true ∧ i ∈ ((cfg2.win 7).blk t).view.set := by
  have hi0 : (i 0).val < 30000 := (i 0).isLt
  have hi1 : (i 1).val < 64 := (i 1).isLt
  have hN : cfg2.N = 10 := N_2
  obtain ⟨t, ht⟩ : ∃ t : Fin cfg2.N, t.val = (i 0).val / 3000 := ⟨⟨(i 0).val / 3000, by rw [hN]; omega⟩, rfl⟩
  obtain ⟨-, -, -, -, -, -, -, -, -, -, -, -, -, -, e0, e1⟩ := idx_facts t
  refine ⟨t, flush2_7 t, ?_⟩
  rw [mem_blk]
  intro a
  match a with
  | ⟨0, _⟩ =>
    show win2_7.index t (0 : Fin 2) * 3000 ≤ (i 0).val ∧ (i 0).val < win2_7.index t (0 : Fin 2) * 3000 + 3000
    omega
  | ⟨1, _⟩ =>
    show win2_7.index t (1 : Fin 2) * 64 ≤ (i 1).val ∧ (i 1).val < win2_7.index t (1 : Fin 2) * 64 + 64
    omega

/-- The result array after the region's run is the specification of the arrays as the region finds them. -/
theorem final2_7 (c : Dev nD) : (dat2 (F := Ideal) V c).arrAt 7 cfg2.N
    = Cert.Spec.affine (Cert.Spec.sage (V c main_v63) (V c main_v27_1) (V c main_arg21) (V c main_arg22) (V c main_v64)) (V c main_arg24) (V c main_v65) :=
  (dat2 (F := Ideal) V c).arrAt_eq_of_cover 7 _ (fun t _ => flushed_eq V c t) covered

end Cert.KernelIdeal.RegionValue2

end
-- ==== Proof.Chain2.lean ====
/-
  The third host stretch and the third kernel of the idealized kernel program, read against the reference.

  The stretch gathers the second branch's first hidden layer along the node graph's edges, adds the rows up per destination,
  and scales by the spread reciprocal of the clipped counts computed once in the first stretch; the reference divides by
  the spread clipped counts, computed again from the same indices. Off zero the product with the reciprocal is the
  quotient, so the arrays are equal. The kernel's layer and projection are then the reference's, tile by tile.
-/
import proofs.«113350_j88553635709430_2_alg».proof.Proof.Gen.KernelIdeal.Frame
import proofs.«113350_j88553635709430_2_alg».proof.Proof.Gen.ReferenceIdeal.Read
import proofs.«113350_j88553635709430_2_alg».proof.Proof.LibMeanScale
import proofs.«113350_j88553635709430_2_alg».proof.Proof.LibSageLaws
import proofs.«113350_j88553635709430_2_alg».proof.Proof.Chain1
import proofs.«113350_j88553635709430_2_alg».proof.Proof.Region2
import proofs.«113350_j88553635709430_2_alg».proof.Proof.LibDenseLayerLaws
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The source indices, the destination indices and the reciprocal of the clipped counts, as the first stretch leaves them. -/
theorem W1_v1 : W1 m ρ c (Proc.devRef .tc main_v1) = val_main_v1 (F := Ideal) (a2 m c) := by
  show StableHlo.after hostOps0 (W0 m ρ c) (Proc.devRef .tc main_v1) = _
  after_results_simp <;> rfl
theorem W1_v3 : W1 m ρ c (Proc.devRef .tc main_v3) = val_main_v3 (F := Ideal) (a2 m c) := by
  show StableHlo.after hostOps0 (W0 m ρ c) (Proc.devRef .tc main_v3) = _
  after_results_simp <;> rfl
theorem W1_v11 : W1 m ρ c (Proc.devRef .tc main_v11)
    = Host.divf (broadcastInDim S30000 ![] bcast_S_S30000 (constant (F := Ideal) S_ .f32 0x3F800000#32)) (val_main_v19 (F := Ideal) (a2 m c)) := by
  show StableHlo.after hostOps0 (W0 m ρ c) (Proc.devRef .tc main_v11) = _
  after_results_simp <;> rfl

theorem W2_v1 : W2 m ρ c (Proc.devRef .tc main_v1) = val_main_v1 (F := Ideal) (a2 m c) :=
  (W2_of_ne m ρ c main_v1 (by decide)).trans (W1_v1 m ρ c)
theorem W3_v1 : W3 m ρ c (Proc.devRef .tc main_v1) = val_main_v1 (F := Ideal) (a2 m c) := by
  show StableHlo.after hostOps1 (W2 m ρ c) (Proc.devRef .tc main_v1) = _
  after_results_simp <;> exact W2_v1 m ρ c
theorem W4_v1 : W4 m ρ c (Proc.devRef .tc main_v1) = val_main_v1 (F := Ideal) (a2 m c) :=
  (W4_of_ne m ρ c main_v1 (by decide)).trans (W3_v1 m ρ c)
theorem W2_v3 : W2 m ρ c (Proc.devRef .tc main_v3) = val_main_v3 (F := Ideal) (a2 m c) :=
  (W2_of_ne m ρ c main_v3 (by decide)).trans (W1_v3 m ρ c)
theorem W3_v3 : W3 m ρ c (Proc.devRef .tc main_v3) = val_main_v3 (F := Ideal) (a2 m c) := by
  show StableHlo.after hostOps1 (W2 m ρ c) (Proc.devRef .tc main_v3) = _
  after_results_simp <;> exact W2_v3 m ρ c
theorem W4_v3 : W4 m ρ c (Proc.devRef .tc main_v3) = val_main_v3 (F := Ideal) (a2 m c) :=
  (W4_of_ne m ρ c main_v3 (by decide)).trans (W3_v3 m ρ c)
theorem W2_v11 : W2 m ρ c (Proc.devRef .tc main_v11) = Host.divf (broadcastInDim S30000 ![] bcast_S_S30000 (constant (F := Ideal) S_ .f32 0x3F800000#32)) (val_main_v19 (F := Ideal) (a2 m c)) :=
  (W2_of_ne m ρ c main_v11 (by decide)).trans (W1_v11 m ρ c)
theorem W3_v11 : W3 m ρ c (Proc.devRef .tc main_v11) = Host.divf (broadcastInDim S30000 ![] bcast_S_S30000 (constant (F := Ideal) S_ .f32 0x3F800000#32)) (val_main_v19 (F := Ideal) (a2 m c)) := by
  show StableHlo.after hostOps1 (W2 m ρ c) (Proc.devRef .tc main_v11) = _
  after_results_simp <;> exact W2_v11 m ρ c
theorem W4_v11 : W4 m ρ c (Proc.devRef .tc main_v11) = Host.divf (broadcastInDim S30000 ![] bcast_S_S30000 (constant (F := Ideal) S_ .f32 0x3F800000#32)) (val_main_v19 (F := Ideal) (a2 m c)) :=
  (W4_of_ne m ρ c main_v11 (by decide)).trans (W3_v11 m ρ c)
theorem W3_v27_1 : W3 m ρ c (Proc.devRef .tc main_v27_1) = val_main_v111 (F := Ideal) (a0 m c) (a2 m c) (a18 m c) (a19 m c) (a20 m c) := by
  show StableHlo.after hostOps1 (W2 m ρ c) (Proc.devRef .tc main_v27_1) = _
  after_results_simp <;> exact W2_v27_1 m ρ c
theorem W4_v27_1 : W4 m ρ c (Proc.devRef .tc main_v27_1) = val_main_v111 (F := Ideal) (a0 m c) (a2 m c) (a18 m c) (a19 m c) (a20 m c) :=
  (W4_of_ne m ρ c main_v27_1 (by decide)).trans (W3_v27_1 m ρ c)
theorem W5_v27_1 : W5 m ρ c (Proc.devRef .tc main_v27_1) = val_main_v111 (F := Ideal) (a0 m c) (a2 m c) (a18 m c) (a19 m c) (a20 m c) := by
  show StableHlo.after hostOps2 (W4 m ρ c) (Proc.devRef .tc main_v27_1) = _
  after_results_simp <;> exact W4_v27_1 m ρ c

theorem W3_arg21 : W3 m ρ c (Proc.devRef .tc main_arg21) = a21 m c := by
  show StableHlo.after hostOps1 (W2 m ρ c) (Proc.devRef .tc main_arg21) = _
  after_results_simp <;> exact W2_arg21 m ρ c
theorem W3_arg22 : W3 m ρ c (Proc.devRef .tc main_arg22) = a22 m c := by
  show StableHlo.after hostOps1 (W2 m ρ c) (Proc.devRef .tc main_arg22) = _
  after_results_simp <;> exact W2_arg22 m ρ c
theorem W3_arg23 : W3 m ρ c (Proc.devRef .tc main_arg23) = a23 m c := by
  show StableHlo.after hostOps1 (W2 m ρ c) (Proc.devRef .tc main_arg23) = _
  after_results_simp <;> exact W2_arg23 m ρ c
theorem W3_arg24 : W3 m ρ c (Proc.devRef .tc main_arg24) = a24 m c := by
  show StableHlo.after hostOps1 (W2 m ρ c) (Proc.devRef .tc main_arg24) = _
  after_results_simp <;> exact W2_arg24 m ρ c
theorem W3_arg25 : W3 m ρ c (Proc.devRef .tc main_arg25) = a25 m c := by
  show StableHlo.after hostOps1 (W2 m ρ c) (Proc.devRef .tc main_arg25) = _
  after_results_simp <;> exact W2_arg25 m ρ c
theorem W3_arg5 : W3 m ρ c (Proc.devRef .tc main_arg5) = a5 m c := by
  show StableHlo.after hostOps1 (W2 m ρ c) (Proc.devRef .tc main_arg5) = _
  after_results_simp <;> exact W2_arg5 m ρ c
theorem W3_arg6 : W3 m ρ c (Proc.devRef .tc main_arg6) = a6 m c := by
  show StableHlo.after hostOps1 (W2 m ρ c) (Proc.devRef .tc main_arg6) = _
  after_results_simp <;> exact W2_arg6 m ρ c
theorem W3_arg26 : W3 m ρ c (Proc.devRef .tc main_arg26) = a26 m c := by
  show StableHlo.after hostOps1 (W2 m ρ c) (Proc.devRef .tc main_arg26) = _
  after_results_simp <;> exact W2_arg26 m ρ c
theorem W3_arg27 : W3 m ρ c (Proc.devRef .tc main_arg27) = a27 m c := by
  show StableHlo.after hostOps1 (W2 m ρ c) (Proc.devRef .tc main_arg27) = _
  after_results_simp <;> exact W2_arg27 m ρ c
theorem W3_arg28 : W3 m ρ c (Proc.devRef .tc main_arg28) = a28 m c := by
  show StableHlo.after hostOps1 (W2 m ρ c) (Proc.devRef .tc main_arg28) = _
  after_results_simp <;> exact W2_arg28 m ρ c
theorem W3_arg29 : W3 m ρ c (Proc.devRef .tc main_arg29) = a29 m c := by
  show StableHlo.after hostOps1 (W2 m ρ c) (Proc.devRef .tc main_arg29) = _
  after_results_simp <;> exact W2_arg29 m ρ c
theorem W4_arg21 : W4 m ρ c (Proc.devRef .tc main_arg21) = a21 m c :=
  (W4_of_ne m ρ c main_arg21 (by decide)).trans (W3_arg21 m ρ c)
theorem W4_arg22 : W4 m ρ c (Proc.devRef .tc main_arg22) = a22 m c :=
  (W4_of_ne m ρ c main_arg22 (by decide)).trans (W3_arg22 m ρ c)
theorem W4_arg23 : W4 m ρ c (Proc.devRef .tc main_arg23) = a23 m c :=
  (W4_of_ne m ρ c main_arg23 (by decide)).trans (W3_arg23 m ρ c)
theorem W4_arg24 : W4 m ρ c (Proc.devRef .tc main_arg24) = a24 m c :=
  (W4_of_ne m ρ c main_arg24 (by decide)).trans (W3_arg24 m ρ c)
theorem W4_arg25 : W4 m ρ c (Proc.devRef .tc main_arg25) = a25 m c :=
  (W4_of_ne m ρ c main_arg25 (by decide)).trans (W3_arg25 m ρ c)
theorem W4_arg5 : W4 m ρ c (Proc.devRef .tc main_arg5) = a5 m c :=
  (W4_of_ne m ρ c main_arg5 (by decide)).trans (W3_arg5 m ρ c)
theorem W4_arg6 : W4 m ρ c (Proc.devRef .tc main_arg6) = a6 m c :=
  (W4_of_ne m ρ c main_arg6 (by decide)).trans (W3_arg6 m ρ c)
theorem W4_arg26 : W4 m ρ c (Proc.devRef .tc main_arg26) = a26 m c :=
  (W4_of_ne m ρ c main_arg26 (by decide)).trans (W3_arg26 m ρ c)
theorem W4_arg27 : W4 m ρ c (Proc.devRef .tc main_arg27) = a27 m c :=
  (W4_of_ne m ρ c main_arg27 (by decide)).trans (W3_arg27 m ρ c)
theorem W4_arg28 : W4 m ρ c (Proc.devRef .tc main_arg28) = a28 m c :=
  (W4_of_ne m ρ c main_arg28 (by decide)).trans (W3_arg28 m ρ c)
theorem W4_arg29 : W4 m ρ c (Proc.devRef .tc main_arg29) = a29 m c :=
  (W4_of_ne m ρ c main_arg29 (by decide)).trans (W3_arg29 m ρ c)
theorem W5_arg21 : W5 m ρ c (Proc.devRef .tc main_arg21) = a21 m c := by
  show StableHlo.after hostOps2 (W4 m ρ c) (Proc.devRef .tc main_arg21) = _
  after_results_simp <;> exact W4_arg21 m ρ c
theorem W5_arg22 : W5 m ρ c (Proc.devRef .tc main_arg22) = a22 m c := by
  show StableHlo.after hostOps2 (W4 m ρ c) (Proc.devRef .tc main_arg22) = _
  after_results_simp <;> exact W4_arg22 m ρ c
theorem W5_arg24 : W5 m ρ c (Proc.devRef .tc main_arg24) = a24 m c := by
  show StableHlo.after hostOps2 (W4 m ρ c) (Proc.devRef .tc main_arg24) = _
  after_results_simp <;> exact W4_arg24 m ρ c

/-- The mean of the second branch's hidden layer is the reference's. -/
theorem W5_v63 : W5 m ρ c (Proc.devRef .tc main_v63) = val_main_v130 (F := Ideal) (a0 m c) (a2 m c) (a18 m c) (a19 m c) (a20 m c) := by
  show StableHlo.after hostOps2 (W4 m ρ c) (Proc.devRef .tc main_v63) = _
  after_results_simp
  rw [W4_v27_1, W4_v1, W4_v3, W4_v11]
  simp only [val_main_v130, val_main_v121, val_main_v119, val_main_cst_24, val_main_v120, val_main_v3, val_main_v2, val_main_v118, val_main_v117, val_main_v116, val_main_v113, val_main_v1, val_main_v0, val_main_v112, val_main_c_22, val_main_v115, val_main_v114, val_main_c_23, val_main_v129, val_main_v128, val_main_v127, val_main_v125, val_main_v123, val_main_cst_26, val_main_v124, val_main_v122, val_main_cst_25, val_main_v126, val_main_cst_27, val_main_v19, val_main_v17, val_main_v15, val_main_cst_2, val_main_v16, val_main_v14, val_main_cst_1, val_main_v18, val_main_cst_3]
  exact Cert.MeanScale.scale_eq_divide _ _ _ _ _

theorem W5_v64 : W5 m ρ c (Proc.devRef .tc main_v64) = shapeCast S1x128 (a23 m c) shapeCasts_S128_S1x128 := by
  show StableHlo.after hostOps2 (W4 m ρ c) (Proc.devRef .tc main_v64) = _
  after_results_simp <;> (rw [W4_arg23]; rfl)
theorem W5_v65 : W5 m ρ c (Proc.devRef .tc main_v65) = shapeCast S1x64 (a25 m c) shapeCasts_S64_S1x64 := by
  show StableHlo.after hostOps2 (W4 m ρ c) (Proc.devRef .tc main_v65) = _
  after_results_simp <;> (rw [W4_arg25]; rfl)

/-- The third kernel's output is the reference's second embedding. -/
theorem W6_v66 : W6 m ρ c (Proc.devRef .tc main_v66)
    = val_main_v141 (F := Ideal) (a0 m c) (a2 m c) (a18 m c) (a19 m c) (a20 m c) (a21 m c) (a22 m c) (a23 m c) (a24 m c) (a25 m c) := by
  refine (W6_arr m ρ c 7).trans ?_
  rw [Cert.KernelIdeal.RegionValue2.final2_7 (V5 m ρ) c]
  show Cert.Spec.affine (Cert.Spec.sage (W5 m ρ c (Proc.devRef .tc main_v63)) (W5 m ρ c (Proc.devRef .tc main_v27_1))
      (W5 m ρ c (Proc.devRef .tc main_arg21)) (W5 m ρ c (Proc.devRef .tc main_arg22)) (W5 m ρ c (Proc.devRef .tc main_v64)))
    (W5 m ρ c (Proc.devRef .tc main_arg24)) (W5 m ρ c (Proc.devRef .tc main_v65)) = _
  rw [W5_v63, W5_v27_1, W5_arg21, W5_arg22, W5_v64, W5_arg24, W5_v65]
  simp only [val_main_v141, val_main_v138, val_main_v137, val_main_v136, val_main_v133, val_main_v131, val_main_v132, val_main_v135, val_main_v134, val_main_call4_v0, val_main_call4_cst, val_main_v140, val_main_v139]
  rw [Cert.DenseLaws.affine_row _ _ _ _ Cert.ReferenceIdeal.Facts₀.bcast_S64_S1x64_1 Cert.ReferenceIdeal.Facts₀.bcast_S1x64_S30000x64_0_1,
    Cert.SageLaws.sage_host _ _ _ _ (a23 m c) _ Cert.ReferenceIdeal.Facts₀.bcast_S128_S1x128_1 Cert.ReferenceIdeal.Facts₀.bcast_S1x128_S30000x128_0_1 Cert.ReferenceIdeal.Facts₀.bcast_S_S30000x128]
  rfl

end Cert.KernelIdeal.Chain

end
-- ==== Proof.Region3.lean ====
/-
  The decoder kernel's output array, as one function of the arrays the region finds.

  The kernel runs over a grid of 40 points; point `t` stages rows `5000 t … 5000 t + 4999` of two `[200000, 64]` arrays,
  the whole of two `[64, 64]` weights, a `[1, 64]` bias row, a `[64, 1]` weight column and a `[1, 1]` bias, and writes rows
  `5000 t … 5000 t + 4999` of the `[200000, 1]` output. On the extended reals a change of float format is the identity, a
  matrix product into the zero accumulator is the plain sum over the contracted axis, a bias row is repeated over the
  rows, and the maximum with the zero constant is the positive part. So entry `(r, q)` of what a point stores is

      logistic ( Σ_k max ((Σ_j a (r, j) · wl (j, k) + Σ_j x (r, j) · wr (j, k)) + b (0, k)) 0 · w (k, q) + c (0, q) )

  of the point's own blocks, and it reads row `r` of the two row blocks only. Row `r` of point `t`'s block is row
  `5000 t + r` of the array (a block's coordinate is always block index × block size + the coordinate inside the block),
  and the weight and bias blocks are their whole arrays; hence the stored block is block `t` of ONE whole-array function,
  the logistic function of the affine map of the hidden layer. The forty blocks tile the output (row `i` lies in the
  block of point `i / 5000`), so the output array ends holding that function everywhere.
-/
import proofs.«113350_j88553635709430_2_alg».proof.Proof.Gen.KernelIdeal.Frame
import proofs.«113350_j88553635709430_2_alg».proof.Proof.LibSageLayer
import proofs.«113350_j88553635709430_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue3

open Cert.KernelIdeal Cert.KernelIdeal.Gen Idealize.ShloMosaic Idealize.ShloMosaic.ValueIdx
open Idealize.ShloMosaic.TcCoe

/-! ## The body's arithmetic at one entry -/

/-- A product of a row block with a square weight into the zero accumulator, at `(r, q)`: the sum over the 64 columns. -/
theorem dotHidden_apply (l : FVec Ideal S5000x64 .bf16) (w : FVec Ideal S64x64 .bf16) (r : Fin 5000) (q : Fin 64) :
    matmul dot_S5000x64_S64x64_S5000x64_1_0_0_1_n_n none l w (constant (F := Ideal) S5000x64 .f32 0x00000000#32) (ix2 r q)
      = ∑ k : Fin 64, l (ix2 r k) * w (ix2 k q) :=
  PlainDot.matmul_zero_apply (M := 5000) (K := 64) (N := 64) none l w r q

/-- The product with the one output column into the zero accumulator, at `(r, q)`. -/
theorem dotOut_apply (l : FVec Ideal S5000x64 .bf16) (w : FVec Ideal S64x1 .bf16) (r : Fin 5000) (q : Fin 1) :
    matmul dot_S5000x64_S64x1_S5000x1_1_0_0_1_n_n none l w (constant (F := Ideal) S5000x1 .f32 0x00000000#32) (ix2 r q)
      = ∑ k : Fin 64, l (ix2 r k) * w (ix2 k q) :=
  PlainDot.matmul_zero_apply (M := 5000) (K := 64) (N := 1) none l w r q

/-- The hidden layer of the body at `(r, k)`: the positive part of the two products plus the bias row. -/
theorem hidden_apply (x0 x1 : Vec Ideal S5000x64 .f32) (wl wr : Vec Ideal S64x64 .f32) (b1 : Vec Ideal S1x64 .f32)
    (r : Fin 5000) (k : Fin 64) :
    maximumf (addf (addf
        (matmul dot_S5000x64_S64x64_S5000x64_1_0_0_1_n_n none (truncf .bf16 x0 bitsLt_bf16_f32) (truncf .bf16 wl bitsLt_bf16_f32) (constant (F := Ideal) S5000x64 .f32 0x00000000#32))
        (matmul dot_S5000x64_S64x64_S5000x64_1_0_0_1_n_n none (truncf .bf16 x1 bitsLt_bf16_f32) (truncf .bf16 wr bitsLt_bf16_f32) (constant (F := Ideal) S5000x64 .f32 0x00000000#32)))
        (broadcastTo S5000x64 b1 broadcasts_S1x64_S5000x64))
      (broadcast S5000x64 (Scalar.ofBits (F := Ideal) .f32 0x00000000#32)) (ix2 r k)
      = Cert.Spec.sage x0 x1 wl wr b1 (ix2 r k) := by
  show max ((matmul dot_S5000x64_S64x64_S5000x64_1_0_0_1_n_n none (truncf .bf16 x0 bitsLt_bf16_f32) (truncf .bf16 wl bitsLt_bf16_f32) (constant (F := Ideal) S5000x64 .f32 0x00000000#32) (ix2 r k)
      + matmul dot_S5000x64_S64x64_S5000x64_1_0_0_1_n_n none (truncf .bf16 x1 bitsLt_bf16_f32) (truncf .bf16 wr bitsLt_bf16_f32) (constant (F := Ideal) S5000x64 .f32 0x00000000#32) (ix2 r k))
      + broadcastTo S5000x64 b1 broadcasts_S1x64_S5000x64 (ix2 r k)) (Ideal.ofBits .f32 0x00000000#32) = _
  rw [dotHidden_apply, dotHidden_apply, broadcastTo_1b_ab_apply, Ideal.ofBits_zero_f32, Cert.Spec.sage_apply]
  rfl

/-- THE BODY AT ONE ENTRY: entry `(r, q)` of what a point stores is the logistic function of the affine map of the
    hidden layer, all of the point's own blocks. -/
theorem pay_apply (x0 x1 : Vec Ideal S5000x64 .f32) (wl wr : Vec Ideal S64x64 .f32) (b1 : Vec Ideal S1x64 .f32)
    (w2 : Vec Ideal S64x1 .f32) (b2 : Vec Ideal S1x1 .f32) (r : Fin 5000) (q : Fin 1) :
    k3_pay1 x0 x1 wl wr b1 w2 b2 (ix2 r q)
      = Ideal.logistic (Cert.Spec.affineAt (Cert.Spec.sage x0 x1 wl wr b1) w2 b2 r q) := by
  unfold k3_pay1
  simp only [shapeCast_self]
  show Ideal.logistic (matmul dot_S5000x64_S64x1_S5000x1_1_0_0_1_n_n none _ (truncf .bf16 w2 bitsLt_bf16_f32) (constant (F := Ideal) S5000x1 .f32 0x00000000#32) (ix2 r q)
      + broadcastTo S5000x1 b2 broadcasts_S1x1_S5000x1 (ix2 r q)) = _
  rw [dotOut_apply, broadcastTo_1b_ab_apply]
  unfold Cert.Spec.affineAt
  refine congrArg Ideal.logistic (congrArg (· + b2 (ix2 (0 : Fin 1) q)) (Finset.sum_congr rfl fun k _ => ?_))
  exact congrArg (· * w2 (ix2 k q)) (hidden_apply x0 x1 wl wr b1 r k)

/-- Entry `(r, q)` of a point's store, when the point's two row blocks are rows `p` of two whole arrays and its
    weight and bias blocks are the whole weight and bias arrays: the specification's entry `(p, q)`. Only row `r` of the
    row blocks is read. -/
theorem block_entry (a x : S200000x64.Idx → EReal) (wl wr : S64x64.Idx → EReal) (b1 : S1x64.Idx → EReal)
    (w2 : S64x1.Idx → EReal) (b2 : S1x1.Idx → EReal)
    (x0 x1 : Vec Ideal S5000x64 .f32) (wl' wr' : Vec Ideal S64x64 .f32) (b1' : Vec Ideal S1x64 .f32)
    (w2' : Vec Ideal S64x1 .f32) (b2' : Vec Ideal S1x1 .f32) (r : Fin 5000) (q : Fin 1) (p : Fin 200000)
    (h0 : ∀ k : Fin 64, x0 (ix2 r k) = a (ix2 p k)) (h1 : ∀ k : Fin 64, x1 (ix2 r k) = x (ix2 p k))
    (hwl : wl' = wl) (hwr : wr' = wr) (hb1 : b1' = b1) (hw2 : w2' = w2) (hb2 : b2' = b2) :
    k3_pay1 x0 x1 wl' wr' b1' w2' b2' (ix2 r q)
      = Ideal.logistic (Cert.Spec.affine (Cert.Spec.sage a x wl wr b1) w2 b2 (ix2 p q)) := by
  subst hwl hwr hb1 hw2 hb2
  rw [pay_apply]
  show Ideal.logistic (Cert.Spec.affineAt (Cert.Spec.sage x0 x1 wl' wr' b1') w2' b2' r q)
    = Ideal.logistic (Cert.Spec.affineAt (Cert.Spec.sage a x wl' wr' b1') w2' b2' p q)
  refine congrArg Ideal.logistic (Cert.Spec.affineAt_congr _ _ w2' b2' r p q fun k => ?_)
  exact Cert.Spec.sageAt_congr x0 x1 a x wl' wr' b1' r p k h0 h1

/-! ## From blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The output array after the region: the logistic function of the affine map of the hidden layer, of the whole arrays. -/
abbrev decoded (c : Dev nD) : S200000x1.Idx → EReal := fun i =>
  Ideal.logistic (Cert.Spec.affine (Cert.Spec.sage (V c main_v73) (V c main_v80) (V c main_v81) (V c main_v82) (V c main_v83)) (V c main_arg28) (V c main_v84) i)

/-- The index maps over the grid: the two row-blocked inputs and the output sit at block row `t`, column block 0; the
    weight and bias windows at block (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row `r` of the first row-blocked input's block at point `t` is row `5000 t + r` of its array. -/
theorem rowBlock0_apply (c : Dev nD) (t : Fin cfg3.N) (r : Fin 5000) (k : Fin 64) (p : Fin 200000) (hp : p.val = t.val * 5000 + r.val) :
    (iblk3 V c 0 t : Vec Ideal S5000x64 .f32) (ix2 r k) = (V c main_v73 : S200000x64.Idx → EReal) (ix2 p k) := by
  obtain ⟨e00, e01, -⟩ := index_facts t
  show V c main_v73 (((cfg3.win 0).blk t).view.emb (ix2 r k)) = V c main_v73 (ix2 p k)
  refine congrArg (V c main_v73) (funext fun a => Fin.ext ?_)
  match a with
  | ⟨0, _⟩ => show win3_0.index t (0 : Fin 2) * 5000 + 1 * r.val = p.val; omega
  | ⟨1, _⟩ => show win3_0.index t (1 : Fin 2) * 64 + 1 * k.val = k.val; omega

/-- The same of the second row-blocked input. -/
theorem rowBlock1_apply (c : Dev nD) (t : Fin cfg3.N) (r : Fin 5000) (k : Fin 64) (p : Fin 200000) (hp : p.val = t.val * 5000 + r.val) :
    (iblk3 V c 1 t : Vec Ideal S5000x64 .f32) (ix2 r k) = (V c main_v80 : S200000x64.Idx → EReal) (ix2 p k) := by
  obtain ⟨-, -, e10, e11, -⟩ := index_facts t
  show V c main_v80 (((cfg3.win 1).blk t).view.emb (ix2 r k)) = V c main_v80 (ix2 p k)
  refine congrArg (V c main_v80) (funext fun a => Fin.ext ?_)
  match a with
  | ⟨0, _⟩ => show win3_1.index t (0 : Fin 2) * 5000 + 1 * r.val = p.val; omega
  | ⟨1, _⟩ => show win3_1.index t (1 : Fin 2) * 64 + 1 * k.val = k.val; omega

/-- A weight or bias window's block is its whole array at every point. -/
theorem wholeBlock2 (c : Dev nD) (t : Fin cfg3.N) : (iblk3 V c 2 t : Vec Ideal S64x64 .f32) = (V c main_v81 : S64x64.Idx → EReal) := by
  obtain ⟨-, -, -, -, e0, e1, -⟩ := index_facts t
  funext y
  show V c main_v81 (((cfg3.win 2).blk t).view.emb y) = V c main_v81 y
  refine congrArg (V c main_v81) (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

theorem wholeBlock3 (c : Dev nD) (t : Fin cfg3.N) : (iblk3 V c 3 t : Vec Ideal S64x64 .f32) = (V c main_v82 : S64x64.Idx → EReal) := by
  obtain ⟨-, -, -, -, -, -, e0, e1, -⟩ := index_facts t
  funext y
  show V c main_v82 (((cfg3.win 3).blk t).view.emb y) = V c main_v82 y
  refine congrArg (V c main_v82) (funext fun a => Fin.ext ?_)
  match a with
  | ⟨0, _⟩ => show win3_3.index t (0 : Fin 2) * 64 + 1 * (y 0).val = (y 0).val; omega
  | ⟨1, _⟩ => show win3_3.index t (1 : Fin 2) * 64 + 1 * (y 1).val = (y 1).val; omega

theorem wholeBlock4 (c : Dev nD) (t : Fin cfg3.N) : (iblk3 V c 4 t : Vec Ideal S1x64 .f32) = (V c main_v83 : S1x64.Idx → EReal) := by
  obtain ⟨-, -, -, -, -, -, -, -, e0, e1, -⟩ := index_facts t
  funext y
  show V c main_v83 (((cfg3.win 4).blk t).view.emb y) = V c main_v83 y
  refine congrArg (V c main_v83) (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

theorem wholeBlock5 (c : Dev nD) (t : Fin cfg3.N) : (iblk3 V c 5 t : Vec Ideal S64x1 .f32) = (V c main_arg28 : S64x1.Idx → EReal) := by
  obtain ⟨-, -, -, -, -, -, -, -, -, -, e0, e1, -⟩ := index_facts t
  funext y
  show V c main_arg28 (((cfg3.win 5).blk t).view.emb y) = V c main_arg28 y
  refine congrArg (V c main_arg28) (funext fun a => Fin.ext ?_)
  match a with
  | ⟨0, _⟩ => show win3_5.index t (0 : Fin 2) * 64 + 1 * (y 0).val = (y 0).val; omega
  | ⟨1, _⟩ => show win3_5.index t (1 : Fin 2) * 1 + 1 * (y 1).val = (y 1).val; omega

theorem wholeBlock6 (c : Dev nD) (t : Fin cfg3.N) : (iblk3 V c 6 t : Vec Ideal S1x1 .f32) = (V c main_v84 : S1x1.Idx → EReal) := by
  obtain ⟨-, -, -, -, -, -, -, -, -, -, -, -, e0, e1, -⟩ := index_facts t
  funext y
  show V c main_v84 (((cfg3.win 6).blk t).view.emb y) = V c main_v84 y
  refine congrArg (V c main_v84) (funext fun a => Fin.ext ?_)
  match a with
  | ⟨0, _⟩ => show win3_6.index t (0 : Fin 2) * 1 + 1 * (y 0).val = (y 0).val; omega
  | ⟨1, _⟩ => show win3_6.index t (1 : Fin 2) * 1 + 1 * (y 1).val = (y 1).val; omega

/-- Entry `(r, q)` of the output's block at point `t` is entry `(5000 t + r, q)` of the output array. -/
theorem outBlock_emb (t : Fin cfg3.N) (r : Fin 5000) (q : Fin 1) (p : Fin 200000) (hp : p.val = t.val * 5000 + r.val) :
    ((cfg3.win 7).blk t).view.emb (ix2 r q) = (ix2 p q : S200000x1.Idx) := by
  obtain ⟨-, -, -, -, -, -, -, -, -, -, -, -, -, -, e0, e1⟩ := index_facts t
  funext a; apply Fin.ext
  match a with
  | ⟨0, _⟩ => show win3_7.index t (0 : Fin 2) * 5000 + 1 * r.val = p.val; omega
  | ⟨1, _⟩ => show win3_7.index t (1 : Fin 2) * 1 + 1 * q.val = q.val; omega

/-- WHAT POINT `t` WRITES BACK is block `t` of `decoded`. -/
theorem flushed_eq (c : Dev nD) (t : Fin cfg3.N) :
    (dat3 (F := Ideal) V c).flushed 7 t = ((cfg3.win 7).blk t).view.read (Elt Ideal) (decoded V c) := by
  show (cfg3.win 7).cut (grid3.coords t) ((dat3 (F := Ideal) V c).after 7 t) = _
  rw [after3_7]
  unfold out3_7
  rw [View.canon_unit_zero zeroOffsets]
  simp only [View.ld_unit_zero (S := S5000x64) zeroOffsets, View.ld_unit_zero (S := S64x64) zeroOffsets,
    View.ld_unit_zero (S := S1x64) zeroOffsets, View.ld_unit_zero (S := S64x1) zeroOffsets, View.ld_unit_zero (S := S1x1) zeroOffsets]
  funext j
  obtain ⟨r, q, rfl⟩ : ∃ (r : Fin 5000) (q : Fin 1), j = ix2 r q := ⟨j 0, j 1, eq_ix2 j⟩
  have hN : cfg3.N = 40 := N_3
  have ht : t.val < 40 := hN ▸ t.isLt
  have hr : r.val < 5000 := r.isLt
  obtain ⟨p, hp⟩ : ∃ p : Fin 200000, p.val = t.val * 5000 + r.val := ⟨⟨t.val * 5000 + r.val, by omega⟩, rfl⟩
  show k3_pay1 (iblk3 V c 0 t) (iblk3 V c 1 t) (iblk3 V c 2 t) (iblk3 V c 3 t) (iblk3 V c 4 t) (iblk3 V c 5 t) (iblk3 V c 6 t) (ix2 r q)
    = decoded V c (((cfg3.win 7).blk t).view.emb (ix2 r q))
  rw [outBlock_emb t r q p hp]
  exact block_entry (V c main_v73) (V c main_v80) (V c main_v81) (V c main_v82) (V c main_v83) (V c main_arg28) (V c main_v84)
    (iblk3 V c 0 t) (iblk3 V c 1 t) (iblk3 V c 2 t) (iblk3 V c 3 t) (iblk3 V c 4 t) (iblk3 V c 5 t) (iblk3 V c 6 t) r q p
    (fun k => rowBlock0_apply V c t r k p hp) (fun k => rowBlock1_apply V c t r k p hp)
    (wholeBlock2 V c t) (wholeBlock3 V c t) (wholeBlock4 V c t) (wholeBlock5 V c t) (wholeBlock6 V c t)

/-- An index of the output array is in point `t`'s block iff each coordinate is in the block's range on its axis. -/
theorem mem_outBlock (t : Fin cfg3.N) (i : S200000x1.Idx) :
    i ∈ ((cfg3.win 7).blk t).view.set ↔ ∀ a : Fin 2, win3_7.index t a * S5000x1.size a ≤ (i a).val ∧ (i a).val < win3_7.index t a * S5000x1.size a + S5000x1.size a := by
  show i ∈ ((View.whole main_v85).slice (win3_7.rect t)).set ↔ _
  rw [View.set_slice_whole, Rect.mem_set_unit]
  exact Iff.rfl

/-- Every row of the output array is in the block of the point `row / 5000`: the forty blocks tile the array. -/
theorem covered (i : S200000x1.Idx) : ∃ t : Fin cfg3.N, (cfg3.win 7).flush t = true ∧ i ∈ ((cfg3.win 7).blk t).view.set := by
  have hi0 : (i 0).val < 200000 := (i 0).isLt
  have hi1 : (i 1).val < 1 := (i 1).isLt
  have hN : cfg3.N = 40 := N_3
  have hlt : (i 0).val / 5000 < cfg3.N := by rw [hN]; omega
  obtain ⟨-, -, -, -, -, -, -, -, -, -, -, -, -, -, e0, e1⟩ := index_facts ⟨(i 0).val / 5000, hlt⟩
  refine ⟨⟨(i 0).val / 5000, hlt⟩, flush3_7 _, ?_⟩
  rw [mem_outBlock]
  intro a
  match a with
  | ⟨0, _⟩ =>
    show win3_7.index ⟨(i 0).val / 5000, hlt⟩ (0 : Fin 2) * 5000 ≤ (i 0).val ∧ (i 0).val < win3_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win3_7.index ⟨(i 0).val / 5000, hlt⟩ (1 : Fin 2) * 1 ≤ (i 1).val ∧ (i 1).val < win3_7.index ⟨(i 0).val / 5000, hlt⟩ (1 : Fin 2) * 1 + 1
    rw [e1]
    omega

/-- THE OUTPUT ARRAY after the region is `decoded` everywhere. -/
theorem final3_7 (c : Dev nD) : (dat3 (F := Ideal) V c).arrAt 7 cfg3.N
    = fun i => Ideal.logistic (Cert.Spec.affine (Cert.Spec.sage (V c main_v73) (V c main_v80) (V c main_v81) (V c main_v82) (V c main_v83)) (V c main_arg28) (V c main_v84) i) :=
  (dat3 (F := Ideal) V c).arrAt_eq_of_cover 7 (decoded V c) (fun t _ => flushed_eq V c t) covered

end Cert.KernelIdeal.RegionValue3

end
-- ==== Proof.LibConcatProduct.lean ====
/-
  A layer fed two column blocks is the layer fed their concatenation.

  With `cat = [x | y]` along the columns and `w₁`, `w₂` the first `a` and the remaining `b` rows of `w`,
  `Σ_{k < a + b} cat (p, k) · w (k, q) = Σ_{k < a} x (p, k) · w₁ (k, q) + Σ_{k < b} y (p, k) · w₂ (k, q)`: a finite sum over
  `a + b` positions splits into the first `a` and the last `b`, whatever the summands (no finiteness is used). So the
  positive part of two products against the row blocks plus a bias row (`Cert.Spec.sage`) is the host's maximum of (the
  concatenation's `dot_general` with `w` + the bias broadcast over the rows) with the broadcast zero.
-/
import proofs.«113350_j88553635709430_2_alg».proof.Proof.LibSageLaws
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ConcatProduct

open Idealize.ShloMosaic Idealize.ShloMosaic.ValueIdx

variable {A a b H : ℕ}

/-- The concatenation along the columns reads the first block at a column before `a` … -/
theorem cat_left (x : FVec Ideal ⟨2, ![A, a]⟩ .f32) (y : FVec Ideal ⟨2, ![A, b]⟩ .f32)
    (hcat : Shape.Concatenates [(⟨2, ![A, a]⟩ : Shape), ⟨2, ![A, b]⟩] ⟨2, ![A, a + b]⟩ 1) (p : Fin A) (k : Fin a) :
    concatenate ⟨2, ![A, a + b]⟩ 1 [⟨⟨2, ![A, a]⟩, x⟩, ⟨⟨2, ![A, b]⟩, y⟩] hcat (ix2 p (Fin.castAdd b k)) = x (ix2 p k) :=
  concatenate_pair_apply_left 1 x y hcat (ix2 p (Fin.castAdd b k)) rfl (ix2 p k) fun d => by
    match d with
    | ⟨0, _⟩ => rfl
    | ⟨1, _⟩ => rfl

/-- … and the second block, `a` columns earlier, at a column from `a` on. -/
theorem cat_right (x : FVec Ideal ⟨2, ![A, a]⟩ .f32) (y : FVec Ideal ⟨2, ![A, b]⟩ .f32)
    (hcat : Shape.Concatenates [(⟨2, ![A, a]⟩ : Shape), ⟨2, ![A, b]⟩] ⟨2, ![A, a + b]⟩ 1) (p : Fin A) (k : Fin b) :
    concatenate ⟨2, ![A, a + b]⟩ 1 [⟨⟨2, ![A, a]⟩, x⟩, ⟨⟨2, ![A, b]⟩, y⟩] hcat (ix2 p (Fin.natAdd a k)) = y (ix2 p k) :=
  concatenate_pair_apply_right 1 x y hcat (ix2 p (Fin.natAdd a k)) rfl rfl (ix2 p k)
    (fun d hd => by
      match d with
      | ⟨0, _⟩ => rfl
      | ⟨1, _⟩ => exact absurd rfl hd)
    (by show k.val + a = a + k.val; omega)

/-- The first `a` rows of `w` … -/
theorem rows_first (w : FVec Ideal ⟨2, ![a + b, H]⟩ .f32) (hs : (⟨2, ![a + b, H]⟩ : Shape).Slices ![0, 0] ⟨2, ![a, H]⟩)
    (k : Fin a) (q : Fin H) :
    extractStridedSlice ⟨2, ![a, H]⟩ ![0, 0] w hs (ix2 k q) = w (ix2 (Fin.castAdd b k) q) :=
  extractStridedSlice_apply ![0, 0] w hs (ix2 k q) (ix2 (Fin.castAdd b k) q) fun d => by
    match d with
    | ⟨0, _⟩ => show k.val = 0 + k.val; omega
    | ⟨1, _⟩ => show q.val = 0 + q.val; omega

/-- … and its remaining `b` rows. -/
theorem rows_rest (w : FVec Ideal ⟨2, ![a + b, H]⟩ .f32) (hs : (⟨2, ![a + b, H]⟩ : Shape).Slices ![a, 0] ⟨2, ![b, H]⟩)
    (k : Fin b) (q : Fin H) :
    extractStridedSlice ⟨2, ![b, H]⟩ ![a, 0] w hs (ix2 k q) = w (ix2 (Fin.natAdd a k) q) :=
  extractStridedSlice_apply ![a, 0] w hs (ix2 k q) (ix2 (Fin.natAdd a k) q) fun d => by
    match d with
    | ⟨0, _⟩ => rfl
    | ⟨1, _⟩ => show q.val = 0 + q.val; omega

/-- The layer fed the two blocks against the two row blocks of `w`, in the host's spelling over the concatenation. -/
theorem sage_concat_host (x : FVec Ideal ⟨2, ![A, a]⟩ .f32) (y : FVec Ideal ⟨2, ![A, b]⟩ .f32)
    (w : FVec Ideal ⟨2, ![a + b, H]⟩ .f32) (bias : FVec Ideal ⟨1, ![H]⟩ .f32)
    (hcat : Shape.Concatenates [(⟨2, ![A, a]⟩ : Shape), ⟨2, ![A, b]⟩] ⟨2, ![A, a + b]⟩ 1)
    (hs1 : (⟨2, ![a + b, H]⟩ : Shape).Slices ![0, 0] ⟨2, ![a, H]⟩) (hs2 : (⟨2, ![a + b, H]⟩ : Shape).Slices ![a, 0] ⟨2, ![b, H]⟩)
    (hc : (⟨1, ![H]⟩ : Shape).ShapeCasts ⟨2, ![1, H]⟩)
    (h1 : (⟨1, ![H]⟩ : Shape).BroadcastsInDim ⟨2, ![1, H]⟩ ![1]) (h2 : (⟨2, ![1, H]⟩ : Shape).BroadcastsInDim ⟨2, ![A, H]⟩ ![0, 1])
    (h0 : (⟨0, ![]⟩ : Shape).BroadcastsInDim ⟨2, ![A, H]⟩ ![]) :
    Cert.Spec.sage x y (extractStridedSlice ⟨2, ![a, H]⟩ ![0, 0] w hs1) (extractStridedSlice ⟨2, ![b, H]⟩ ![a, 0] w hs2)
        (shapeCast ⟨2, ![1, H]⟩ bias hc)
      = maximumf (addf (Host.dotGeneral (F := Ideal) (DotDims.plain A (a + b) H) none
            (concatenate ⟨2, ![A, a + b]⟩ 1 [⟨⟨2, ![A, a]⟩, x⟩, ⟨⟨2, ![A, b]⟩, y⟩] hcat) w)
          (broadcastInDim ⟨2, ![A, H]⟩ ![0, 1] h2 (broadcastInDim ⟨2, ![1, H]⟩ ![1] h1 bias)))
        (broadcastInDim ⟨2, ![A, H]⟩ ![] h0 (constant (F := Ideal) ⟨0, ![]⟩ .f32 0x00000000#32)) := by
  funext i
  obtain ⟨p, q, rfl⟩ : ∃ (p : Fin A) (q : Fin H), i = ix2 p q := ⟨i 0, i 1, eq_ix2 i⟩
  rw [Cert.Spec.sage_apply, shapeCast_a_1a_apply, maximumf_apply, addf_apply, Cert.SageLaws.rowSpread_apply,
    Cert.SageLaws.zeroSpread_apply]
  have hdot : Host.dotGeneral (F := Ideal) (DotDims.plain A (a + b) H) none
        (concatenate ⟨2, ![A, a + b]⟩ 1 [⟨⟨2, ![A, a]⟩, x⟩, ⟨⟨2, ![A, b]⟩, y⟩] hcat) w (ix2 p q)
      = (∑ k : Fin a, x (ix2 p k) * extractStridedSlice ⟨2, ![a, H]⟩ ![0, 0] w hs1 (ix2 k q))
        + ∑ k : Fin b, y (ix2 p k) * extractStridedSlice ⟨2, ![b, H]⟩ ![a, 0] w hs2 (ix2 k q) := by
    refine (PlainDot.dotGeneral_apply none .single _ w p q).trans ?_
    rw [Fin.sum_univ_add]
    congr 1
    · exact Finset.sum_congr rfl fun k _ => by rw [cat_left, rows_first]
    · exact Finset.sum_congr rfl fun k _ => by rw [cat_right, rows_rest]
  rw [hdot]

end Cert.ConcatProduct

end
-- ==== Proof.Chain3.lean ====
/-
  The last two host stretches and the decoder kernel of the idealized kernel program, read against the reference.

  The fourth stretch gathers the two embeddings along the label edges and cuts the decoder's first weight into its first and
  last sixty-four rows. The kernel multiplies each gathered half by its row block, adds the bias row, takes the positive
  part, projects, and applies the logistic function. The reference concatenates the two halves along the columns and
  multiplies by the whole weight: a sum over the hundred and twenty-eight joined columns is the sum over the first
  sixty-four plus the sum over the rest, so the hidden layers agree; its `1 / (1 + exp (- z))` is the logistic function.
  The last stretch is one reshape on both sides.
-/
import proofs.«113350_j88553635709430_2_alg».proof.Proof.Gen.KernelIdeal.Frame
import proofs.«113350_j88553635709430_2_alg».proof.Proof.Gen.ReferenceIdeal.Read
import proofs.«113350_j88553635709430_2_alg».proof.Proof.LibMeanScale
import proofs.«113350_j88553635709430_2_alg».proof.Proof.LibSageLaws
import proofs.«113350_j88553635709430_2_alg».proof.Proof.Chain2
import proofs.«113350_j88553635709430_2_alg».proof.Proof.Region3
import proofs.«113350_j88553635709430_2_alg».proof.Proof.LibDenseLayerLaws
import proofs.«113350_j88553635709430_2_alg».proof.Proof.LibConcatProduct
import Idealize.ShloMosaic.Lib.StableHlo.Run

set_option maxRecDepth 16384

noncomputable section

namespace Cert.KernelIdeal.Chain

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem W5_v50 : W5 m ρ c (Proc.devRef .tc main_v50) = val_main_v85 (F := Ideal) (a0 m c) (a1 m c) (a2 m c) (a3 m c) (a4 m c) (a7 m c) (a8 m c) (a9 m c) (a10 m c) (a11 m c) (a12 m c) (a13 m c) (a14 m c) (a15 m c) (a16 m c) (a17 m c) := by
  show StableHlo.after hostOps2 (W4 m ρ c) (Proc.devRef .tc main_v50) = _
  after_results_simp <;> exact W4_v50 m ρ c
theorem W6_v50 : W6 m ρ c (Proc.devRef .tc main_v50) = val_main_v85 (F := Ideal) (a0 m c) (a1 m c) (a2 m c) (a3 m c) (a4 m c) (a7 m c) (a8 m c) (a9 m c) (a10 m c) (a11 m c) (a12 m c) (a13 m c) (a14 m c) (a15 m c) (a16 m c) (a17 m c) :=
  (W6_of_ne m ρ c main_v50 (by decide)).trans (W5_v50 m ρ c)
theorem W5_arg5 : W5 m ρ c (Proc.devRef .tc main_arg5) = a5 m c := by
  show StableHlo.after hostOps2 (W4 m ρ c) (Proc.devRef .tc main_arg5) = _
  after_results_simp <;> exact W4_arg5 m ρ c
theorem W5_arg6 : W5 m ρ c (Proc.devRef .tc main_arg6) = a6 m c := by
  show StableHlo.after hostOps2 (W4 m ρ c) (Proc.devRef .tc main_arg6) = _
  after_results_simp <;> exact W4_arg6 m ρ c
theorem W5_arg26 : W5 m ρ c (Proc.devRef .tc main_arg26) = a26 m c := by
  show StableHlo.after hostOps2 (W4 m ρ c) (Proc.devRef .tc main_arg26) = _
  after_results_simp <;> exact W4_arg26 m ρ c
theorem W5_arg27 : W5 m ρ c (Proc.devRef .tc main_arg27) = a27 m c := by
  show StableHlo.after hostOps2 (W4 m ρ c) (Proc.devRef .tc main_arg27) = _
  after_results_simp <;> exact W4_arg27 m ρ c
theorem W5_arg28 : W5 m ρ c (Proc.devRef .tc main_arg28) = a28 m c := by
  show StableHlo.after hostOps2 (W4 m ρ c) (Proc.devRef .tc main_arg28) = _
  after_results_simp <;> exact W4_arg28 m ρ c
theorem W5_arg29 : W5 m ρ c (Proc.devRef .tc main_arg29) = a29 m c := by
  show StableHlo.after hostOps2 (W4 m ρ c) (Proc.devRef .tc main_arg29) = _
  after_results_simp <;> exact W4_arg29 m ρ c
theorem W6_arg5 : W6 m ρ c (Proc.devRef .tc main_arg5) = a5 m c :=
  (W6_of_ne m ρ c main_arg5 (by decide)).trans (W5_arg5 m ρ c)
theorem W6_arg6 : W6 m ρ c (Proc.devRef .tc main_arg6) = a6 m c :=
  (W6_of_ne m ρ c main_arg6 (by decide)).trans (W5_arg6 m ρ c)
theorem W6_arg26 : W6 m ρ c (Proc.devRef .tc main_arg26) = a26 m c :=
  (W6_of_ne m ρ c main_arg26 (by decide)).trans (W5_arg26 m ρ c)
theorem W6_arg27 : W6 m ρ c (Proc.devRef .tc main_arg27) = a27 m c :=
  (W6_of_ne m ρ c main_arg27 (by decide)).trans (W5_arg27 m ρ c)
theorem W6_arg28 : W6 m ρ c (Proc.devRef .tc main_arg28) = a28 m c :=
  (W6_of_ne m ρ c main_arg28 (by decide)).trans (W5_arg28 m ρ c)
theorem W6_arg29 : W6 m ρ c (Proc.devRef .tc main_arg29) = a29 m c :=
  (W6_of_ne m ρ c main_arg29 (by decide)).trans (W5_arg29 m ρ c)
theorem W7_arg28 : W7 m ρ c (Proc.devRef .tc main_arg28) = a28 m c := by
  show StableHlo.after hostOps3 (W6 m ρ c) (Proc.devRef .tc main_arg28) = _
  after_results_simp <;> exact W6_arg28 m ρ c

/-- The first embedding's rows at the label edges' sources. -/
theorem W7_v73 : W7 m ρ c (Proc.devRef .tc main_v73)
    = val_main_v148 (F := Ideal) (a0 m c) (a1 m c) (a2 m c) (a3 m c) (a4 m c) (a5 m c) (a7 m c) (a8 m c) (a9 m c) (a10 m c) (a11 m c) (a12 m c) (a13 m c) (a14 m c) (a15 m c) (a16 m c) (a17 m c) := by
  show StableHlo.after hostOps3 (W6 m ρ c) (Proc.devRef .tc main_v73) = _
  after_results_simp
  rw [W6_v50, W6_arg5]
  simp only [val_main_v148, val_main_v147, val_main_v146, val_main_v143, val_main_v142, val_main_c_28, val_main_v145, val_main_v144, val_main_c_29]
  rfl

/-- The second embedding's rows at the label edges' destinations. -/
theorem W7_v80 : W7 m ρ c (Proc.devRef .tc main_v80)
    = val_main_v155 (F := Ideal) (a0 m c) (a2 m c) (a6 m c) (a18 m c) (a19 m c) (a20 m c) (a21 m c) (a22 m c) (a23 m c) (a24 m c) (a25 m c) := by
  show StableHlo.after hostOps3 (W6 m ρ c) (Proc.devRef .tc main_v80) = _
  after_results_simp
  rw [W6_v66, W6_arg6]
  simp only [val_main_v155, val_main_v154, val_main_v153, val_main_v150, val_main_v149, val_main_c_30, val_main_v152, val_main_v151, val_main_c_31]
  rfl

/-- The decoder's first weight, its first and its last sixty-four rows. -/
theorem W7_v81 : W7 m ρ c (Proc.devRef .tc main_v81) = extractStridedSlice S64x64 ![0, 0] (a26 m c) slices_S128x64_S64x64_0_0 := by
  show StableHlo.after hostOps3 (W6 m ρ c) (Proc.devRef .tc main_v81) = _
  after_results_simp <;> rw [W6_arg26]
theorem W7_v82 : W7 m ρ c (Proc.devRef .tc main_v82) = extractStridedSlice S64x64 ![64, 0] (a26 m c) slices_S128x64_S64x64_64_0 := by
  show StableHlo.after hostOps3 (W6 m ρ c) (Proc.devRef .tc main_v82) = _
  after_results_simp <;> rw [W6_arg26]
theorem W7_v83 : W7 m ρ c (Proc.devRef .tc main_v83) = shapeCast S1x64 (a27 m c) shapeCasts_S64_S1x64 := by
  show StableHlo.after hostOps3 (W6 m ρ c) (Proc.devRef .tc main_v83) = _
  after_results_simp <;> (rw [W6_arg27]; rfl)
theorem W7_v84 : W7 m ρ c (Proc.devRef .tc main_v84) = shapeCast S1x1 (a29 m c) shapeCasts_S1_S1x1 := by
  show StableHlo.after hostOps3 (W6 m ρ c) (Proc.devRef .tc main_v84) = _
  after_results_simp <;> (rw [W6_arg29]; rfl)

/-- The decoder kernel's output is the reference's score column. -/
theorem W8_v85 : W8 m ρ c (Proc.devRef .tc main_v85) = val_main_v171 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) := by
  refine (W8_arr m ρ c 7).trans ?_
  rw [Cert.KernelIdeal.RegionValue3.final3_7 (V7 m ρ) c]
  show (fun i => Ideal.logistic (Cert.Spec.affine (Cert.Spec.sage (W7 m ρ c (Proc.devRef .tc main_v73)) (W7 m ρ c (Proc.devRef .tc main_v80))
      (W7 m ρ c (Proc.devRef .tc main_v81)) (W7 m ρ c (Proc.devRef .tc main_v82)) (W7 m ρ c (Proc.devRef .tc main_v83)))
    (W7 m ρ c (Proc.devRef .tc main_arg28)) (W7 m ρ c (Proc.devRef .tc main_v84)) i)) = _
  rw [W7_v73, W7_v80, W7_v81, W7_v82, W7_v83, W7_arg28, W7_v84]
  simp only [val_main_v171, val_main_v170, val_main_cst_33, val_main_v169, val_main_v168, val_main_cst_32, val_main_v167, val_main_v166, val_main_v165, val_main_v162, val_main_v161, val_main_v160, val_main_v157, val_main_v156, val_main_v159, val_main_v158, val_main_call5_v0, val_main_call5_cst, val_main_v164, val_main_v163]
  refine (Cert.SageLaws.logistic_host _ Cert.ReferenceIdeal.Facts₀.bcast_S_S200000x1).trans ?_
  rw [Cert.DenseLaws.affine_row _ _ _ _ Cert.ReferenceIdeal.Facts₀.bcast_S1_S1x1_1 Cert.ReferenceIdeal.Facts₀.bcast_S1x1_S200000x1_0_1,
    Cert.ConcatProduct.sage_concat_host (a := 64) (b := 64) _ _ (a26 m c) (a27 m c)
      Cert.ReferenceIdeal.Facts₀.concatenates_S200000x64_S200000x64_S200000x128_d1 _ _ _
      Cert.ReferenceIdeal.Facts₀.bcast_S64_S1x64_1 Cert.ReferenceIdeal.Facts₀.bcast_S1x64_S200000x64_0_1 Cert.ReferenceIdeal.Facts₀.bcast_S_S200000x64]
  rfl

/-- The program's result is the reference's. -/
theorem W9_v86 : W9 m ρ c (Proc.devRef .tc main_v86) = val_main_v172 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) (a24 m c) (a25 m c) (a26 m c) (a27 m c) (a28 m c) (a29 m c) := by
  show StableHlo.after hostOps4 (W8 m ρ c) (Proc.devRef .tc main_v86) = _
  after_results_simp
  rw [W8_v85]
  rfl

end Cert.KernelIdeal.Chain

end
-- ==== Proof.lean ====
/-
  A stacked neighbour-aggregation network with a pairwise decoder: the tiled kernels against the plain reference.

  Both programs aggregate neighbour features by a gather and a scatter-add on the host, take the mean by the neighbour
  count clipped at one, apply layers `max (mean · Wl + self · Wr + b) 0`, project, gather the two embeddings along the label
  edges, and decode by a two-layer perceptron and the logistic function. The kernel program differs in four ways, none of
  which changes an entry on the extended reals: its dense steps run tile by tile over the rows (an entry of a layer reads one
  row of its row-indexed operands); two of its means multiply by a reciprocal computed once instead of dividing (off zero
  `x · (1 / c) = x / c`, and a clipped count is never zero); its decoder multiplies the two gathered halves by the two row
  blocks of the weight instead of the concatenation by the whole weight (a sum over the joined columns splits); and it
  narrows operands before the products (a change of float format is the identity here). The reference takes two of the
  means twice, from the same values. So the result arrays agree entry by entry, with no use of the inputs' finiteness.

  The three frames: the two kernel programs' are their generated frame certificates; the reference's is its run with the
  result dropped. The idealization rewrote nothing, so there is nothing to preserve.
-/
import proofs.«113350_j88553635709430_2_alg».proof.Defs
import proofs.«113350_j88553635709430_2_alg».proof.Proof.Gen.Kernel
import proofs.«113350_j88553635709430_2_alg».proof.Proof.Gen.Kernel.Frame
import proofs.«113350_j88553635709430_2_alg».proof.Proof.Gen.KernelIdeal
import proofs.«113350_j88553635709430_2_alg».proof.Proof.Gen.KernelIdeal.Frame
import proofs.«113350_j88553635709430_2_alg».proof.Proof.Gen.ReferenceIdeal
import proofs.«113350_j88553635709430_2_alg».proof.Proof.Gen.Pre_finite_inputs
import proofs.«113350_j88553635709430_2_alg».proof.Proof.Gen.ReferenceIdeal.Run
import proofs.«113350_j88553635709430_2_alg».proof.Proof.Gen.ReferenceIdeal.Read
import proofs.«113350_j88553635709430_2_alg».proof.Proof.KernelRun
import proofs.«113350_j88553635709430_2_alg».proof.Proof.Chain3
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the reference's last stage of the kernel program's arguments: the kernel program by
    its run and the chain of its segments, the reference by its run and the agreement of the arguments. -/
theorem algebraic : Cert.algebraic_KernelIdeal_ReferenceIdeal := by
  intro m ρ m' ρ' _ hagree
  refine ⟨fun c => Cert.ReferenceIdeal.Read.val_main_v172 (F := Ideal) (Cert.KernelIdeal.Chain.a0 m c) (Cert.KernelIdeal.Chain.a1 m c) (Cert.KernelIdeal.Chain.a2 m c) (Cert.KernelIdeal.Chain.a3 m c) (Cert.KernelIdeal.Chain.a4 m c) (Cert.KernelIdeal.Chain.a5 m c) (Cert.KernelIdeal.Chain.a6 m c) (Cert.KernelIdeal.Chain.a7 m c) (Cert.KernelIdeal.Chain.a8 m c) (Cert.KernelIdeal.Chain.a9 m c) (Cert.KernelIdeal.Chain.a10 m c) (Cert.KernelIdeal.Chain.a11 m c) (Cert.KernelIdeal.Chain.a12 m c) (Cert.KernelIdeal.Chain.a13 m c) (Cert.KernelIdeal.Chain.a14 m c) (Cert.KernelIdeal.Chain.a15 m c) (Cert.KernelIdeal.Chain.a16 m c) (Cert.KernelIdeal.Chain.a17 m c) (Cert.KernelIdeal.Chain.a18 m c) (Cert.KernelIdeal.Chain.a19 m c) (Cert.KernelIdeal.Chain.a20 m c) (Cert.KernelIdeal.Chain.a21 m c) (Cert.KernelIdeal.Chain.a22 m c) (Cert.KernelIdeal.Chain.a23 m c) (Cert.KernelIdeal.Chain.a24 m c) (Cert.KernelIdeal.Chain.a25 m c) (Cert.KernelIdeal.Chain.a26 m c) (Cert.KernelIdeal.Chain.a27 m c) (Cert.KernelIdeal.Chain.a28 m c) (Cert.KernelIdeal.Chain.a29 m c), ?_, ?_⟩
  · exact (θ_run Cert.KernelIdeal.defs _ _).mono
      (fun r h c => ⟨(h c).1.trans (Cert.KernelIdeal.Chain.W9_v86 m ρ c), (h c).2⟩)
      (Cert.KernelIdeal.ValueRun.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18, e19, e20, e21, e22, e23, e24, e25, e26, e27, e28, e29⟩ := hagree c
    rw [(h c).1, Cert.ReferenceIdeal.Read.val_main_v172_eq, e0, e1, e2, e3, e4, e5, e6, e7, e8, e9, e10, e11, e12, e13, e14, e15, e16, e17, e18, e19, e20, e21, e22, e23, e24, e25, e26, e27, e28, e29]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
